-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S8x16384 : Shape := ⟨2, ![8, 16384]⟩
abbrev S2048 : Shape := ⟨1, ![2048]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel
  bcast_S_S8x16384 : S_.BroadcastsInDim S8x16384 (![] : Fin 0 → Fin S8x16384.rank)
  reducesTo_S8x16384_S_d0_1 : S8x16384.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S16384 .f32) (main_arg1 : FVec F S8x16384 .f32) (main_arg2 : FVec F S2048 .f32) : IVec S_ 1 :=
  let main_v0 : FVec F S16384 .f32 := Host.absf main_arg0
  let main_cst : FVec F S_ .f32 := constant S_ .f32 0x7F800000#32
  let main_v1 : FVec F S16384 .f32 := broadcastInDim S16384 ![] bcast_S_S16384 main_cst
  let main_v2 : IVec S16384 1 := cmpf .olt main_v0 main_v1
  let main_c : IVec S_ 1 := constantI S_ 1 1#1
  let main_v3 : IVec S_ 1 := (fun x v => Host.reduce IntOp.andi x v reducesTo_S16384_S_d0 h_S_) main_v2 main_c
  let main_v4 : FVec F S8x16384 .f32 := Host.absf main_arg1
  let main_cst_0 : FVec F S_ .f32 := constant S_ .f32 0x7F800000#32
  let main_v5 : FVec F S8x16384 .f32 := broadcastInDim S8x16384 ![] bcast_S_S8x16384 main_cst_0
  let main_v6 : IVec S8x16384 1 := cmpf .olt main_v4 main_v5
  let main_c_1 : IVec S_ 1 := constantI S_ 1 1#1
  let main_v7 : IVec S_ 1 := (fun x v => Host.reduce IntOp.andi x v reducesTo_S8x16384_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S16384 : Shape := ⟨1, ![16384]⟩
abbrev S8x16384 : Shape := ⟨2, ![8, 16384]⟩
abbrev S2048 : Shape := ⟨1, ![2048]⟩
abbrev S1 : Shape := ⟨1, ![1]⟩
abbrev S_ : Shape := ⟨0, ![]⟩
abbrev S16383 : Shape := ⟨1, ![16383]⟩
abbrev S16385 : Shape := ⟨1, ![16385]⟩
abbrev S2047 : Shape := ⟨1, ![2047]⟩
abbrev S2049 : Shape := ⟨1, ![2049]⟩
abbrev S1x16384 : Shape := ⟨2, ![1, 16384]⟩
abbrev S2048x1 : Shape := ⟨2, ![2048, 1]⟩
abbrev S1x2048 : Shape := ⟨2, ![1, 2048]⟩
abbrev S8x2048 : Shape := ⟨2, ![8, 2048]⟩
abbrev S256x1 : Shape := ⟨2, ![256, 1]⟩
abbrev S1x256 : Shape := ⟨2, ![1, 256]⟩
abbrev S8x256 : Shape := ⟨2, ![8, 256]⟩
abbrev S256x2048 : Shape := ⟨2, ![256, 2048]⟩

abbrev nBuf : Space → Nat
  | .hbm => 70
  | .vmem => 15
  | .smem => 0
  | _ => 0

abbrev bufTy : (tb : Table) → Fin (tcTables nBuf tb) → BufTy
  | .hbm, ⟨0, _⟩ => ⟨S16384, .f32⟩
  | .hbm, ⟨1, _⟩ => ⟨S8x16384, .f32⟩
  | .hbm, ⟨2, _⟩ => ⟨S2048, .f32⟩
  | .hbm, ⟨3, _⟩ => ⟨S1, .f32⟩
  | .hbm, ⟨4, _⟩ => ⟨S1, .f32⟩
  | .hbm, ⟨5, _⟩ => ⟨S_, .f32⟩
  | .hbm, ⟨6, _⟩ => ⟨S1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1, .f32⟩
  | .hbm, ⟨12, _⟩ => ⟨S1, .f32⟩
  | .hbm, ⟨13, _⟩ => ⟨S16383, .f32⟩
  | .hbm, ⟨14, _⟩ => ⟨S16383, .f32⟩
  | .hbm, ⟨15, _⟩ => ⟨S16383, .f32⟩
  | .hbm, ⟨16, _⟩ => ⟨S_, .f32⟩
  | .hbm, ⟨17, _⟩ => ⟨S16383, .f32⟩
  | .hbm, ⟨18, _⟩ => ⟨S16383, .f32⟩
  | .hbm, ⟨19, _⟩ => ⟨S1, .f32⟩
  | .hbm, ⟨20, _⟩ => ⟨S1, .f32⟩
  | .hbm, ⟨21, _⟩ => ⟨S_, .f32⟩
  | .hbm, ⟨22, _⟩ => ⟨S1, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S1, .f32⟩
  | .hbm, ⟨28, _⟩ => ⟨S1, .f32⟩
  | .hbm, ⟨29, _⟩ => ⟨S16385, .f32⟩
  | .hbm, ⟨30, _⟩ => ⟨S1, .f32⟩
  | .hbm, ⟨31, _⟩ => ⟨S1, .f32⟩
  | .hbm, ⟨32, _⟩ => ⟨S_, .f32⟩
  | .hbm, ⟨33, _⟩ => ⟨S1, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S1, .f32⟩
  | .hbm, ⟨39, _⟩ => ⟨S1, .f32⟩
  | .hbm, ⟨40, _⟩ => ⟨S2047, .f32⟩
  | .hbm, ⟨41, _⟩ => ⟨S2047, .f32⟩
  | .hbm, ⟨42, _⟩ => ⟨S2047, .f32⟩
  | .hbm, ⟨43, _⟩ => ⟨S_, .f32⟩
  | .hbm, ⟨44, _⟩ => ⟨S2047, .f32⟩
  | .hbm, ⟨45, _⟩ => ⟨S2047, .f32⟩
  | .hbm, ⟨46, _⟩ => ⟨S1, .f32⟩
  | .hbm, ⟨47, _⟩ => ⟨S1, .f32⟩
  | .hbm, ⟨48, _⟩ => ⟨S_, .f32⟩
  | .hbm, ⟨49, _⟩ => ⟨S1, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S1, .f32⟩
  | .hbm, ⟨55, _⟩ => ⟨S1, .f32⟩
  | .hbm, ⟨56, _⟩ => ⟨S2049, .f32⟩
  | .hbm, ⟨57, _⟩ => ⟨S2048, .f32⟩
  | .hbm, ⟨58, _⟩ => ⟨S2048, .f32⟩
  | .hbm, ⟨59, _⟩ => ⟨S2048, .f32⟩
  | .hbm, ⟨60, _⟩ => ⟨S16384, .f32⟩
  | .hbm, ⟨61, _⟩ => ⟨S1x16384, .f32⟩
  | .hbm, ⟨62, _⟩ => ⟨S16384, .f32⟩
  | .hbm, ⟨63, _⟩ => ⟨S1x16384, .f32⟩
  | .hbm, ⟨64, _⟩ => ⟨S2048, .f32⟩
  | .hbm, ⟨65, _⟩ => ⟨S2048x1, .f32⟩
  | .hbm, ⟨66, _⟩ => ⟨S2048, .f32⟩
  | .hbm, ⟨67, _⟩ => ⟨S2048x1, .f32⟩
  | .hbm, ⟨68, _⟩ => ⟨S1x2048, .f32⟩
  | .hbm, ⟨69, _⟩ => ⟨S8x2048, .f32⟩
  | .local _ .vmem, ⟨0, _⟩ => ⟨S8x2048, .f32⟩
  | .local _ .vmem, ⟨1, _⟩ => ⟨S8x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S256x1, .f32⟩
  | .local _ .vmem, ⟨7, _⟩ => ⟨S256x1, .f32⟩
  | .local _ .vmem, ⟨8, _⟩ => ⟨S256x1, .f32⟩
  | .local _ .vmem, ⟨9, _⟩ => ⟨S256x1, .f32⟩
  | .local _ .vmem, ⟨10, _⟩ => ⟨S1x256, .f32⟩
  | .local _ .vmem, ⟨11, _⟩ => ⟨S1x256, .f32⟩
  | .local _ .vmem, ⟨12, _⟩ => ⟨S8x256, .f32⟩
  | .local _ .vmem, ⟨13, _⟩ => ⟨S8x256, .f32⟩
  | .local _ .vmem, ⟨14, _⟩ => ⟨S8x256, .f32⟩
  | _, _ => ⟨S16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_2 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_3 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_4 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v29 : BitVec 1 := Scalar.cmpi .eq arg1 c7_i32
  let v30 : BitVec 32 := Scalar.extui v29
  let c0_i32_15 : BitVec 32 := 0#32
  let v31 : BitVec 1 := Scalar.cmpi .ne v30 c0_i32_15
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  slices_S16384_S1_0 : S16384.Slices ![0] S1
  slices_S16384_S1_1 : S16384.Slices ![1] S1
  shapeCasts_S1_S_ : S1.ShapeCasts S_
  bcast_S_S1 : S_.BroadcastsInDim S1 (![] : Fin 0 → Fin S1.rank)
  slices_S16384_S16383_1 : S16384.Slices ![1] S16383
  slices_S16384_S16383_0 : S16384.Slices ![0] S16383
  bcast_S_S16383 : S_.BroadcastsInDim S16383 (![] : Fin 0 → Fin S16383.rank)
  slices_S16384_S1_16383 : S16384.Slices ![16383] S1
  slices_S16384_S1_16382 : S16384.Slices ![16382] S1
  concatenates_S1_S16383_S1_S16385_d0 : Shape.Concatenates [S1, S16383, S1] S16385 0
  slices_S2048_S1_0 : S2048.Slices ![0] S1
  slices_S2048_S1_1 : S2048.Slices ![1] S1
  slices_S2048_S2047_1 : S2048.Slices ![1] S2047
  slices_S2048_S2047_0 : S2048.Slices ![0] S2047
  bcast_S_S2047 : S_.BroadcastsInDim S2047 (![] : Fin 0 → Fin S2047.rank)
  slices_S2048_S1_2047 : S2048.Slices ![2047] S1
  slices_S2048_S1_2046 : S2048.Slices ![2046] S1
  concatenates_S1_S2047_S1_S2049_d0 : Shape.Concatenates [S1, S2047, S1] S2049 0
  slices_S2049_S2048_1 : S2049.Slices ![1] S2048
  slices_S2049_S2048_0 : S2049.Slices ![0] S2048
  slices_S16385_S16384_0 : S16385.Slices ![0] S16384
  shapeCasts_S16384_S1x16384 : S16384.ShapeCasts S1x16384
  slices_S16385_S16384_1 : S16385.Slices ![1] S16384
  shapeCasts_S2048_S2048x1 : S2048.ShapeCasts S2048x1
  shapeCasts_S2048_S1x2048 : S2048.ShapeCasts S1x2048
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x2048 : S256x1.Broadcasts S256x2048
  broadcasts_S1x2048_S256x2048 : S1x2048.Broadcasts S256x2048
  inb_S8x2048_S8x2048_0_0 : ∀ a, (![0, 0] : Fin 2 → Nat) a + S8x2048.size a ≤ S8x2048.size a
  h_S8x2048 : 0 < S8x2048.numel
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8x256 : S1x256.Broadcasts S8x256
  dot_S8x2048_S256x2048_S8x256_1_1_0_0_n_n_wf : DotDims.WF S8x2048 S256x2048 S8x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x2048.size a ≤ S8x16384.size a
  hwx0_0 : ∀ i : grid0.Coords, EltTy.bits .f32 = 32 ∨ (Rect.block (s := S8x16384) S8x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x16384.size a
  hwx0_1 : ∀ i : grid0.Coords, EltTy.bits .f32 = 32 ∨ (Rect.block (s := S1x16384) S1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x16384.size a
  hwx0_2 : ∀ i : grid0.Coords, EltTy.bits .f32 = 32 ∨ (Rect.block (s := S1x16384) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S2048x1.size a
  hwx0_3 : ∀ i : grid0.Coords, EltTy.bits .f32 = 32 ∨ (Rect.block (s := S2048x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S2048x1.size a
  hwx0_4 : ∀ i : grid0.Coords, EltTy.bits .f32 = 32 ∨ (Rect.block (s := S2048x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x2048.size a
  hwx0_5 : ∀ i : grid0.Coords, EltTy.bits .f32 = 32 ∨ (Rect.block (s := S1x2048) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x256.size a ≤ S8x2048.size a
  hwx0_6 : ∀ i : grid0.Coords, EltTy.bits .f32 = 32 ∨ (Rect.block (s := S8x2048) S8x256.size (cc0_transform_6 i) (hinb0_6 i)).WholeWords (EltTy.packing .f32)

variable [Facts₀]

def dot_S8x2048_S256x2048_S8x256_1_1_0_0_n_n : DotDims S8x2048 S256x2048 S8x256 where
  lhsContracting := [1]
  rhsContracting := [1]
  lhsNonContracting := [0]
  rhsNonContracting := [0]
  lhsBatch := []
  rhsBatch := []
  wf := dot_S8x2048_S256x2048_S8x256_1_1_0_0_n_n_wf

abbrev win0_0 : Pipeline.Window sig grid0 :=
  Pipeline.Window.ofSpec (Memref.whole main_arg1) S8x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v52) S1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v54) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v56) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v58) S256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v59) S1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v60) S8x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S16384 : Shape := ⟨1, ![16384]⟩
abbrev S8x16384 : Shape := ⟨2, ![8, 16384]⟩
abbrev S2048 : Shape := ⟨1, ![2048]⟩
abbrev S1 : Shape := ⟨1, ![1]⟩
abbrev S_ : Shape := ⟨0, ![]⟩
abbrev S16383 : Shape := ⟨1, ![16383]⟩
abbrev S16385 : Shape := ⟨1, ![16385]⟩
abbrev S2047 : Shape := ⟨1, ![2047]⟩
abbrev S2049 : Shape := ⟨1, ![2049]⟩
abbrev S2048x1 : Shape := ⟨2, ![2048, 1]⟩
abbrev S1x16384 : Shape := ⟨2, ![1, 16384]⟩
abbrev S2048x16384 : Shape := ⟨2, ![2048, 16384]⟩
abbrev S8x2048 : Shape := ⟨2, ![8, 2048]⟩
abbrev S1x2048 : Shape := ⟨2, ![1, 2048]⟩

abbrev nBuf : Space → Nat
  | .hbm => 92
  | .vmem => 0
  | .smem => 0
  | _ => 0

abbrev bufTy : (tb : Table) → Fin (tcTables nBuf tb) → BufTy
  | .hbm, ⟨0, _⟩ => ⟨S16384, .f32⟩
  | .hbm, ⟨1, _⟩ => ⟨S8x16384, .f32⟩
  | .hbm, ⟨2, _⟩ => ⟨S2048, .f32⟩
  | .hbm, ⟨3, _⟩ => ⟨S1, .f32⟩
  | .hbm, ⟨4, _⟩ => ⟨S1, .f32⟩
  | .hbm, ⟨5, _⟩ => ⟨S_, .f32⟩
  | .hbm, ⟨6, _⟩ => ⟨S1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1, .f32⟩
  | .hbm, ⟨12, _⟩ => ⟨S1, .f32⟩
  | .hbm, ⟨13, _⟩ => ⟨S16383, .f32⟩
  | .hbm, ⟨14, _⟩ => ⟨S16383, .f32⟩
  | .hbm, ⟨15, _⟩ => ⟨S16383, .f32⟩
  | .hbm, ⟨16, _⟩ => ⟨S_, .f32⟩
  | .hbm, ⟨17, _⟩ => ⟨S16383, .f32⟩
  | .hbm, ⟨18, _⟩ => ⟨S16383, .f32⟩
  | .hbm, ⟨19, _⟩ => ⟨S1, .f32⟩
  | .hbm, ⟨20, _⟩ => ⟨S1, .f32⟩
  | .hbm, ⟨21, _⟩ => ⟨S_, .f32⟩
  | .hbm, ⟨22, _⟩ => ⟨S1, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S1, .f32⟩
  | .hbm, ⟨28, _⟩ => ⟨S1, .f32⟩
  | .hbm, ⟨29, _⟩ => ⟨S16385, .f32⟩
  | .hbm, ⟨30, _⟩ => ⟨S1, .f32⟩
  | .hbm, ⟨31, _⟩ => ⟨S1, .f32⟩
  | .hbm, ⟨32, _⟩ => ⟨S_, .f32⟩
  | .hbm, ⟨33, _⟩ => ⟨S1, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S1, .f32⟩
  | .hbm, ⟨39, _⟩ => ⟨S1, .f32⟩
  | .hbm, ⟨40, _⟩ => ⟨S2047, .f32⟩
  | .hbm, ⟨41, _⟩ => ⟨S2047, .f32⟩
  | .hbm, ⟨42, _⟩ => ⟨S2047, .f32⟩
  | .hbm, ⟨43, _⟩ => ⟨S_, .f32⟩
  | .hbm, ⟨44, _⟩ => ⟨S2047, .f32⟩
  | .hbm, ⟨45, _⟩ => ⟨S2047, .f32⟩
  | .hbm, ⟨46, _⟩ => ⟨S1, .f32⟩
  | .hbm, ⟨47, _⟩ => ⟨S1, .f32⟩
  | .hbm, ⟨48, _⟩ => ⟨S_, .f32⟩
  | .hbm, ⟨49, _⟩ => ⟨S1, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S1, .f32⟩
  | .hbm, ⟨55, _⟩ => ⟨S1, .f32⟩
  | .hbm, ⟨56, _⟩ => ⟨S2049, .f32⟩
  | .hbm, ⟨57, _⟩ => ⟨S16384, .f32⟩
  | .hbm, ⟨58, _⟩ => ⟨S16384, .f32⟩
  | .hbm, ⟨59, _⟩ => ⟨S16384, .f32⟩
  | .hbm, ⟨60, _⟩ => ⟨S2048, .f32⟩
  | .hbm, ⟨61, _⟩ => ⟨S2048, .f32⟩
  | .hbm, ⟨62, _⟩ => ⟨S2048, .f32⟩
  | .hbm, ⟨63, _⟩ => ⟨S2048, .f32⟩
  | .hbm, ⟨64, _⟩ => ⟨S2048x1, .f32⟩
  | .hbm, ⟨65, _⟩ => ⟨S16384, .f32⟩
  | .hbm, ⟨66, _⟩ => ⟨S1x16384, .f32⟩
  | .hbm, ⟨67, _⟩ => ⟨S2048x16384, .f32⟩
  | .hbm, ⟨68, _⟩ => ⟨S2048x16384, .f32⟩
  | .hbm, ⟨69, _⟩ => ⟨S2048x16384, .f32⟩
  | .hbm, ⟨70, _⟩ => ⟨S2048, .f32⟩
  | .hbm, ⟨71, _⟩ => ⟨S2048x1, .f32⟩
  | .hbm, ⟨72, _⟩ => ⟨S16384, .f32⟩
  | .hbm, ⟨73, _⟩ => ⟨S1x16384, .f32⟩
  | .hbm, ⟨74, _⟩ => ⟨S2048x16384, .f32⟩
  | .hbm, ⟨75, _⟩ => ⟨S2048x16384, .f32⟩
  | .hbm, ⟨76, _⟩ => ⟨S2048x16384, .f32⟩
  | .hbm, ⟨77, _⟩ => ⟨S2048x16384, .f32⟩
  | .hbm, ⟨78, _⟩ => ⟨S_, .i32⟩
  | .hbm, ⟨79, _⟩ => ⟨S_, .f32⟩
  | .hbm, ⟨80, _⟩ => ⟨S2048x16384, .f32⟩
  | .hbm, ⟨81, _⟩ => ⟨S2048x16384, .f32⟩
  | .hbm, ⟨82, _⟩ => ⟨S1x16384, .f32⟩
  | .hbm, ⟨83, _⟩ => ⟨S2048x16384, .f32⟩
  | .hbm, ⟨84, _⟩ => ⟨S2048x16384, .f32⟩
  | .hbm, ⟨85, _⟩ => ⟨S1x16384, .f32⟩
  | .hbm, ⟨86, _⟩ => ⟨S8x16384, .f32⟩
  | .hbm, ⟨87, _⟩ => ⟨S8x16384, .f32⟩
  | .hbm, ⟨88, _⟩ => ⟨S8x2048, .f32⟩
  | .hbm, ⟨89, _⟩ => ⟨S1x2048, .f32⟩
  | .hbm, ⟨90, _⟩ => ⟨S8x2048, .f32⟩
  | .hbm, ⟨91, _⟩ => ⟨S8x2048, .f32⟩
  | _, _ => ⟨S16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_2 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_3 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_4 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_c : Ref sig .tc := ⟨.hbm, 78, rfl⟩
abbrev main_call0_v0 : Ref sig .tc := ⟨.hbm, 79, rfl⟩
abbrev main_call0_v1 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩

abbrev nD : Nat := 1
abbrev τ : Topo := Topo.v7x

variable {F : FTy → Type} [FloatOps F]

class Facts₀ : Prop where
  slices_S16384_S1_0 : S16384.Slices ![0] S1
  slices_S16384_S1_1 : S16384.Slices ![1] S1
  shapeCasts_S1_S_ : S1.ShapeCasts S_
  bcast_S_S1 : S_.BroadcastsInDim S1 (![] : Fin 0 → Fin S1.rank)
  slices_S16384_S16383_1 : S16384.Slices ![1] S16383
  slices_S16384_S16383_0 : S16384.Slices ![0] S16383
  bcast_S_S16383 : S_.BroadcastsInDim S16383 (![] : Fin 0 → Fin S16383.rank)
  slices_S16384_S1_16383 : S16384.Slices ![16383] S1
  slices_S16384_S1_16382 : S16384.Slices ![16382] S1
  concatenates_S1_S16383_S1_S16385_d0 : Shape.Concatenates [S1, S16383, S1] S16385 0
  slices_S2048_S1_0 : S2048.Slices ![0] S1
  slices_S2048_S1_1 : S2048.Slices ![1] S1
  slices_S2048_S2047_1 : S2048.Slices ![1] S2047
  slices_S2048_S2047_0 : S2048.Slices ![0] S2047
  bcast_S_S2047 : S_.BroadcastsInDim S2047 (![] : Fin 0 → Fin S2047.rank)
  slices_S2048_S1_2047 : S2048.Slices ![2047] S1
  slices_S2048_S1_2046 : S2048.Slices ![2046] S1
  concatenates_S1_S2047_S1_S2049_d0 : Shape.Concatenates [S1, S2047, S1] S2049 0
  slices_S16385_S16384_1 : S16385.Slices ![1] S16384
  slices_S16385_S16384_0 : S16385.Slices ![0] S16384
  slices_S2049_S2048_1 : S2049.Slices ![1] S2048
  slices_S2049_S2048_0 : S2049.Slices ![0] S2048
  bcast_S2048_S2048x1_0 : S2048.BroadcastsInDim S2048x1 (![0] : Fin 1 → Fin S2048x1.rank)
  bcast_S16384_S1x16384_1 : S16384.BroadcastsInDim S1x16384 (![1] : Fin 1 → Fin S1x16384.rank)
  bcast_S2048x1_S2048x16384_0_1 : S2048x1.BroadcastsInDim S2048x16384 (![0, 1] : Fin 2 → Fin S2048x16384.rank)
  bcast_S1x16384_S2048x16384_0_1 : S1x16384.BroadcastsInDim S2048x16384 (![0, 1] : Fin 2 → Fin S2048x16384.rank)
  bcast_S_S2048x16384 : S_.BroadcastsInDim S2048x16384 (![] : Fin 0 → Fin S2048x16384.rank)
  bcast_S1x16384_S8x16384_0_1 : S1x16384.BroadcastsInDim S8x16384 (![0, 1] : Fin 2 → Fin S8x16384.rank)
  bcast_S2048_S1x2048_1 : S2048.BroadcastsInDim S1x2048 (![1] : Fin 1 → Fin S1x2048.rank)
  bcast_S1x2048_S8x2048_0_1 : S1x2048.BroadcastsInDim S8x2048 (![0, 1] : Fin 2 → Fin S8x2048.rank)
  dot_S8x16384_S2048x16384_S8x2048_1_1_0_0_n_n_wf : DotDims.WF S8x16384 S2048x16384 S8x2048 [1] [1] [0] [0] [] []

variable [Facts₀]

def dot_S8x16384_S2048x16384_S8x2048_1_1_0_0_n_n : DotDims S8x16384 S2048x16384 S8x2048 where
  lhsContracting := [1]
  rhsContracting := [1]
  lhsNonContracting := [0]
  rhsNonContracting := [0]
  lhsBatch := []
  rhsBatch := []
  wf := dot_S8x16384_S2048x16384_S8x2048_1_1_0_0_n_n_wf

class Facts : Prop extends Facts₀ where

variable [Facts]
-- ==== Proof.K.Kit.lean ====
/-
  The kernel program, as printed, around its one pipelined region: what the region finds and what the frame needs.

  @main is 66 host operations (they build the two edge vectors, cut them into the lower and upper edges of every bin and
  into the output bins' widths) followed by the region. None of them writes an argument array, so the region finds the
  three arguments as launched. The region's grid is 8 × 8: the first axis runs over the 8 tiles of 256 output bins, the
  second over the 8 tiles of 2048 input bins; the points are visited with the second axis fastest, so point t is output
  tile t / 8 at input tile t % 8. The body clears its accumulator at input tile 0, adds one tile's partial sums at every
  point, and divides by the bins' widths into the output block at input tile 7, where alone the block is written back.
-/
import proofs.«149649_j24970939859722_1_alg».proof.Proof.Gen.Kernel.Launch
import proofs.«149649_j24970939859722_1_alg».proof.Proof.Gen.Kernel.Skeleton
import proofs.«149649_j24970939859722_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core c's buffers when the region is entered: the launch memory after the 66 host operations. -/
abbrev V (c : Dev nD) (b : Ref sig .tc) : Buf (Elt F) ((c : Thread nD τ).loc b) := StableHlo.after hostOps0 (fun b => m (c, b)) b

/-- The host operations allocate nothing. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Each host operation writes its own result buffer, never an argument: the region finds the wavelengths of the input
    grid, the flux table and the wavelengths of the output grid as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The windows' blocks -/

/-- Window w's block at point t, cut out of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds the window's block at every point, whether the pipeline fetched it
    there or not (where it did not, the block index has not moved since the last fetch), for any proof data over the
    region-entry arrays whose body leaves that input in place. One statement per input window. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The two branches of the body, decided over the grid -/

/-- "This is the first tile of input bins": the condition under which the body clears its accumulator. -/
abbrev isFirst (i : grid0.Coords) : Prop := (Scalar.cmpi .ne (Scalar.extui (Scalar.cmpi .eq (BitVec.ofNat 32 (i 1).val) 0#32)) 0#32) = 1#1
/-- "This is the last tile of input bins": the condition under which the body divides and stores the output block. -/
abbrev isLast (i : grid0.Coords) : Prop := k0_cond2 i = 1#1

theorem isFirst_iff : ∀ t : Fin cfg0.N, isFirst (grid0.coords t) ↔ t.val % 8 = 0 :=
  (by decide +kernel : ∀ t : Fin grid0.N, isFirst (grid0.coords t) ↔ t.val % 8 = 0)
theorem isLast_iff : ∀ t : Fin cfg0.N, isLast (grid0.coords t) ↔ t.val % 8 = 7 :=
  (by decide +kernel : ∀ t : Fin grid0.N, isLast (grid0.coords t) ↔ t.val % 8 = 7)

/-- The inputs are never idle; the output window is idle exactly off the last input tile, and is written back exactly
    on it. -/
theorem live_in : ∀ (w : Fin 7), w.val < 6 → ∀ t : Fin cfg0.N, cfg0.idle w (grid0.coords t) = false := by decide +kernel
theorem idle_out_of_not_last : ∀ t : Fin cfg0.N, ¬isLast (grid0.coords t) → cfg0.idle 6 (grid0.coords t) = true := by decide +kernel
theorem noflush_of_not_last : ∀ t : Fin cfg0.N, ¬isLast (grid0.coords t) → (cfg0.win 6).flush t = false := by decide +kernel
theorem live_out_of_last : ∀ t : Fin cfg0.N, isLast (grid0.coords t) → cfg0.idle 6 (grid0.coords t) = false := by decide +kernel

/-! ## The staging memrefs and the accumulator -/

/-- Each window's current staging memref at point t, as the pipeline passes it to the body, and its wholeness. -/
abbrev ms0 (t : Fin cfg0.N) : Memref sig .tc .vmem S8x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S8x256 .f32 := win0_6.stage (cfg0.slots t 6)
abbrev hs6 (t : Fin cfg0.N) : (ms6 t).IsWhole := hstage0_6 ((cfg0.slots t 6).cast nbuf0_6)
/-- The accumulator: the kernel's one scratch buffer, whole. -/
abbrev accM : Memref sig .tc .vmem S8x256 .f32 := Memref.whole cc0_scratch0
/-- Views through which an 8 × 256 buffer's contents are stated (which buffer is immaterial). -/
abbrev accV : View sig .tc .vmem S8x256 .f32 := accM.view
abbrev outV : View sig .tc .vmem S8x256 .f32 := (Memref.whole cc0_stg6_0 : Memref sig .tc .vmem S8x256 .f32).view

/-- What the region hands the body besides the windows: the accumulator at some contents and the generator register
    at some state. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

/-! ## The frame from a frame run -/

/-- A run of @main that ends with every array of the pipeline at what the proof data say and every other unscoped buffer
    as the region found it leaves the three arguments as launched: the flux table is an input window's array, which the
    pipeline only reads; the two wavelength grids are no window's array. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      ((h c).1 0).trans (((dats 0 c).arrAt_in 0 rfl _).trans ((hA c 0).trans (V_main_arg1 m c))),
      ((h c).2 main_arg2 (Pipeline.mem_restRefs_of main_arg2 (by decide) (by decide))).trans (V_main_arg2 m c)⟩) h

end Cert.Kernel.Hand

end
-- ==== Proof.K.RunMid.lean ====
/-
  The kernel body at a point that is neither the first nor the last tile of input bins: it loads the six input blocks
  and the accumulator, and stores the accumulator plus this tile's partial sums back; the output block's buffer is
  not touched. The body's one store into the accumulator is found by running the body.
-/
import proofs.«149649_j24970939859722_1_alg».proof.Proof.K.Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body stores into the accumulator at a middle point, with the proof that, run on whole staging
    memrefs — the six inputs at contents x0 … x5, the output buffer at any contents xo (handed back untouched), the
    accumulator at what the point before left, xs —, the body reaches its continuation with the inputs and the output
    buffer as they were and the accumulator with those pieces written. -/
noncomputable def runMid (c : Dev nD) (i : grid0.Coords) (a2 : Memref sig .tc .vmem S8x2048 .f32) (h2 : a2.IsWhole) (a3 : Memref sig .tc .vmem S1x2048 .f32) (h3 : a3.IsWhole) (a4 : Memref sig .tc .vmem S1x2048 .f32) (h4 : a4.IsWhole) (a5 : Memref sig .tc .vmem S256x1 .f32) (h5 : a5.IsWhole) (a6 : Memref sig .tc .vmem S256x1 .f32) (h6 : a6.IsWhole) (a7 : Memref sig .tc .vmem S1x256 .f32) (h7 : a7.IsWhole) (a8 : Memref sig .tc .vmem S8x256 .f32) (h8 : a8.IsWhole) (a9 : Memref sig .tc .vmem S8x256 .f32) (h9 : a9.IsWhole)
    (hf : ¬isFirst i) (hl : ¬isLast i) (x0 : Vec F S8x2048 .f32) (x1 x2 : Vec F S1x2048 .f32) (x3 x4 : Vec F S256x1 .f32) (x5 : Vec F S1x256 .f32) (xs : Vec F S8x256 .f32) :
    { LS : List (View.Piece (Elt F) S8x256 .f32) //
      ∀ (xo : Vec F S8x256 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare xo ∗ owns (c : Thread nD τ) a9 fullShare xs
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare xo ∗ (∃ f, a9.view.loc (c : Thread nD τ) ↦[a9.view.set]{fullShare} a9.view.writes (Elt F) f LS)) -∗ K ⟨⟩))
          ⊢ wp frame (wpE (defs₀ (F := F)) Variants.none c none) E (cc0__kernel i a2 h2 a3 h3 a4 h4 a5 h5 a6 h6 a7 h7 a8 h8 a9 h9) K } := by
  refine ⟨?_, fun xo E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5; obtain rfl := h8.eq_unread hf6; obtain rfl := h9.eq_unread hfs
    sl_exec (disch := first | exact hf | exact hl)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; · ipureintro; exact h8.read_unread _
      iexact H6
    iexists _; iexact HS

end Cert.Kernel.Hand

end
-- ==== Proof.K.RunFirst.lean ====
/-
  The kernel body at the first tile of input bins: it overwrites the accumulator with zeros, then loads the six input
  blocks and the accumulator and stores the accumulator plus this tile's partial sums back; the output block's buffer is
  not touched. Whatever the accumulator held before is never seen. The stores are found by running the body.
-/
import proofs.«149649_j24970939859722_1_alg».proof.Proof.K.RunMid

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body stores into the accumulator at a first-tile point (the later store first), with the proof that,
    run on whole staging memrefs — the six inputs at contents x0 … x5, the output buffer at any contents xo (handed back
    untouched), the accumulator at anything —, the body reaches its continuation with the inputs and the output buffer
    as they were and the accumulator with those pieces written. -/
noncomputable def runFirst (c : Dev nD) (i : grid0.Coords) (a2 : Memref sig .tc .vmem S8x2048 .f32) (h2 : a2.IsWhole) (a3 : Memref sig .tc .vmem S1x2048 .f32) (h3 : a3.IsWhole) (a4 : Memref sig .tc .vmem S1x2048 .f32) (h4 : a4.IsWhole) (a5 : Memref sig .tc .vmem S256x1 .f32) (h5 : a5.IsWhole) (a6 : Memref sig .tc .vmem S256x1 .f32) (h6 : a6.IsWhole) (a7 : Memref sig .tc .vmem S1x256 .f32) (h7 : a7.IsWhole) (a8 : Memref sig .tc .vmem S8x256 .f32) (h8 : a8.IsWhole) (a9 : Memref sig .tc .vmem S8x256 .f32) (h9 : a9.IsWhole)
    (hf : isFirst i) (hl : ¬isLast i) (x0 : Vec F S8x2048 .f32) (x1 x2 : Vec F S1x2048 .f32) (x3 x4 : Vec F S256x1 .f32) (x5 : Vec F S1x256 .f32) :
    { LS : List (View.Piece (Elt F) S8x256 .f32) //
      ∀ (xo : Vec F S8x256 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare xo ∗ (∃ d, owns (c : Thread nD τ) a9 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare xo ∗ (∃ f, a9.view.loc (c : Thread nD τ) ↦[a9.view.set]{fullShare} a9.view.writes (Elt F) f LS)) -∗ K ⟨⟩))
          ⊢ wp frame (wpE (defs₀ (F := F)) Variants.none c none) E (cc0__kernel i a2 h2 a3 h3 a4 h4 a5 h5 a6 h6 a7 h7 a8 h8 a9 h9) K } := by
  refine ⟨?_, fun xo E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5; obtain rfl := h8.eq_unread hf6
    sl_exec (disch := first | exact hf | exact hl)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; · ipureintro; exact h8.read_unread _
      iexact H6
    iexists _; iexact HS

end Cert.Kernel.Hand

end
-- ==== Proof.K.RunLast.lean ====
/-
  The kernel body at the last tile of input bins: it adds this tile's partial sums into the accumulator as at every
  point, then divides the accumulator by the output bins' widths and stores the quotient over the whole output block.
  Both stores are found by running the body.
-/
import proofs.«149649_j24970939859722_1_alg».proof.Proof.K.RunFirst

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body stores into the output block's buffer and into the accumulator at a last-tile point, with the
    proof that, run on whole staging memrefs — the six inputs at contents x0 … x5, the output buffer at anything, the
    accumulator at what the point before left, xs —, the body reaches its continuation with the inputs as they were
    and the two buffers with those pieces written. -/
noncomputable def runLast (c : Dev nD) (i : grid0.Coords) (a2 : Memref sig .tc .vmem S8x2048 .f32) (h2 : a2.IsWhole) (a3 : Memref sig .tc .vmem S1x2048 .f32) (h3 : a3.IsWhole) (a4 : Memref sig .tc .vmem S1x2048 .f32) (h4 : a4.IsWhole) (a5 : Memref sig .tc .vmem S256x1 .f32) (h5 : a5.IsWhole) (a6 : Memref sig .tc .vmem S256x1 .f32) (h6 : a6.IsWhole) (a7 : Memref sig .tc .vmem S1x256 .f32) (h7 : a7.IsWhole) (a8 : Memref sig .tc .vmem S8x256 .f32) (h8 : a8.IsWhole) (a9 : Memref sig .tc .vmem S8x256 .f32) (h9 : a9.IsWhole)
    (hf : ¬isFirst i) (hl : isLast i) (x0 : Vec F S8x2048 .f32) (x1 x2 : Vec F S1x2048 .f32) (x3 x4 : Vec F S256x1 .f32) (x5 : Vec F S1x256 .f32) (xs : Vec F S8x256 .f32) :
    Σ' (LO : List (View.Piece (Elt F) S8x256 .f32)), { LS : List (View.Piece (Elt F) S8x256 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ (∃ d, owns (c : Thread nD τ) a8 fullShare d) ∗ owns (c : Thread nD τ) a9 fullShare xs
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ (∃ f, a8.view.loc (c : Thread nD τ) ↦[a8.view.set]{fullShare} a8.view.writes (Elt F) f LO) ∗ (∃ f, a9.view.loc (c : Thread nD τ) ↦[a9.view.set]{fullShare} a9.view.writes (Elt F) f LS)) -∗ K ⟨⟩))
          ⊢ wp frame (wpE (defs₀ (F := F)) Variants.none c none) E (cc0__kernel i a2 h2 a3 h3 a4 h4 a5 h5 a6 h6 a7 h7 a8 h8 a9 h9) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5; obtain rfl := h9.eq_unread hfs
    sl_exec (disch := first | exact hf | exact hl)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]; · iexists _; iexact H6
    iexists _; iexact HS

end Cert.Kernel.Hand

end
-- ==== Proof.K.Frame.lean ====
/-
  The frame of the kernel program as printed (every float a word): the accumulation point by point, the pipeline's proof data, the body
  obligation at every grid point, the run of @main, and the frame claim.

  Point t of the 64 is output tile t / 8 at input tile t % 8. After the body at point t the accumulator holds: at input
  tile 0, zero plus the tile's partial sums; at a later tile, what the point before left plus the tile's partial sums.
  The output block's buffer is stored into only at input tile 7 (the accumulator divided by the bins' widths), which is
  also the only point whose block the pipeline writes back; at the other points the buffer is handed back as found.
-/
import proofs.«149649_j24970939859722_1_alg».proof.Proof.K.RunLast

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves, as contents -/

/-- The accumulator after a first-tile body: its stores read back. -/
def accFirst (c : Dev nD) (i : grid0.Coords) (a2 : Memref sig .tc .vmem S8x2048 .f32) (h2 : a2.IsWhole) (a3 : Memref sig .tc .vmem S1x2048 .f32) (h3 : a3.IsWhole) (a4 : Memref sig .tc .vmem S1x2048 .f32) (h4 : a4.IsWhole) (a5 : Memref sig .tc .vmem S256x1 .f32) (h5 : a5.IsWhole) (a6 : Memref sig .tc .vmem S256x1 .f32) (h6 : a6.IsWhole) (a7 : Memref sig .tc .vmem S1x256 .f32) (h7 : a7.IsWhole) (a8 : Memref sig .tc .vmem S8x256 .f32) (h8 : a8.IsWhole) (a9 : Memref sig .tc .vmem S8x256 .f32) (h9 : a9.IsWhole) (hf : isFirst i) (hl : ¬isLast i) (x0 : Vec F S8x2048 .f32) (x1 x2 : Vec F S1x2048 .f32) (x3 x4 : Vec F S256x1 .f32) (x5 : Vec F S1x256 .f32) : Vec F S8x256 .f32 :=
  accV.read (Elt F) (accV.writes (Elt F) accV.junk (runFirst c i a2 h2 a3 h3 a4 h4 a5 h5 a6 h6 a7 h7 a8 h8 a9 h9 hf hl x0 x1 x2 x3 x4 x5).1)
/-- Those stores cover the accumulator (each is a store of the whole 8 × 256 buffer). -/
theorem coverFirst (c : Dev nD) (i : grid0.Coords) (a2 : Memref sig .tc .vmem S8x2048 .f32) (h2 : a2.IsWhole) (a3 : Memref sig .tc .vmem S1x2048 .f32) (h3 : a3.IsWhole) (a4 : Memref sig .tc .vmem S1x2048 .f32) (h4 : a4.IsWhole) (a5 : Memref sig .tc .vmem S256x1 .f32) (h5 : a5.IsWhole) (a6 : Memref sig .tc .vmem S256x1 .f32) (h6 : a6.IsWhole) (a7 : Memref sig .tc .vmem S1x256 .f32) (h7 : a7.IsWhole) (a8 : Memref sig .tc .vmem S8x256 .f32) (h8 : a8.IsWhole) (a9 : Memref sig .tc .vmem S8x256 .f32) (h9 : a9.IsWhole) (hf : isFirst i) (hl : ¬isLast i) (x0 : Vec F S8x2048 .f32) (x1 x2 : Vec F S1x2048 .f32) (x3 x4 : Vec F S256x1 .f32) (x5 : Vec F S1x256 .f32) (y : S8x256.Idx) :
    ∃ pc ∈ (runFirst c i a2 h2 a3 h3 a4 h4 a5 h5 a6 h6 a7 h7 a8 h8 a9 h9 hf hl x0 x1 x2 x3 x4 x5).1, y ∈ pc.1.set :=
  View.cover_of_tiledL (runFirst c i a2 h2 a3 h3 a4 h4 a5 h5 a6 h6 a7 h7 a8 h8 a9 h9 hf hl x0 x1 x2 x3 x4 x5).1 S8x256.size (by sl_kernel_rfl) y

/-- The accumulator after a middle body, from what the point before left, xs. -/
def accMid (c : Dev nD) (i : grid0.Coords) (a2 : Memref sig .tc .vmem S8x2048 .f32) (h2 : a2.IsWhole) (a3 : Memref sig .tc .vmem S1x2048 .f32) (h3 : a3.IsWhole) (a4 : Memref sig .tc .vmem S1x2048 .f32) (h4 : a4.IsWhole) (a5 : Memref sig .tc .vmem S256x1 .f32) (h5 : a5.IsWhole) (a6 : Memref sig .tc .vmem S256x1 .f32) (h6 : a6.IsWhole) (a7 : Memref sig .tc .vmem S1x256 .f32) (h7 : a7.IsWhole) (a8 : Memref sig .tc .vmem S8x256 .f32) (h8 : a8.IsWhole) (a9 : Memref sig .tc .vmem S8x256 .f32) (h9 : a9.IsWhole) (hf : ¬isFirst i) (hl : ¬isLast i) (x0 : Vec F S8x2048 .f32) (x1 x2 : Vec F S1x2048 .f32) (x3 x4 : Vec F S256x1 .f32) (x5 : Vec F S1x256 .f32) (xs : Vec F S8x256 .f32) : Vec F S8x256 .f32 :=
  accV.read (Elt F) (accV.writes (Elt F) accV.junk (runMid c i a2 h2 a3 h3 a4 h4 a5 h5 a6 h6 a7 h7 a8 h8 a9 h9 hf hl x0 x1 x2 x3 x4 x5 xs).1)
theorem coverMid (c : Dev nD) (i : grid0.Coords) (a2 : Memref sig .tc .vmem S8x2048 .f32) (h2 : a2.IsWhole) (a3 : Memref sig .tc .vmem S1x2048 .f32) (h3 : a3.IsWhole) (a4 : Memref sig .tc .vmem S1x2048 .f32) (h4 : a4.IsWhole) (a5 : Memref sig .tc .vmem S256x1 .f32) (h5 : a5.IsWhole) (a6 : Memref sig .tc .vmem S256x1 .f32) (h6 : a6.IsWhole) (a7 : Memref sig .tc .vmem S1x256 .f32) (h7 : a7.IsWhole) (a8 : Memref sig .tc .vmem S8x256 .f32) (h8 : a8.IsWhole) (a9 : Memref sig .tc .vmem S8x256 .f32) (h9 : a9.IsWhole) (hf : ¬isFirst i) (hl : ¬isLast i) (x0 : Vec F S8x2048 .f32) (x1 x2 : Vec F S1x2048 .f32) (x3 x4 : Vec F S256x1 .f32) (x5 : Vec F S1x256 .f32) (xs : Vec F S8x256 .f32) (y : S8x256.Idx) :
    ∃ pc ∈ (runMid c i a2 h2 a3 h3 a4 h4 a5 h5 a6 h6 a7 h7 a8 h8 a9 h9 hf hl x0 x1 x2 x3 x4 x5 xs).1, y ∈ pc.1.set :=
  View.cover_of_tiledL (runMid c i a2 h2 a3 h3 a4 h4 a5 h5 a6 h6 a7 h7 a8 h8 a9 h9 hf hl x0 x1 x2 x3 x4 x5 xs).1 S8x256.size (by sl_kernel_rfl) y

/-- The accumulator and the output block's buffer after a last-tile body. -/
def accLast (c : Dev nD) (i : grid0.Coords) (a2 : Memref sig .tc .vmem S8x2048 .f32) (h2 : a2.IsWhole) (a3 : Memref sig .tc .vmem S1x2048 .f32) (h3 : a3.IsWhole) (a4 : Memref sig .tc .vmem S1x2048 .f32) (h4 : a4.IsWhole) (a5 : Memref sig .tc .vmem S256x1 .f32) (h5 : a5.IsWhole) (a6 : Memref sig .tc .vmem S256x1 .f32) (h6 : a6.IsWhole) (a7 : Memref sig .tc .vmem S1x256 .f32) (h7 : a7.IsWhole) (a8 : Memref sig .tc .vmem S8x256 .f32) (h8 : a8.IsWhole) (a9 : Memref sig .tc .vmem S8x256 .f32) (h9 : a9.IsWhole) (hf : ¬isFirst i) (hl : isLast i) (x0 : Vec F S8x2048 .f32) (x1 x2 : Vec F S1x2048 .f32) (x3 x4 : Vec F S256x1 .f32) (x5 : Vec F S1x256 .f32) (xs : Vec F S8x256 .f32) : Vec F S8x256 .f32 :=
  accV.read (Elt F) (accV.writes (Elt F) accV.junk (runLast c i a2 h2 a3 h3 a4 h4 a5 h5 a6 h6 a7 h7 a8 h8 a9 h9 hf hl x0 x1 x2 x3 x4 x5 xs).2.1)
theorem coverLastAcc (c : Dev nD) (i : grid0.Coords) (a2 : Memref sig .tc .vmem S8x2048 .f32) (h2 : a2.IsWhole) (a3 : Memref sig .tc .vmem S1x2048 .f32) (h3 : a3.IsWhole) (a4 : Memref sig .tc .vmem S1x2048 .f32) (h4 : a4.IsWhole) (a5 : Memref sig .tc .vmem S256x1 .f32) (h5 : a5.IsWhole) (a6 : Memref sig .tc .vmem S256x1 .f32) (h6 : a6.IsWhole) (a7 : Memref sig .tc .vmem S1x256 .f32) (h7 : a7.IsWhole) (a8 : Memref sig .tc .vmem S8x256 .f32) (h8 : a8.IsWhole) (a9 : Memref sig .tc .vmem S8x256 .f32) (h9 : a9.IsWhole) (hf : ¬isFirst i) (hl : isLast i) (x0 : Vec F S8x2048 .f32) (x1 x2 : Vec F S1x2048 .f32) (x3 x4 : Vec F S256x1 .f32) (x5 : Vec F S1x256 .f32) (xs : Vec F S8x256 .f32) (y : S8x256.Idx) :
    ∃ pc ∈ (runLast c i a2 h2 a3 h3 a4 h4 a5 h5 a6 h6 a7 h7 a8 h8 a9 h9 hf hl x0 x1 x2 x3 x4 x5 xs).2.1, y ∈ pc.1.set :=
  View.cover_of_tiledL (runLast c i a2 h2 a3 h3 a4 h4 a5 h5 a6 h6 a7 h7 a8 h8 a9 h9 hf hl x0 x1 x2 x3 x4 x5 xs).2.1 S8x256.size (by sl_kernel_rfl) y
def outLast (c : Dev nD) (i : grid0.Coords) (a2 : Memref sig .tc .vmem S8x2048 .f32) (h2 : a2.IsWhole) (a3 : Memref sig .tc .vmem S1x2048 .f32) (h3 : a3.IsWhole) (a4 : Memref sig .tc .vmem S1x2048 .f32) (h4 : a4.IsWhole) (a5 : Memref sig .tc .vmem S256x1 .f32) (h5 : a5.IsWhole) (a6 : Memref sig .tc .vmem S256x1 .f32) (h6 : a6.IsWhole) (a7 : Memref sig .tc .vmem S1x256 .f32) (h7 : a7.IsWhole) (a8 : Memref sig .tc .vmem S8x256 .f32) (h8 : a8.IsWhole) (a9 : Memref sig .tc .vmem S8x256 .f32) (h9 : a9.IsWhole) (hf : ¬isFirst i) (hl : isLast i) (x0 : Vec F S8x2048 .f32) (x1 x2 : Vec F S1x2048 .f32) (x3 x4 : Vec F S256x1 .f32) (x5 : Vec F S1x256 .f32) (xs : Vec F S8x256 .f32) : Vec F S8x256 .f32 :=
  outV.read (Elt F) (outV.writes (Elt F) outV.junk (runLast c i a2 h2 a3 h3 a4 h4 a5 h5 a6 h6 a7 h7 a8 h8 a9 h9 hf hl x0 x1 x2 x3 x4 x5 xs).1)
theorem coverLastOut (c : Dev nD) (i : grid0.Coords) (a2 : Memref sig .tc .vmem S8x2048 .f32) (h2 : a2.IsWhole) (a3 : Memref sig .tc .vmem S1x2048 .f32) (h3 : a3.IsWhole) (a4 : Memref sig .tc .vmem S1x2048 .f32) (h4 : a4.IsWhole) (a5 : Memref sig .tc .vmem S256x1 .f32) (h5 : a5.IsWhole) (a6 : Memref sig .tc .vmem S256x1 .f32) (h6 : a6.IsWhole) (a7 : Memref sig .tc .vmem S1x256 .f32) (h7 : a7.IsWhole) (a8 : Memref sig .tc .vmem S8x256 .f32) (h8 : a8.IsWhole) (a9 : Memref sig .tc .vmem S8x256 .f32) (h9 : a9.IsWhole) (hf : ¬isFirst i) (hl : isLast i) (x0 : Vec F S8x2048 .f32) (x1 x2 : Vec F S1x2048 .f32) (x3 x4 : Vec F S256x1 .f32) (x5 : Vec F S1x256 .f32) (xs : Vec F S8x256 .f32) (y : S8x256.Idx) :
    ∃ pc ∈ (runLast c i a2 h2 a3 h3 a4 h4 a5 h5 a6 h6 a7 h7 a8 h8 a9 h9 hf hl x0 x1 x2 x3 x4 x5 xs).1, y ∈ pc.1.set :=
  View.cover_of_tiledL (runLast c i a2 h2 a3 h3 a4 h4 a5 h5 a6 h6 a7 h7 a8 h8 a9 h9 hf hl x0 x1 x2 x3 x4 x5 xs).1 S8x256.size (by sl_kernel_rfl) y

/-! ## The accumulation -/

/-- What the accumulator holds after the body at position n: by recursion on the position, the case chosen by the
    position's input tile n % 8. -/
def accAt (c : Dev nD) : (n : ℕ) → n < cfg0.N → Vec F S8x256 .f32
  | 0, hn =>
    let t : Fin cfg0.N := ⟨0, hn⟩
    accFirst c (grid0.coords t) (ms0 t) (hs0 t) (ms1 t) (hs1 t) (ms2 t) (hs2 t) (ms3 t) (hs3 t) (ms4 t) (hs4 t) (ms5 t) (hs5 t) (ms6 t) (hs6 t) accM (Memref.isWhole_whole _) ((isFirst_iff t).mpr (Nat.zero_mod _)) (fun h => by have h' : (0 : ℕ) % 8 = 7 := (isLast_iff t).mp h; omega) (iblk m c 0 t) (iblk m c 1 t) (iblk m c 2 t) (iblk m c 3 t) (iblk m c 4 t) (iblk m c 5 t)
  | n + 1, hn =>
    let t : Fin cfg0.N := ⟨n + 1, hn⟩
    if h0 : (n + 1) % 8 = 0 then
      accFirst c (grid0.coords t) (ms0 t) (hs0 t) (ms1 t) (hs1 t) (ms2 t) (hs2 t) (ms3 t) (hs3 t) (ms4 t) (hs4 t) (ms5 t) (hs5 t) (ms6 t) (hs6 t) accM (Memref.isWhole_whole _) ((isFirst_iff t).mpr h0) (fun h => by have := (isLast_iff t).mp h; dsimp only [t] at this; omega) (iblk m c 0 t) (iblk m c 1 t) (iblk m c 2 t) (iblk m c 3 t) (iblk m c 4 t) (iblk m c 5 t)
    else if h7 : (n + 1) % 8 = 7 then
      accLast c (grid0.coords t) (ms0 t) (hs0 t) (ms1 t) (hs1 t) (ms2 t) (hs2 t) (ms3 t) (hs3 t) (ms4 t) (hs4 t) (ms5 t) (hs5 t) (ms6 t) (hs6 t) accM (Memref.isWhole_whole _) (fun h => h0 ((isFirst_iff t).mp h)) ((isLast_iff t).mpr h7) (iblk m c 0 t) (iblk m c 1 t) (iblk m c 2 t) (iblk m c 3 t) (iblk m c 4 t) (iblk m c 5 t) (accAt c n (Nat.lt_of_succ_lt hn))
    else
      accMid c (grid0.coords t) (ms0 t) (hs0 t) (ms1 t) (hs1 t) (ms2 t) (hs2 t) (ms3 t) (hs3 t) (ms4 t) (hs4 t) (ms5 t) (hs5 t) (ms6 t) (hs6 t) accM (Memref.isWhole_whole _) (fun h => h0 ((isFirst_iff t).mp h)) (fun h => h7 ((isLast_iff t).mp h)) (iblk m c 0 t) (iblk m c 1 t) (iblk m c 2 t) (iblk m c 3 t) (iblk m c 4 t) (iblk m c 5 t) (accAt c n (Nat.lt_of_succ_lt hn))

/-- The accumulator at the point before t (used only off the first position). -/
abbrev accPrev (c : Dev nD) (t : Fin cfg0.N) : Vec F S8x256 .f32 := accAt m c (t.val - 1) (Nat.lt_of_le_of_lt (Nat.sub_le _ _) t.isLt)

theorem accAt_first (c : Dev nD) (t : Fin cfg0.N) (h0 : t.val % 8 = 0) :
    accAt m c t.val t.isLt = accFirst c (grid0.coords t) (ms0 t) (hs0 t) (ms1 t) (hs1 t) (ms2 t) (hs2 t) (ms3 t) (hs3 t) (ms4 t) (hs4 t) (ms5 t) (hs5 t) (ms6 t) (hs6 t) accM (Memref.isWhole_whole _) ((isFirst_iff t).mpr h0) (fun h => by have := (isLast_iff t).mp h; omega) (iblk m c 0 t) (iblk m c 1 t) (iblk m c 2 t) (iblk m c 3 t) (iblk m c 4 t) (iblk m c 5 t) := by
  obtain ⟨n, hn⟩ := t
  cases n with
  | zero => rfl
  | succ n => exact (dif_pos h0).trans rfl
theorem accAt_last (c : Dev nD) (t : Fin cfg0.N) (h0 : ¬t.val % 8 = 0) (h7 : t.val % 8 = 7) :
    accAt m c t.val t.isLt = accLast c (grid0.coords t) (ms0 t) (hs0 t) (ms1 t) (hs1 t) (ms2 t) (hs2 t) (ms3 t) (hs3 t) (ms4 t) (hs4 t) (ms5 t) (hs5 t) (ms6 t) (hs6 t) accM (Memref.isWhole_whole _) (fun h => h0 ((isFirst_iff t).mp h)) ((isLast_iff t).mpr h7) (iblk m c 0 t) (iblk m c 1 t) (iblk m c 2 t) (iblk m c 3 t) (iblk m c 4 t) (iblk m c 5 t) (accPrev m c t) := by
  obtain ⟨n, hn⟩ := t
  cases n with
  | zero => exact absurd (Nat.zero_mod _) h0
  | succ n => exact (dif_neg h0).trans ((dif_pos h7).trans rfl)
theorem accAt_mid (c : Dev nD) (t : Fin cfg0.N) (h0 : ¬t.val % 8 = 0) (h7 : ¬t.val % 8 = 7) :
    accAt m c t.val t.isLt = accMid c (grid0.coords t) (ms0 t) (hs0 t) (ms1 t) (hs1 t) (ms2 t) (hs2 t) (ms3 t) (hs3 t) (ms4 t) (hs4 t) (ms5 t) (hs5 t) (ms6 t) (hs6 t) accM (Memref.isWhole_whole _) (fun h => h0 ((isFirst_iff t).mp h)) (fun h => h7 ((isLast_iff t).mp h)) (iblk m c 0 t) (iblk m c 1 t) (iblk m c 2 t) (iblk m c 3 t) (iblk m c 4 t) (iblk m c 5 t) (accPrev m c t) := by
  obtain ⟨n, hn⟩ := t
  cases n with
  | zero => exact absurd (Nat.zero_mod _) h0
  | succ n => exact (dif_neg h0).trans ((dif_neg h7).trans rfl)

/-- What the output block's buffer holds after the body at point t: at a last-tile point the quotient the body stored;
    elsewhere a placeholder nothing reads (the buffer is neither written back there nor kept for a later point). -/
def outAt (c : Dev nD) (t : Fin cfg0.N) : Vec F S8x256 .f32 :=
  if h7 : t.val % 8 = 7 then
    outLast c (grid0.coords t) (ms0 t) (hs0 t) (ms1 t) (hs1 t) (ms2 t) (hs2 t) (ms3 t) (hs3 t) (ms4 t) (hs4 t) (ms5 t) (hs5 t) (ms6 t) (hs6 t) accM (Memref.isWhole_whole _) (fun h => by have := (isFirst_iff t).mp h; omega) ((isLast_iff t).mpr h7) (iblk m c 0 t) (iblk m c 1 t) (iblk m c 2 t) (iblk m c 3 t) (iblk m c 4 t) (iblk m c 5 t) (accPrev m c t)
  else outV.read (Elt F) outV.junk

theorem outAt_last (c : Dev nD) (t : Fin cfg0.N) (h0 : ¬t.val % 8 = 0) (h7 : t.val % 8 = 7) :
    outAt m c t = outLast c (grid0.coords t) (ms0 t) (hs0 t) (ms1 t) (hs1 t) (ms2 t) (hs2 t) (ms3 t) (hs3 t) (ms4 t) (hs4 t) (ms5 t) (hs5 t) (ms6 t) (hs6 t) accM (Memref.isWhole_whole _) (fun h => h0 ((isFirst_iff t).mp h)) ((isLast_iff t).mpr h7) (iblk m c 0 t) (iblk m c 1 t) (iblk m c 2 t) (iblk m c 3 t) (iblk m c 4 t) (iblk m c 5 t) (accPrev m c t) :=
  (dif_pos h7).trans rfl

/-! ## The region's invariant -/

/-- Before position n: before the first point the accumulator holds anything; afterwards what the point before left. The
    generator register is at some state throughout. -/
def PhiS (c : Dev nD) : (n : ℕ) → n ≤ cfg0.N → sProp 𝕄
  | 0, _ => Pipeline.ΦA spec0 c
  | n + 1, hn => iprop(iprop(owns (c : Thread nD τ) accM fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accM fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) accM fullShare (accAt m c (n - 1) (by omega))) ∗ (∃ r, prngReg c r)) := by
  cases n with
  | zero => exact absurd rfl hz
  | succ n => rfl

/-! ## The pipeline's proof data -/

/-- The arrays as the region finds them; after the body each input's buffer still at its block, the output's at outAt;
    the invariant PhiS; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_out (c : Dev nD) (t : Fin cfg0.N) : (dats m 0 c).after 6 t = outAt m c t := by dsimp only [dats]

theorem found0 (c : Dev nD) (t : Fin cfg0.N) (d) : (dats m 0 c).before 0 t d = iblk m c 0 t := before_in0 m (dats m 0 c) (A_eq m c 0) (after_in0 m c) t d
theorem found1 (c : Dev nD) (t : Fin cfg0.N) (d) : (dats m 0 c).before 1 t d = iblk m c 1 t := before_in1 m (dats m 0 c) (A_eq m c 1) (after_in1 m c) t d
theorem found2 (c : Dev nD) (t : Fin cfg0.N) (d) : (dats m 0 c).before 2 t d = iblk m c 2 t := before_in2 m (dats m 0 c) (A_eq m c 2) (after_in2 m c) t d
theorem found3 (c : Dev nD) (t : Fin cfg0.N) (d) : (dats m 0 c).before 3 t d = iblk m c 3 t := before_in3 m (dats m 0 c) (A_eq m c 3) (after_in3 m c) t d
theorem found4 (c : Dev nD) (t : Fin cfg0.N) (d) : (dats m 0 c).before 4 t d = iblk m c 4 t := before_in4 m (dats m 0 c) (A_eq m c 4) (after_in4 m c) t d
theorem found5 (c : Dev nD) (t : Fin cfg0.N) (d) : (dats m 0 c).before 5 t d = iblk m c 5 t := before_in5 m (dats m 0 c) (A_eq m c 5) (after_in5 m c) t d

/-! ## The body obligation, at a generic point -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

set_option maxHeartbeats 4800000 in
/-- The body at any point. The six inputs' buffers hold their blocks; the position's input tile says which of the three
    cases runs; the invariant hands the body the accumulator (at anything before the first point, else at what the point
    before left) and takes it back at this point's contents; the output block's buffer is handed back as found off the
    last tile and at the stored quotient on it; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1, found2, found3, found4, found5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live_in 0 (by decide) t], after_in0]
  rw [show (dats m 0 c).leavesExact 1 t = owns (c : Thread nD τ) (ms1 t) fullShare ((dats m 0 c).after 1 t) from by
    unfold Dat.leavesExact; rw [live_in 1 (by decide) t], after_in1]
  rw [show (dats m 0 c).leavesExact 2 t = owns (c : Thread nD τ) (ms2 t) fullShare ((dats m 0 c).after 2 t) from by
    unfold Dat.leavesExact; rw [live_in 2 (by decide) t], after_in2]
  rw [show (dats m 0 c).leavesExact 3 t = owns (c : Thread nD τ) (ms3 t) fullShare ((dats m 0 c).after 3 t) from by
    unfold Dat.leavesExact; rw [live_in 3 (by decide) t], after_in3]
  rw [show (dats m 0 c).leavesExact 4 t = owns (c : Thread nD τ) (ms4 t) fullShare ((dats m 0 c).after 4 t) from by
    unfold Dat.leavesExact; rw [live_in 4 (by decide) t], after_in4]
  rw [show (dats m 0 c).leavesExact 5 t = owns (c : Thread nD τ) (ms5 t) fullShare ((dats m 0 c).after 5 t) from by
    unfold Dat.leavesExact; rw [live_in 5 (by decide) t], after_in5]
  have hN : t.val < 64 := lt_of_lt_of_eq t.isLt (show cfg0.N = 64 from N_0)
  by_cases h0 : t.val % 8 = 0
  · have h7 : ¬t.val % 8 = 7 := by omega
    have hnl : ¬isLast (grid0.coords t) := fun h => h7 ((isLast_iff t).mp h)
    rw [Dat.leavesExact_idle (dats m 0 c) 6 t (idle_out_of_not_last t hnl) (noflush_of_not_last t hnl)]
    rw [accAt_first m c t h0]
    unfold accFirst; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid0.coords t) (ms0 t) (hs0 t) (ms1 t) (hs1 t) (ms2 t) (hs2 t) (ms3 t) (hs3 t) (ms4 t) (hs4 t) (ms5 t) (hs5 t) (ms6 t) (hs6 t) accM (Memref.isWhole_whole _) ((isFirst_iff t).mpr h0) hnl (iblk m c 0 t) (iblk m c 1 t) (iblk m c 2 t) (iblk m c 3 t) (iblk m c 4 t) (iblk m c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [HS Hg]
      · isplitl [HS]
        · unfold owns; iexists _; isplitr
          swap; · iexact HS
          ipureintro; exact View.read_writes_of_cover _ _ _ _ _ (coverFirst c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid0.coords t) (ms0 t) (hs0 t) (ms1 t) (hs1 t) (ms2 t) (hs2 t) (ms3 t) (hs3 t) (ms4 t) (hs4 t) (ms5 t) (hs5 t) (ms6 t) (hs6 t) accM (Memref.isWhole_whole _) ((isFirst_iff t).mpr h0) hnl (iblk m c 0 t) (iblk m c 1 t) (iblk m c 2 t) (iblk m c 3 t) (iblk m c 4 t) (iblk m c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexists _; iexact HS
      iintro ⟨H0, H1, H2, H3, H4, H5, H6, ⟨%es, HS⟩⟩
      isplitl [HS Hg]
      · isplitl [HS]
        · unfold owns; iexists _; isplitr
          swap; · iexact HS
          ipureintro; exact View.read_writes_of_cover _ _ _ _ _ (coverFirst c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun h => h0 (by rw [h])
    have hnf : ¬isFirst (grid0.coords t) := fun h => h0 ((isFirst_iff t).mp h)
    by_cases h7 : t.val % 8 = 7
    · have hlast : isLast (grid0.coords t) := (isLast_iff t).mpr h7
      rw [show (dats m 0 c).leavesExact 6 t = owns (c : Thread nD τ) (ms6 t) fullShare ((dats m 0 c).after 6 t) from by
        unfold Dat.leavesExact; rw [live_out_of_last t hlast], after_out]
      rw [accAt_last m c t h0 h7, outAt_last m c t h0 h7]
      unfold accLast outLast; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((runLast c (grid0.coords t) (ms0 t) (hs0 t) (ms1 t) (hs1 t) (ms2 t) (hs2 t) (ms3 t) (hs3 t) (ms4 t) (hs4 t) (ms5 t) (hs5 t) (ms6 t) (hs6 t) accM (Memref.isWhole_whole _) hnf hlast (iblk m c 0 t) (iblk m c 1 t) (iblk m c 2 t) (iblk m c 3 t) (iblk m c 4 t) (iblk m c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, ⟨%es, HS⟩⟩
      isplitl [HS Hg]
      · isplitl [HS]
        · unfold owns; iexists _; isplitr
          swap; · iexact HS
          ipureintro; exact View.read_writes_of_cover _ _ _ _ _ (coverLastAcc c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverLastOut c _ _ _ _ _ _ _ _ _ _ _ _ _ _ _ _ _ _ _ _ _ _ _ _ _ _)
    · have hnl : ¬isLast (grid0.coords t) := fun h => h7 ((isLast_iff t).mp h)
      rw [Dat.leavesExact_idle (dats m 0 c) 6 t (idle_out_of_not_last t hnl) (noflush_of_not_last t hnl)]
      rw [accAt_mid m c t h0 h7]
      unfold accMid; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((runMid c (grid0.coords t) (ms0 t) (hs0 t) (ms1 t) (hs1 t) (ms2 t) (hs2 t) (ms3 t) (hs3 t) (ms4 t) (hs4 t) (ms5 t) (hs5 t) (ms6 t) (hs6 t) accM (Memref.isWhole_whole _) hnf hnl (iblk m c 0 t) (iblk m c 1 t) (iblk m c 2 t) (iblk m c 3 t) (iblk m c 4 t) (iblk m c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [HS Hg]
      · isplitl [HS]
        · unfold owns; iexists _; isplitr
          swap; · iexact HS
          ipureintro; exact View.read_writes_of_cover _ _ _ _ _ (coverMid c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the accumulator back at some contents. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA_eq]
  iintro ⟨HS, Hg⟩
  isplitl [HS]
  · iexists _; iexact HS
  iexact Hg

/-! ## The run and the frame -/

set_option backward.isDefEq.respectTransparency.types false in
/-- Every weakly fair execution of @main terminates, and every final state has each array of the pipeline at what the
    library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end without a fault and its three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Hand

end
-- ==== Proof.KI.Kit.lean ====
/-
  The idealized kernel program around its one pipelined region: what the region finds and what the frame needs.

  @main is 66 host operations (they build the two edge vectors, cut them into the lower and upper edges of every bin and
  into the output bins' widths) followed by the region. None of them writes an argument array, so the region finds the
  three arguments as launched. The region's grid is 8 × 8: the first axis runs over the 8 tiles of 256 output bins, the
  second over the 8 tiles of 2048 input bins; the points are visited with the second axis fastest, so point t is output
  tile t / 8 at input tile t % 8. The body clears its accumulator at input tile 0, adds one tile's partial sums at every
  point, and divides by the bins' widths into the output block at input tile 7, where alone the block is written back.
-/
import proofs.«149649_j24970939859722_1_alg».proof.Proof.Gen.KernelIdeal.Launch
import proofs.«149649_j24970939859722_1_alg».proof.Proof.Gen.KernelIdeal.Skeleton
import proofs.«149649_j24970939859722_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core c's buffers when the region is entered: the launch memory after the 66 host operations. -/
abbrev V (c : Dev nD) (b : Ref sig .tc) : Buf (Elt F) ((c : Thread nD τ).loc b) := StableHlo.after hostOps0 (fun b => m (c, b)) b

/-- The host operations allocate nothing. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Each host operation writes its own result buffer, never an argument: the region finds the wavelengths of the input
    grid, the flux table and the wavelengths of the output grid as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The windows' blocks -/

/-- Window w's block at point t, cut out of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds the window's block at every point, whether the pipeline fetched it
    there or not (where it did not, the block index has not moved since the last fetch), for any proof data over the
    region-entry arrays whose body leaves that input in place. One statement per input window. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The two branches of the body, decided over the grid -/

/-- "This is the first tile of input bins": the condition under which the body clears its accumulator. -/
abbrev isFirst (i : grid0.Coords) : Prop := (Scalar.cmpi .ne (Scalar.extui (Scalar.cmpi .eq (BitVec.ofNat 32 (i 1).val) 0#32)) 0#32) = 1#1
/-- "This is the last tile of input bins": the condition under which the body divides and stores the output block. -/
abbrev isLast (i : grid0.Coords) : Prop := k0_cond2 i = 1#1

theorem isFirst_iff : ∀ t : Fin cfg0.N, isFirst (grid0.coords t) ↔ t.val % 8 = 0 :=
  (by decide +kernel : ∀ t : Fin grid0.N, isFirst (grid0.coords t) ↔ t.val % 8 = 0)
theorem isLast_iff : ∀ t : Fin cfg0.N, isLast (grid0.coords t) ↔ t.val % 8 = 7 :=
  (by decide +kernel : ∀ t : Fin grid0.N, isLast (grid0.coords t) ↔ t.val % 8 = 7)

/-- The inputs are never idle; the output window is idle exactly off the last input tile, and is written back exactly
    on it. -/
theorem live_in : ∀ (w : Fin 7), w.val < 6 → ∀ t : Fin cfg0.N, cfg0.idle w (grid0.coords t) = false := by decide +kernel
theorem idle_out_of_not_last : ∀ t : Fin cfg0.N, ¬isLast (grid0.coords t) → cfg0.idle 6 (grid0.coords t) = true := by decide +kernel
theorem noflush_of_not_last : ∀ t : Fin cfg0.N, ¬isLast (grid0.coords t) → (cfg0.win 6).flush t = false := by decide +kernel
theorem live_out_of_last : ∀ t : Fin cfg0.N, isLast (grid0.coords t) → cfg0.idle 6 (grid0.coords t) = false := by decide +kernel

/-! ## The staging memrefs and the accumulator -/

/-- Each window's current staging memref at point t, as the pipeline passes it to the body, and its wholeness. -/
abbrev ms0 (t : Fin cfg0.N) : Memref sig .tc .vmem S8x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S8x256 .f32 := win0_6.stage (cfg0.slots t 6)
abbrev hs6 (t : Fin cfg0.N) : (ms6 t).IsWhole := hstage0_6 ((cfg0.slots t 6).cast nbuf0_6)
/-- The accumulator: the kernel's one scratch buffer, whole. -/
abbrev accM : Memref sig .tc .vmem S8x256 .f32 := Memref.whole cc0_scratch0
/-- Views through which an 8 × 256 buffer's contents are stated (which buffer is immaterial). -/
abbrev accV : View sig .tc .vmem S8x256 .f32 := accM.view
abbrev outV : View sig .tc .vmem S8x256 .f32 := (Memref.whole cc0_stg6_0 : Memref sig .tc .vmem S8x256 .f32).view

/-- What the region hands the body besides the windows: the accumulator at some contents and the generator register
    at some state. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

/-! ## The frame from a frame run -/

/-- A run of @main that ends with every array of the pipeline at what the proof data say and every other unscoped buffer
    as the region found it leaves the three arguments as launched: the flux table is an input window's array, which the
    pipeline only reads; the two wavelength grids are no window's array. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      ((h c).1 0).trans (((dats 0 c).arrAt_in 0 rfl _).trans ((hA c 0).trans (V_main_arg1 m c))),
      ((h c).2 main_arg2 (Pipeline.mem_restRefs_of main_arg2 (by decide) (by decide))).trans (V_main_arg2 m c)⟩) h

end Cert.KernelIdeal.Hand

end
-- ==== Proof.KI.RunMid.lean ====
/-
  The kernel body at a point that is neither the first nor the last tile of input bins: it loads the six input blocks
  and the accumulator, and stores the accumulator plus this tile's partial sums back; the output block's buffer is
  not touched. The body's one store into the accumulator is found by running the body.
-/
import proofs.«149649_j24970939859722_1_alg».proof.Proof.KI.Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body stores into the accumulator at a middle point, with the proof that, run on whole staging
    memrefs — the six inputs at contents x0 … x5, the output buffer at any contents xo (handed back untouched), the
    accumulator at what the point before left, xs —, the body reaches its continuation with the inputs and the output
    buffer as they were and the accumulator with those pieces written. -/
noncomputable def runMid (c : Dev nD) (i : grid0.Coords) (a2 : Memref sig .tc .vmem S8x2048 .f32) (h2 : a2.IsWhole) (a3 : Memref sig .tc .vmem S1x2048 .f32) (h3 : a3.IsWhole) (a4 : Memref sig .tc .vmem S1x2048 .f32) (h4 : a4.IsWhole) (a5 : Memref sig .tc .vmem S256x1 .f32) (h5 : a5.IsWhole) (a6 : Memref sig .tc .vmem S256x1 .f32) (h6 : a6.IsWhole) (a7 : Memref sig .tc .vmem S1x256 .f32) (h7 : a7.IsWhole) (a8 : Memref sig .tc .vmem S8x256 .f32) (h8 : a8.IsWhole) (a9 : Memref sig .tc .vmem S8x256 .f32) (h9 : a9.IsWhole)
    (hf : ¬isFirst i) (hl : ¬isLast i) (x0 : Vec F S8x2048 .f32) (x1 x2 : Vec F S1x2048 .f32) (x3 x4 : Vec F S256x1 .f32) (x5 : Vec F S1x256 .f32) (xs : Vec F S8x256 .f32) :
    { LS : List (View.Piece (Elt F) S8x256 .f32) //
      ∀ (xo : Vec F S8x256 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare xo ∗ owns (c : Thread nD τ) a9 fullShare xs
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare xo ∗ (∃ f, a9.view.loc (c : Thread nD τ) ↦[a9.view.set]{fullShare} a9.view.writes (Elt F) f LS)) -∗ K ⟨⟩))
          ⊢ wp frame (wpE (defs₀ (F := F)) Variants.none c none) E (cc0__kernel i a2 h2 a3 h3 a4 h4 a5 h5 a6 h6 a7 h7 a8 h8 a9 h9) K } := by
  refine ⟨?_, fun xo E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5; obtain rfl := h8.eq_unread hf6; obtain rfl := h9.eq_unread hfs
    sl_exec (disch := first | exact hf | exact hl)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; · ipureintro; exact h8.read_unread _
      iexact H6
    iexists _; iexact HS

end Cert.KernelIdeal.Hand

end
-- ==== Proof.KI.RunFirst.lean ====
/-
  The kernel body at the first tile of input bins: it overwrites the accumulator with zeros, then loads the six input
  blocks and the accumulator and stores the accumulator plus this tile's partial sums back; the output block's buffer is
  not touched. Whatever the accumulator held before is never seen. The stores are found by running the body.
-/
import proofs.«149649_j24970939859722_1_alg».proof.Proof.KI.RunMid

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body stores into the accumulator at a first-tile point (the later store first), with the proof that,
    run on whole staging memrefs — the six inputs at contents x0 … x5, the output buffer at any contents xo (handed back
    untouched), the accumulator at anything —, the body reaches its continuation with the inputs and the output buffer
    as they were and the accumulator with those pieces written. -/
noncomputable def runFirst (c : Dev nD) (i : grid0.Coords) (a2 : Memref sig .tc .vmem S8x2048 .f32) (h2 : a2.IsWhole) (a3 : Memref sig .tc .vmem S1x2048 .f32) (h3 : a3.IsWhole) (a4 : Memref sig .tc .vmem S1x2048 .f32) (h4 : a4.IsWhole) (a5 : Memref sig .tc .vmem S256x1 .f32) (h5 : a5.IsWhole) (a6 : Memref sig .tc .vmem S256x1 .f32) (h6 : a6.IsWhole) (a7 : Memref sig .tc .vmem S1x256 .f32) (h7 : a7.IsWhole) (a8 : Memref sig .tc .vmem S8x256 .f32) (h8 : a8.IsWhole) (a9 : Memref sig .tc .vmem S8x256 .f32) (h9 : a9.IsWhole)
    (hf : isFirst i) (hl : ¬isLast i) (x0 : Vec F S8x2048 .f32) (x1 x2 : Vec F S1x2048 .f32) (x3 x4 : Vec F S256x1 .f32) (x5 : Vec F S1x256 .f32) :
    { LS : List (View.Piece (Elt F) S8x256 .f32) //
      ∀ (xo : Vec F S8x256 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare xo ∗ (∃ d, owns (c : Thread nD τ) a9 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare xo ∗ (∃ f, a9.view.loc (c : Thread nD τ) ↦[a9.view.set]{fullShare} a9.view.writes (Elt F) f LS)) -∗ K ⟨⟩))
          ⊢ wp frame (wpE (defs₀ (F := F)) Variants.none c none) E (cc0__kernel i a2 h2 a3 h3 a4 h4 a5 h5 a6 h6 a7 h7 a8 h8 a9 h9) K } := by
  refine ⟨?_, fun xo E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5; obtain rfl := h8.eq_unread hf6
    sl_exec (disch := first | exact hf | exact hl)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; · ipureintro; exact h8.read_unread _
      iexact H6
    iexists _; iexact HS

end Cert.KernelIdeal.Hand

end
-- ==== Proof.KI.RunLast.lean ====
/-
  The kernel body at the last tile of input bins: it adds this tile's partial sums into the accumulator as at every
  point, then divides the accumulator by the output bins' widths and stores the quotient over the whole output block.
  Both stores are found by running the body.
-/
import proofs.«149649_j24970939859722_1_alg».proof.Proof.KI.RunFirst

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body stores into the output block's buffer and into the accumulator at a last-tile point, with the
    proof that, run on whole staging memrefs — the six inputs at contents x0 … x5, the output buffer at anything, the
    accumulator at what the point before left, xs —, the body reaches its continuation with the inputs as they were
    and the two buffers with those pieces written. -/
noncomputable def runLast (c : Dev nD) (i : grid0.Coords) (a2 : Memref sig .tc .vmem S8x2048 .f32) (h2 : a2.IsWhole) (a3 : Memref sig .tc .vmem S1x2048 .f32) (h3 : a3.IsWhole) (a4 : Memref sig .tc .vmem S1x2048 .f32) (h4 : a4.IsWhole) (a5 : Memref sig .tc .vmem S256x1 .f32) (h5 : a5.IsWhole) (a6 : Memref sig .tc .vmem S256x1 .f32) (h6 : a6.IsWhole) (a7 : Memref sig .tc .vmem S1x256 .f32) (h7 : a7.IsWhole) (a8 : Memref sig .tc .vmem S8x256 .f32) (h8 : a8.IsWhole) (a9 : Memref sig .tc .vmem S8x256 .f32) (h9 : a9.IsWhole)
    (hf : ¬isFirst i) (hl : isLast i) (x0 : Vec F S8x2048 .f32) (x1 x2 : Vec F S1x2048 .f32) (x3 x4 : Vec F S256x1 .f32) (x5 : Vec F S1x256 .f32) (xs : Vec F S8x256 .f32) :
    Σ' (LO : List (View.Piece (Elt F) S8x256 .f32)), { LS : List (View.Piece (Elt F) S8x256 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ (∃ d, owns (c : Thread nD τ) a8 fullShare d) ∗ owns (c : Thread nD τ) a9 fullShare xs
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ (∃ f, a8.view.loc (c : Thread nD τ) ↦[a8.view.set]{fullShare} a8.view.writes (Elt F) f LO) ∗ (∃ f, a9.view.loc (c : Thread nD τ) ↦[a9.view.set]{fullShare} a9.view.writes (Elt F) f LS)) -∗ K ⟨⟩))
          ⊢ wp frame (wpE (defs₀ (F := F)) Variants.none c none) E (cc0__kernel i a2 h2 a3 h3 a4 h4 a5 h5 a6 h6 a7 h7 a8 h8 a9 h9) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5; obtain rfl := h9.eq_unread hfs
    sl_exec (disch := first | exact hf | exact hl)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]; · iexists _; iexact H6
    iexists _; iexact HS

end Cert.KernelIdeal.Hand

end
-- ==== Proof.KI.Frame.lean ====
/-
  The frame of the idealized kernel program: the accumulation point by point, the pipeline's proof data, the body
  obligation at every grid point, the run of @main, and the frame claim.

  Point t of the 64 is output tile t / 8 at input tile t % 8. After the body at point t the accumulator holds: at input
  tile 0, zero plus the tile's partial sums; at a later tile, what the point before left plus the tile's partial sums.
  The output block's buffer is stored into only at input tile 7 (the accumulator divided by the bins' widths), which is
  also the only point whose block the pipeline writes back; at the other points the buffer is handed back as found.
-/
import proofs.«149649_j24970939859722_1_alg».proof.Proof.KI.RunLast

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves, as contents -/

/-- The accumulator after a first-tile body: its stores read back. -/
def accFirst (c : Dev nD) (i : grid0.Coords) (a2 : Memref sig .tc .vmem S8x2048 .f32) (h2 : a2.IsWhole) (a3 : Memref sig .tc .vmem S1x2048 .f32) (h3 : a3.IsWhole) (a4 : Memref sig .tc .vmem S1x2048 .f32) (h4 : a4.IsWhole) (a5 : Memref sig .tc .vmem S256x1 .f32) (h5 : a5.IsWhole) (a6 : Memref sig .tc .vmem S256x1 .f32) (h6 : a6.IsWhole) (a7 : Memref sig .tc .vmem S1x256 .f32) (h7 : a7.IsWhole) (a8 : Memref sig .tc .vmem S8x256 .f32) (h8 : a8.IsWhole) (a9 : Memref sig .tc .vmem S8x256 .f32) (h9 : a9.IsWhole) (hf : isFirst i) (hl : ¬isLast i) (x0 : Vec F S8x2048 .f32) (x1 x2 : Vec F S1x2048 .f32) (x3 x4 : Vec F S256x1 .f32) (x5 : Vec F S1x256 .f32) : Vec F S8x256 .f32 :=
  accV.read (Elt F) (accV.writes (Elt F) accV.junk (runFirst c i a2 h2 a3 h3 a4 h4 a5 h5 a6 h6 a7 h7 a8 h8 a9 h9 hf hl x0 x1 x2 x3 x4 x5).1)
/-- Those stores cover the accumulator (each is a store of the whole 8 × 256 buffer). -/
theorem coverFirst (c : Dev nD) (i : grid0.Coords) (a2 : Memref sig .tc .vmem S8x2048 .f32) (h2 : a2.IsWhole) (a3 : Memref sig .tc .vmem S1x2048 .f32) (h3 : a3.IsWhole) (a4 : Memref sig .tc .vmem S1x2048 .f32) (h4 : a4.IsWhole) (a5 : Memref sig .tc .vmem S256x1 .f32) (h5 : a5.IsWhole) (a6 : Memref sig .tc .vmem S256x1 .f32) (h6 : a6.IsWhole) (a7 : Memref sig .tc .vmem S1x256 .f32) (h7 : a7.IsWhole) (a8 : Memref sig .tc .vmem S8x256 .f32) (h8 : a8.IsWhole) (a9 : Memref sig .tc .vmem S8x256 .f32) (h9 : a9.IsWhole) (hf : isFirst i) (hl : ¬isLast i) (x0 : Vec F S8x2048 .f32) (x1 x2 : Vec F S1x2048 .f32) (x3 x4 : Vec F S256x1 .f32) (x5 : Vec F S1x256 .f32) (y : S8x256.Idx) :
    ∃ pc ∈ (runFirst c i a2 h2 a3 h3 a4 h4 a5 h5 a6 h6 a7 h7 a8 h8 a9 h9 hf hl x0 x1 x2 x3 x4 x5).1, y ∈ pc.1.set :=
  View.cover_of_tiledL (runFirst c i a2 h2 a3 h3 a4 h4 a5 h5 a6 h6 a7 h7 a8 h8 a9 h9 hf hl x0 x1 x2 x3 x4 x5).1 S8x256.size (by sl_kernel_rfl) y

/-- The accumulator after a middle body, from what the point before left, xs. -/
def accMid (c : Dev nD) (i : grid0.Coords) (a2 : Memref sig .tc .vmem S8x2048 .f32) (h2 : a2.IsWhole) (a3 : Memref sig .tc .vmem S1x2048 .f32) (h3 : a3.IsWhole) (a4 : Memref sig .tc .vmem S1x2048 .f32) (h4 : a4.IsWhole) (a5 : Memref sig .tc .vmem S256x1 .f32) (h5 : a5.IsWhole) (a6 : Memref sig .tc .vmem S256x1 .f32) (h6 : a6.IsWhole) (a7 : Memref sig .tc .vmem S1x256 .f32) (h7 : a7.IsWhole) (a8 : Memref sig .tc .vmem S8x256 .f32) (h8 : a8.IsWhole) (a9 : Memref sig .tc .vmem S8x256 .f32) (h9 : a9.IsWhole) (hf : ¬isFirst i) (hl : ¬isLast i) (x0 : Vec F S8x2048 .f32) (x1 x2 : Vec F S1x2048 .f32) (x3 x4 : Vec F S256x1 .f32) (x5 : Vec F S1x256 .f32) (xs : Vec F S8x256 .f32) : Vec F S8x256 .f32 :=
  accV.read (Elt F) (accV.writes (Elt F) accV.junk (runMid c i a2 h2 a3 h3 a4 h4 a5 h5 a6 h6 a7 h7 a8 h8 a9 h9 hf hl x0 x1 x2 x3 x4 x5 xs).1)
theorem coverMid (c : Dev nD) (i : grid0.Coords) (a2 : Memref sig .tc .vmem S8x2048 .f32) (h2 : a2.IsWhole) (a3 : Memref sig .tc .vmem S1x2048 .f32) (h3 : a3.IsWhole) (a4 : Memref sig .tc .vmem S1x2048 .f32) (h4 : a4.IsWhole) (a5 : Memref sig .tc .vmem S256x1 .f32) (h5 : a5.IsWhole) (a6 : Memref sig .tc .vmem S256x1 .f32) (h6 : a6.IsWhole) (a7 : Memref sig .tc .vmem S1x256 .f32) (h7 : a7.IsWhole) (a8 : Memref sig .tc .vmem S8x256 .f32) (h8 : a8.IsWhole) (a9 : Memref sig .tc .vmem S8x256 .f32) (h9 : a9.IsWhole) (hf : ¬isFirst i) (hl : ¬isLast i) (x0 : Vec F S8x2048 .f32) (x1 x2 : Vec F S1x2048 .f32) (x3 x4 : Vec F S256x1 .f32) (x5 : Vec F S1x256 .f32) (xs : Vec F S8x256 .f32) (y : S8x256.Idx) :
    ∃ pc ∈ (runMid c i a2 h2 a3 h3 a4 h4 a5 h5 a6 h6 a7 h7 a8 h8 a9 h9 hf hl x0 x1 x2 x3 x4 x5 xs).1, y ∈ pc.1.set :=
  View.cover_of_tiledL (runMid c i a2 h2 a3 h3 a4 h4 a5 h5 a6 h6 a7 h7 a8 h8 a9 h9 hf hl x0 x1 x2 x3 x4 x5 xs).1 S8x256.size (by sl_kernel_rfl) y

/-- The accumulator and the output block's buffer after a last-tile body. -/
def accLast (c : Dev nD) (i : grid0.Coords) (a2 : Memref sig .tc .vmem S8x2048 .f32) (h2 : a2.IsWhole) (a3 : Memref sig .tc .vmem S1x2048 .f32) (h3 : a3.IsWhole) (a4 : Memref sig .tc .vmem S1x2048 .f32) (h4 : a4.IsWhole) (a5 : Memref sig .tc .vmem S256x1 .f32) (h5 : a5.IsWhole) (a6 : Memref sig .tc .vmem S256x1 .f32) (h6 : a6.IsWhole) (a7 : Memref sig .tc .vmem S1x256 .f32) (h7 : a7.IsWhole) (a8 : Memref sig .tc .vmem S8x256 .f32) (h8 : a8.IsWhole) (a9 : Memref sig .tc .vmem S8x256 .f32) (h9 : a9.IsWhole) (hf : ¬isFirst i) (hl : isLast i) (x0 : Vec F S8x2048 .f32) (x1 x2 : Vec F S1x2048 .f32) (x3 x4 : Vec F S256x1 .f32) (x5 : Vec F S1x256 .f32) (xs : Vec F S8x256 .f32) : Vec F S8x256 .f32 :=
  accV.read (Elt F) (accV.writes (Elt F) accV.junk (runLast c i a2 h2 a3 h3 a4 h4 a5 h5 a6 h6 a7 h7 a8 h8 a9 h9 hf hl x0 x1 x2 x3 x4 x5 xs).2.1)
theorem coverLastAcc (c : Dev nD) (i : grid0.Coords) (a2 : Memref sig .tc .vmem S8x2048 .f32) (h2 : a2.IsWhole) (a3 : Memref sig .tc .vmem S1x2048 .f32) (h3 : a3.IsWhole) (a4 : Memref sig .tc .vmem S1x2048 .f32) (h4 : a4.IsWhole) (a5 : Memref sig .tc .vmem S256x1 .f32) (h5 : a5.IsWhole) (a6 : Memref sig .tc .vmem S256x1 .f32) (h6 : a6.IsWhole) (a7 : Memref sig .tc .vmem S1x256 .f32) (h7 : a7.IsWhole) (a8 : Memref sig .tc .vmem S8x256 .f32) (h8 : a8.IsWhole) (a9 : Memref sig .tc .vmem S8x256 .f32) (h9 : a9.IsWhole) (hf : ¬isFirst i) (hl : isLast i) (x0 : Vec F S8x2048 .f32) (x1 x2 : Vec F S1x2048 .f32) (x3 x4 : Vec F S256x1 .f32) (x5 : Vec F S1x256 .f32) (xs : Vec F S8x256 .f32) (y : S8x256.Idx) :
    ∃ pc ∈ (runLast c i a2 h2 a3 h3 a4 h4 a5 h5 a6 h6 a7 h7 a8 h8 a9 h9 hf hl x0 x1 x2 x3 x4 x5 xs).2.1, y ∈ pc.1.set :=
  View.cover_of_tiledL (runLast c i a2 h2 a3 h3 a4 h4 a5 h5 a6 h6 a7 h7 a8 h8 a9 h9 hf hl x0 x1 x2 x3 x4 x5 xs).2.1 S8x256.size (by sl_kernel_rfl) y
def outLast (c : Dev nD) (i : grid0.Coords) (a2 : Memref sig .tc .vmem S8x2048 .f32) (h2 : a2.IsWhole) (a3 : Memref sig .tc .vmem S1x2048 .f32) (h3 : a3.IsWhole) (a4 : Memref sig .tc .vmem S1x2048 .f32) (h4 : a4.IsWhole) (a5 : Memref sig .tc .vmem S256x1 .f32) (h5 : a5.IsWhole) (a6 : Memref sig .tc .vmem S256x1 .f32) (h6 : a6.IsWhole) (a7 : Memref sig .tc .vmem S1x256 .f32) (h7 : a7.IsWhole) (a8 : Memref sig .tc .vmem S8x256 .f32) (h8 : a8.IsWhole) (a9 : Memref sig .tc .vmem S8x256 .f32) (h9 : a9.IsWhole) (hf : ¬isFirst i) (hl : isLast i) (x0 : Vec F S8x2048 .f32) (x1 x2 : Vec F S1x2048 .f32) (x3 x4 : Vec F S256x1 .f32) (x5 : Vec F S1x256 .f32) (xs : Vec F S8x256 .f32) : Vec F S8x256 .f32 :=
  outV.read (Elt F) (outV.writes (Elt F) outV.junk (runLast c i a2 h2 a3 h3 a4 h4 a5 h5 a6 h6 a7 h7 a8 h8 a9 h9 hf hl x0 x1 x2 x3 x4 x5 xs).1)
theorem coverLastOut (c : Dev nD) (i : grid0.Coords) (a2 : Memref sig .tc .vmem S8x2048 .f32) (h2 : a2.IsWhole) (a3 : Memref sig .tc .vmem S1x2048 .f32) (h3 : a3.IsWhole) (a4 : Memref sig .tc .vmem S1x2048 .f32) (h4 : a4.IsWhole) (a5 : Memref sig .tc .vmem S256x1 .f32) (h5 : a5.IsWhole) (a6 : Memref sig .tc .vmem S256x1 .f32) (h6 : a6.IsWhole) (a7 : Memref sig .tc .vmem S1x256 .f32) (h7 : a7.IsWhole) (a8 : Memref sig .tc .vmem S8x256 .f32) (h8 : a8.IsWhole) (a9 : Memref sig .tc .vmem S8x256 .f32) (h9 : a9.IsWhole) (hf : ¬isFirst i) (hl : isLast i) (x0 : Vec F S8x2048 .f32) (x1 x2 : Vec F S1x2048 .f32) (x3 x4 : Vec F S256x1 .f32) (x5 : Vec F S1x256 .f32) (xs : Vec F S8x256 .f32) (y : S8x256.Idx) :
    ∃ pc ∈ (runLast c i a2 h2 a3 h3 a4 h4 a5 h5 a6 h6 a7 h7 a8 h8 a9 h9 hf hl x0 x1 x2 x3 x4 x5 xs).1, y ∈ pc.1.set :=
  View.cover_of_tiledL (runLast c i a2 h2 a3 h3 a4 h4 a5 h5 a6 h6 a7 h7 a8 h8 a9 h9 hf hl x0 x1 x2 x3 x4 x5 xs).1 S8x256.size (by sl_kernel_rfl) y

/-! ## The accumulation -/

/-- What the accumulator holds after the body at position n: by recursion on the position, the case chosen by the
    position's input tile n % 8. -/
def accAt (c : Dev nD) : (n : ℕ) → n < cfg0.N → Vec F S8x256 .f32
  | 0, hn =>
    let t : Fin cfg0.N := ⟨0, hn⟩
    accFirst c (grid0.coords t) (ms0 t) (hs0 t) (ms1 t) (hs1 t) (ms2 t) (hs2 t) (ms3 t) (hs3 t) (ms4 t) (hs4 t) (ms5 t) (hs5 t) (ms6 t) (hs6 t) accM (Memref.isWhole_whole _) ((isFirst_iff t).mpr (Nat.zero_mod _)) (fun h => by have h' : (0 : ℕ) % 8 = 7 := (isLast_iff t).mp h; omega) (iblk m c 0 t) (iblk m c 1 t) (iblk m c 2 t) (iblk m c 3 t) (iblk m c 4 t) (iblk m c 5 t)
  | n + 1, hn =>
    let t : Fin cfg0.N := ⟨n + 1, hn⟩
    if h0 : (n + 1) % 8 = 0 then
      accFirst c (grid0.coords t) (ms0 t) (hs0 t) (ms1 t) (hs1 t) (ms2 t) (hs2 t) (ms3 t) (hs3 t) (ms4 t) (hs4 t) (ms5 t) (hs5 t) (ms6 t) (hs6 t) accM (Memref.isWhole_whole _) ((isFirst_iff t).mpr h0) (fun h => by have := (isLast_iff t).mp h; dsimp only [t] at this; omega) (iblk m c 0 t) (iblk m c 1 t) (iblk m c 2 t) (iblk m c 3 t) (iblk m c 4 t) (iblk m c 5 t)
    else if h7 : (n + 1) % 8 = 7 then
      accLast c (grid0.coords t) (ms0 t) (hs0 t) (ms1 t) (hs1 t) (ms2 t) (hs2 t) (ms3 t) (hs3 t) (ms4 t) (hs4 t) (ms5 t) (hs5 t) (ms6 t) (hs6 t) accM (Memref.isWhole_whole _) (fun h => h0 ((isFirst_iff t).mp h)) ((isLast_iff t).mpr h7) (iblk m c 0 t) (iblk m c 1 t) (iblk m c 2 t) (iblk m c 3 t) (iblk m c 4 t) (iblk m c 5 t) (accAt c n (Nat.lt_of_succ_lt hn))
    else
      accMid c (grid0.coords t) (ms0 t) (hs0 t) (ms1 t) (hs1 t) (ms2 t) (hs2 t) (ms3 t) (hs3 t) (ms4 t) (hs4 t) (ms5 t) (hs5 t) (ms6 t) (hs6 t) accM (Memref.isWhole_whole _) (fun h => h0 ((isFirst_iff t).mp h)) (fun h => h7 ((isLast_iff t).mp h)) (iblk m c 0 t) (iblk m c 1 t) (iblk m c 2 t) (iblk m c 3 t) (iblk m c 4 t) (iblk m c 5 t) (accAt c n (Nat.lt_of_succ_lt hn))

/-- The accumulator at the point before t (used only off the first position). -/
abbrev accPrev (c : Dev nD) (t : Fin cfg0.N) : Vec F S8x256 .f32 := accAt m c (t.val - 1) (Nat.lt_of_le_of_lt (Nat.sub_le _ _) t.isLt)

theorem accAt_first (c : Dev nD) (t : Fin cfg0.N) (h0 : t.val % 8 = 0) :
    accAt m c t.val t.isLt = accFirst c (grid0.coords t) (ms0 t) (hs0 t) (ms1 t) (hs1 t) (ms2 t) (hs2 t) (ms3 t) (hs3 t) (ms4 t) (hs4 t) (ms5 t) (hs5 t) (ms6 t) (hs6 t) accM (Memref.isWhole_whole _) ((isFirst_iff t).mpr h0) (fun h => by have := (isLast_iff t).mp h; omega) (iblk m c 0 t) (iblk m c 1 t) (iblk m c 2 t) (iblk m c 3 t) (iblk m c 4 t) (iblk m c 5 t) := by
  obtain ⟨n, hn⟩ := t
  cases n with
  | zero => rfl
  | succ n => exact (dif_pos h0).trans rfl
theorem accAt_last (c : Dev nD) (t : Fin cfg0.N) (h0 : ¬t.val % 8 = 0) (h7 : t.val % 8 = 7) :
    accAt m c t.val t.isLt = accLast c (grid0.coords t) (ms0 t) (hs0 t) (ms1 t) (hs1 t) (ms2 t) (hs2 t) (ms3 t) (hs3 t) (ms4 t) (hs4 t) (ms5 t) (hs5 t) (ms6 t) (hs6 t) accM (Memref.isWhole_whole _) (fun h => h0 ((isFirst_iff t).mp h)) ((isLast_iff t).mpr h7) (iblk m c 0 t) (iblk m c 1 t) (iblk m c 2 t) (iblk m c 3 t) (iblk m c 4 t) (iblk m c 5 t) (accPrev m c t) := by
  obtain ⟨n, hn⟩ := t
  cases n with
  | zero => exact absurd (Nat.zero_mod _) h0
  | succ n => exact (dif_neg h0).trans ((dif_pos h7).trans rfl)
theorem accAt_mid (c : Dev nD) (t : Fin cfg0.N) (h0 : ¬t.val % 8 = 0) (h7 : ¬t.val % 8 = 7) :
    accAt m c t.val t.isLt = accMid c (grid0.coords t) (ms0 t) (hs0 t) (ms1 t) (hs1 t) (ms2 t) (hs2 t) (ms3 t) (hs3 t) (ms4 t) (hs4 t) (ms5 t) (hs5 t) (ms6 t) (hs6 t) accM (Memref.isWhole_whole _) (fun h => h0 ((isFirst_iff t).mp h)) (fun h => h7 ((isLast_iff t).mp h)) (iblk m c 0 t) (iblk m c 1 t) (iblk m c 2 t) (iblk m c 3 t) (iblk m c 4 t) (iblk m c 5 t) (accPrev m c t) := by
  obtain ⟨n, hn⟩ := t
  cases n with
  | zero => exact absurd (Nat.zero_mod _) h0
  | succ n => exact (dif_neg h0).trans ((dif_neg h7).trans rfl)

/-- What the output block's buffer holds after the body at point t: at a last-tile point the quotient the body stored;
    elsewhere a placeholder nothing reads (the buffer is neither written back there nor kept for a later point). -/
def outAt (c : Dev nD) (t : Fin cfg0.N) : Vec F S8x256 .f32 :=
  if h7 : t.val % 8 = 7 then
    outLast c (grid0.coords t) (ms0 t) (hs0 t) (ms1 t) (hs1 t) (ms2 t) (hs2 t) (ms3 t) (hs3 t) (ms4 t) (hs4 t) (ms5 t) (hs5 t) (ms6 t) (hs6 t) accM (Memref.isWhole_whole _) (fun h => by have := (isFirst_iff t).mp h; omega) ((isLast_iff t).mpr h7) (iblk m c 0 t) (iblk m c 1 t) (iblk m c 2 t) (iblk m c 3 t) (iblk m c 4 t) (iblk m c 5 t) (accPrev m c t)
  else outV.read (Elt F) outV.junk

theorem outAt_last (c : Dev nD) (t : Fin cfg0.N) (h0 : ¬t.val % 8 = 0) (h7 : t.val % 8 = 7) :
    outAt m c t = outLast c (grid0.coords t) (ms0 t) (hs0 t) (ms1 t) (hs1 t) (ms2 t) (hs2 t) (ms3 t) (hs3 t) (ms4 t) (hs4 t) (ms5 t) (hs5 t) (ms6 t) (hs6 t) accM (Memref.isWhole_whole _) (fun h => h0 ((isFirst_iff t).mp h)) ((isLast_iff t).mpr h7) (iblk m c 0 t) (iblk m c 1 t) (iblk m c 2 t) (iblk m c 3 t) (iblk m c 4 t) (iblk m c 5 t) (accPrev m c t) :=
  (dif_pos h7).trans rfl

/-! ## The region's invariant -/

/-- Before position n: before the first point the accumulator holds anything; afterwards what the point before left. The
    generator register is at some state throughout. -/
def PhiS (c : Dev nD) : (n : ℕ) → n ≤ cfg0.N → sProp 𝕄
  | 0, _ => Pipeline.ΦA spec0 c
  | n + 1, hn => iprop(iprop(owns (c : Thread nD τ) accM fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accM fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) accM fullShare (accAt m c (n - 1) (by omega))) ∗ (∃ r, prngReg c r)) := by
  cases n with
  | zero => exact absurd rfl hz
  | succ n => rfl

/-! ## The pipeline's proof data -/

/-- The arrays as the region finds them; after the body each input's buffer still at its block, the output's at outAt;
    the invariant PhiS; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_out (c : Dev nD) (t : Fin cfg0.N) : (dats m 0 c).after 6 t = outAt m c t := by dsimp only [dats]

theorem found0 (c : Dev nD) (t : Fin cfg0.N) (d) : (dats m 0 c).before 0 t d = iblk m c 0 t := before_in0 m (dats m 0 c) (A_eq m c 0) (after_in0 m c) t d
theorem found1 (c : Dev nD) (t : Fin cfg0.N) (d) : (dats m 0 c).before 1 t d = iblk m c 1 t := before_in1 m (dats m 0 c) (A_eq m c 1) (after_in1 m c) t d
theorem found2 (c : Dev nD) (t : Fin cfg0.N) (d) : (dats m 0 c).before 2 t d = iblk m c 2 t := before_in2 m (dats m 0 c) (A_eq m c 2) (after_in2 m c) t d
theorem found3 (c : Dev nD) (t : Fin cfg0.N) (d) : (dats m 0 c).before 3 t d = iblk m c 3 t := before_in3 m (dats m 0 c) (A_eq m c 3) (after_in3 m c) t d
theorem found4 (c : Dev nD) (t : Fin cfg0.N) (d) : (dats m 0 c).before 4 t d = iblk m c 4 t := before_in4 m (dats m 0 c) (A_eq m c 4) (after_in4 m c) t d
theorem found5 (c : Dev nD) (t : Fin cfg0.N) (d) : (dats m 0 c).before 5 t d = iblk m c 5 t := before_in5 m (dats m 0 c) (A_eq m c 5) (after_in5 m c) t d

/-! ## The body obligation, at a generic point -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

set_option maxHeartbeats 4800000 in
/-- The body at any point. The six inputs' buffers hold their blocks; the position's input tile says which of the three
    cases runs; the invariant hands the body the accumulator (at anything before the first point, else at what the point
    before left) and takes it back at this point's contents; the output block's buffer is handed back as found off the
    last tile and at the stored quotient on it; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1, found2, found3, found4, found5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live_in 0 (by decide) t], after_in0]
  rw [show (dats m 0 c).leavesExact 1 t = owns (c : Thread nD τ) (ms1 t) fullShare ((dats m 0 c).after 1 t) from by
    unfold Dat.leavesExact; rw [live_in 1 (by decide) t], after_in1]
  rw [show (dats m 0 c).leavesExact 2 t = owns (c : Thread nD τ) (ms2 t) fullShare ((dats m 0 c).after 2 t) from by
    unfold Dat.leavesExact; rw [live_in 2 (by decide) t], after_in2]
  rw [show (dats m 0 c).leavesExact 3 t = owns (c : Thread nD τ) (ms3 t) fullShare ((dats m 0 c).after 3 t) from by
    unfold Dat.leavesExact; rw [live_in 3 (by decide) t], after_in3]
  rw [show (dats m 0 c).leavesExact 4 t = owns (c : Thread nD τ) (ms4 t) fullShare ((dats m 0 c).after 4 t) from by
    unfold Dat.leavesExact; rw [live_in 4 (by decide) t], after_in4]
  rw [show (dats m 0 c).leavesExact 5 t = owns (c : Thread nD τ) (ms5 t) fullShare ((dats m 0 c).after 5 t) from by
    unfold Dat.leavesExact; rw [live_in 5 (by decide) t], after_in5]
  have hN : t.val < 64 := lt_of_lt_of_eq t.isLt (show cfg0.N = 64 from N_0)
  by_cases h0 : t.val % 8 = 0
  · have h7 : ¬t.val % 8 = 7 := by omega
    have hnl : ¬isLast (grid0.coords t) := fun h => h7 ((isLast_iff t).mp h)
    rw [Dat.leavesExact_idle (dats m 0 c) 6 t (idle_out_of_not_last t hnl) (noflush_of_not_last t hnl)]
    rw [accAt_first m c t h0]
    unfold accFirst; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid0.coords t) (ms0 t) (hs0 t) (ms1 t) (hs1 t) (ms2 t) (hs2 t) (ms3 t) (hs3 t) (ms4 t) (hs4 t) (ms5 t) (hs5 t) (ms6 t) (hs6 t) accM (Memref.isWhole_whole _) ((isFirst_iff t).mpr h0) hnl (iblk m c 0 t) (iblk m c 1 t) (iblk m c 2 t) (iblk m c 3 t) (iblk m c 4 t) (iblk m c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [HS Hg]
      · isplitl [HS]
        · unfold owns; iexists _; isplitr
          swap; · iexact HS
          ipureintro; exact View.read_writes_of_cover _ _ _ _ _ (coverFirst c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid0.coords t) (ms0 t) (hs0 t) (ms1 t) (hs1 t) (ms2 t) (hs2 t) (ms3 t) (hs3 t) (ms4 t) (hs4 t) (ms5 t) (hs5 t) (ms6 t) (hs6 t) accM (Memref.isWhole_whole _) ((isFirst_iff t).mpr h0) hnl (iblk m c 0 t) (iblk m c 1 t) (iblk m c 2 t) (iblk m c 3 t) (iblk m c 4 t) (iblk m c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexists _; iexact HS
      iintro ⟨H0, H1, H2, H3, H4, H5, H6, ⟨%es, HS⟩⟩
      isplitl [HS Hg]
      · isplitl [HS]
        · unfold owns; iexists _; isplitr
          swap; · iexact HS
          ipureintro; exact View.read_writes_of_cover _ _ _ _ _ (coverFirst c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun h => h0 (by rw [h])
    have hnf : ¬isFirst (grid0.coords t) := fun h => h0 ((isFirst_iff t).mp h)
    by_cases h7 : t.val % 8 = 7
    · have hlast : isLast (grid0.coords t) := (isLast_iff t).mpr h7
      rw [show (dats m 0 c).leavesExact 6 t = owns (c : Thread nD τ) (ms6 t) fullShare ((dats m 0 c).after 6 t) from by
        unfold Dat.leavesExact; rw [live_out_of_last t hlast], after_out]
      rw [accAt_last m c t h0 h7, outAt_last m c t h0 h7]
      unfold accLast outLast; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((runLast c (grid0.coords t) (ms0 t) (hs0 t) (ms1 t) (hs1 t) (ms2 t) (hs2 t) (ms3 t) (hs3 t) (ms4 t) (hs4 t) (ms5 t) (hs5 t) (ms6 t) (hs6 t) accM (Memref.isWhole_whole _) hnf hlast (iblk m c 0 t) (iblk m c 1 t) (iblk m c 2 t) (iblk m c 3 t) (iblk m c 4 t) (iblk m c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, ⟨%es, HS⟩⟩
      isplitl [HS Hg]
      · isplitl [HS]
        · unfold owns; iexists _; isplitr
          swap; · iexact HS
          ipureintro; exact View.read_writes_of_cover _ _ _ _ _ (coverLastAcc c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverLastOut c _ _ _ _ _ _ _ _ _ _ _ _ _ _ _ _ _ _ _ _ _ _ _ _ _ _)
    · have hnl : ¬isLast (grid0.coords t) := fun h => h7 ((isLast_iff t).mp h)
      rw [Dat.leavesExact_idle (dats m 0 c) 6 t (idle_out_of_not_last t hnl) (noflush_of_not_last t hnl)]
      rw [accAt_mid m c t h0 h7]
      unfold accMid; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((runMid c (grid0.coords t) (ms0 t) (hs0 t) (ms1 t) (hs1 t) (ms2 t) (hs2 t) (ms3 t) (hs3 t) (ms4 t) (hs4 t) (ms5 t) (hs5 t) (ms6 t) (hs6 t) accM (Memref.isWhole_whole _) hnf hnl (iblk m c 0 t) (iblk m c 1 t) (iblk m c 2 t) (iblk m c 3 t) (iblk m c 4 t) (iblk m c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [HS Hg]
      · isplitl [HS]
        · unfold owns; iexists _; isplitr
          swap; · iexact HS
          ipureintro; exact View.read_writes_of_cover _ _ _ _ _ (coverMid c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the accumulator back at some contents. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA_eq]
  iintro ⟨HS, Hg⟩
  isplitl [HS]
  · iexists _; iexact HS
  iexact Hg

/-! ## The run and the frame -/

set_option backward.isDefEq.respectTransparency.types false in
/-- Every weakly fair execution of @main terminates, and every final state has each array of the pipeline at what the
    library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end without a fault and its three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.KI.Contents.lean ====
/-
  What each of the three cases of the body leaves, as values of the blocks it loaded.

  Every store of the body writes a whole 8 × 256 buffer, so what a buffer holds afterwards is the last value stored, and
  a load of the accumulator after a store into it reads that stored value. Hence: at a first-tile point the accumulator
  ends at the update applied to the zero block; at a middle or last-tile point at the update applied to what the point
  before left; and at a last-tile point the output block's buffer ends at the quotient of that updated accumulator by
  the widths' block.
-/
import proofs.«149649_j24970939859722_1_alg».proof.Proof.KI.Frame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz : (![0, 0] : Fin 2 → Nat) = fun _ => 0 := funext fun a => by fin_cases a <;> rfl

theorem accMid_eq (c : Dev nD) (i : grid0.Coords) (a2 : Memref sig .tc .vmem S8x2048 .f32) (h2 : a2.IsWhole) (a3 : Memref sig .tc .vmem S1x2048 .f32) (h3 : a3.IsWhole) (a4 : Memref sig .tc .vmem S1x2048 .f32) (h4 : a4.IsWhole) (a5 : Memref sig .tc .vmem S256x1 .f32) (h5 : a5.IsWhole) (a6 : Memref sig .tc .vmem S256x1 .f32) (h6 : a6.IsWhole) (a7 : Memref sig .tc .vmem S1x256 .f32) (h7 : a7.IsWhole) (a8 : Memref sig .tc .vmem S8x256 .f32) (h8 : a8.IsWhole) (a9 : Memref sig .tc .vmem S8x256 .f32) (h9 : a9.IsWhole) (hf : ¬isFirst i) (hl : ¬isLast i) (x0 : Vec F S8x2048 .f32) (x1 x2 : Vec F S1x2048 .f32) (x3 x4 : Vec F S256x1 .f32) (x5 : Vec F S1x256 .f32) (xs : Vec F S8x256 .f32) :
    accMid c i a2 h2 a3 h3 a4 h4 a5 h5 a6 h6 a7 h7 a8 h8 a9 h9 hf hl x0 x1 x2 x3 x4 x5 xs = k0_pay2 x1 x2 x3 x4 x0 xs := by
  unfold accMid
  rw [View.read_writes_eq_canon _ _ _ (coverMid c i a2 h2 a3 h3 a4 h4 a5 h5 a6 h6 a7 h7 a8 h8 a9 h9 hf hl x0 x1 x2 x3 x4 x5 xs)]
  unfold runMid
  dsimp only
  rw [View.canon_unit_zero hz]
  simp only [View.readAt_eq_ld, h2.read_unread, h3.read_unread, h4.read_unread, h5.read_unread, h6.read_unread, h7.read_unread, h9.read_unread,
    View.ld_unit_zero (S := S8x2048) hz, View.ld_unit_zero (S := S1x2048) hz, View.ld_unit_zero (S := S256x1) hz, View.ld_unit_zero (S := S1x256) hz, View.ld_unit_zero (S := S8x256) hz]

theorem accFirst_eq (c : Dev nD) (i : grid0.Coords) (a2 : Memref sig .tc .vmem S8x2048 .f32) (h2 : a2.IsWhole) (a3 : Memref sig .tc .vmem S1x2048 .f32) (h3 : a3.IsWhole) (a4 : Memref sig .tc .vmem S1x2048 .f32) (h4 : a4.IsWhole) (a5 : Memref sig .tc .vmem S256x1 .f32) (h5 : a5.IsWhole) (a6 : Memref sig .tc .vmem S256x1 .f32) (h6 : a6.IsWhole) (a7 : Memref sig .tc .vmem S1x256 .f32) (h7 : a7.IsWhole) (a8 : Memref sig .tc .vmem S8x256 .f32) (h8 : a8.IsWhole) (a9 : Memref sig .tc .vmem S8x256 .f32) (h9 : a9.IsWhole) (hf : isFirst i) (hl : ¬isLast i) (x0 : Vec F S8x2048 .f32) (x1 x2 : Vec F S1x2048 .f32) (x3 x4 : Vec F S256x1 .f32) (x5 : Vec F S1x256 .f32) :
    accFirst c i a2 h2 a3 h3 a4 h4 a5 h5 a6 h6 a7 h7 a8 h8 a9 h9 hf hl x0 x1 x2 x3 x4 x5 = k0_pay2 x1 x2 x3 x4 x0 (k0_pay1 (F := F)) := by
  unfold accFirst
  rw [View.read_writes_eq_canon _ _ _ (coverFirst c i a2 h2 a3 h3 a4 h4 a5 h5 a6 h6 a7 h7 a8 h8 a9 h9 hf hl x0 x1 x2 x3 x4 x5)]
  unfold runFirst
  dsimp only
  sl_unfold_words
  rw [View.canon_cons_unit_zero (S := S8x256) hz, View.readCov_unit_zero (S := S8x256) _ hz]
  simp only [View.readAt_eq_ld, h2.read_unread, h3.read_unread, h4.read_unread, h5.read_unread, h6.read_unread, h7.read_unread, h9.read_unread,
    View.ld_unit_zero (S := S8x2048) hz, View.ld_unit_zero (S := S1x2048) hz, View.ld_unit_zero (S := S256x1) hz, View.ld_unit_zero (S := S1x256) hz, View.ld_unit_zero (S := S8x256) hz]

theorem accLast_eq (c : Dev nD) (i : grid0.Coords) (a2 : Memref sig .tc .vmem S8x2048 .f32) (h2 : a2.IsWhole) (a3 : Memref sig .tc .vmem S1x2048 .f32) (h3 : a3.IsWhole) (a4 : Memref sig .tc .vmem S1x2048 .f32) (h4 : a4.IsWhole) (a5 : Memref sig .tc .vmem S256x1 .f32) (h5 : a5.IsWhole) (a6 : Memref sig .tc .vmem S256x1 .f32) (h6 : a6.IsWhole) (a7 : Memref sig .tc .vmem S1x256 .f32) (h7 : a7.IsWhole) (a8 : Memref sig .tc .vmem S8x256 .f32) (h8 : a8.IsWhole) (a9 : Memref sig .tc .vmem S8x256 .f32) (h9 : a9.IsWhole) (hf : ¬isFirst i) (hl : isLast i) (x0 : Vec F S8x2048 .f32) (x1 x2 : Vec F S1x2048 .f32) (x3 x4 : Vec F S256x1 .f32) (x5 : Vec F S1x256 .f32) (xs : Vec F S8x256 .f32) :
    accLast c i a2 h2 a3 h3 a4 h4 a5 h5 a6 h6 a7 h7 a8 h8 a9 h9 hf hl x0 x1 x2 x3 x4 x5 xs = k0_pay2 x1 x2 x3 x4 x0 xs := by
  unfold accLast
  rw [View.read_writes_eq_canon _ _ _ (coverLastAcc c i a2 h2 a3 h3 a4 h4 a5 h5 a6 h6 a7 h7 a8 h8 a9 h9 hf hl x0 x1 x2 x3 x4 x5 xs)]
  unfold runLast
  dsimp only
  sl_unfold_words
  rw [View.canon_unit_zero hz]
  simp only [View.readAt_eq_ld, h2.read_unread, h3.read_unread, h4.read_unread, h5.read_unread, h6.read_unread, h7.read_unread, h9.read_unread,
    View.ld_unit_zero (S := S8x2048) hz, View.ld_unit_zero (S := S1x2048) hz, View.ld_unit_zero (S := S256x1) hz, View.ld_unit_zero (S := S1x256) hz, View.ld_unit_zero (S := S8x256) hz]

theorem outLast_eq (c : Dev nD) (i : grid0.Coords) (a2 : Memref sig .tc .vmem S8x2048 .f32) (h2 : a2.IsWhole) (a3 : Memref sig .tc .vmem S1x2048 .f32) (h3 : a3.IsWhole) (a4 : Memref sig .tc .vmem S1x2048 .f32) (h4 : a4.IsWhole) (a5 : Memref sig .tc .vmem S256x1 .f32) (h5 : a5.IsWhole) (a6 : Memref sig .tc .vmem S256x1 .f32) (h6 : a6.IsWhole) (a7 : Memref sig .tc .vmem S1x256 .f32) (h7 : a7.IsWhole) (a8 : Memref sig .tc .vmem S8x256 .f32) (h8 : a8.IsWhole) (a9 : Memref sig .tc .vmem S8x256 .f32) (h9 : a9.IsWhole) (hf : ¬isFirst i) (hl : isLast i) (x0 : Vec F S8x2048 .f32) (x1 x2 : Vec F S1x2048 .f32) (x3 x4 : Vec F S256x1 .f32) (x5 : Vec F S1x256 .f32) (xs : Vec F S8x256 .f32) :
    outLast c i a2 h2 a3 h3 a4 h4 a5 h5 a6 h6 a7 h7 a8 h8 a9 h9 hf hl x0 x1 x2 x3 x4 x5 xs = k0_pay3 (k0_pay2 x1 x2 x3 x4 x0 xs) x5 := by
  unfold outLast
  rw [View.read_writes_eq_canon _ _ _ (coverLastOut c i a2 h2 a3 h3 a4 h4 a5 h5 a6 h6 a7 h7 a8 h8 a9 h9 hf hl x0 x1 x2 x3 x4 x5 xs)]
  unfold runLast
  dsimp only
  sl_unfold_words
  rw [View.canon_unit_zero hz, View.readCov_unit_zero (S := S8x256) _ hz]
  simp only [View.readAt_eq_ld, h2.read_unread, h3.read_unread, h4.read_unread, h5.read_unread, h6.read_unread, h7.read_unread, h9.read_unread,
    View.ld_unit_zero (S := S8x2048) hz, View.ld_unit_zero (S := S1x2048) hz, View.ld_unit_zero (S := S256x1) hz, View.ld_unit_zero (S := S1x256) hz, View.ld_unit_zero (S := S8x256) hz]

end Cert.KernelIdeal.Hand

end
-- ==== Proof.Spec.lean ====
/-
  Flux-conserving rebinning of 8 spectra from 16384 input wavelength bins onto 2048 output bins, as mathematics on the
  extended reals.

  Each wavelength grid w of n points has n + 1 bin edges: the midpoints of neighbouring points, and at each end the end
  point moved outwards by half the neighbouring step. Both programs build their two edge vectors by one and the same
  chain of host operations, so the edge vectors enter here as that chain's value (the reference's stage "%23" for the
  input grid, "%47" for the output grid) and are never opened: all that is ever needed of an edge is that it is a real
  number when the grid's points are.

  With input edges Ei (16385 of them) and output edges Eo (2049 of them), the length of the overlap of output bin o with
  input bin i is
      ovl o i = max (min (Eo (o+1)) (Ei (i+1)) − max (Eo o) (Ei i)) 0 .
  The kernel computes, for spectrum s and output bin o,
      ( Σ_i flux s i · ovl o i ) / (Eo (o+1) − Eo o) ,
  the reference
      ( Σ_i (flux s i · δ i) · (ovl o i / δ i) ) / (Eo (o+1) − Eo o) ,   δ i = Ei (i+1) − Ei i ,
  with the division of the extended reals that the programs use (a quotient by zero is an infinity, or −∞ for 0 / 0).
-/
import proofs.«149649_j24970939859722_1_alg».proof.Proof.Gen.ReferenceIdeal.Read

noncomputable section

open scoped BigOperators

namespace Cert.Rebin

open Idealize.ShloMosaic Idealize.ShloMosaic.ValueIdx Cert.ReferenceIdeal

variable [Cert.ReferenceIdeal.Facts]

/-- The lower and the upper edge of output bin o among the 2049 output edges, and of input bin i among the 16385
    input edges. -/
abbrev oLo (o : Fin 2048) : Fin 2049 := ⟨o.val, by omega⟩
abbrev oHi (o : Fin 2048) : Fin 2049 := ⟨o.val + 1, by omega⟩
abbrev iLo (i : Fin 16384) : Fin 16385 := ⟨i.val, by omega⟩
abbrev iHi (i : Fin 16384) : Fin 16385 := ⟨i.val + 1, by omega⟩

/-- The length of the overlap of the interval [lo₁, hi₁] with [lo₂, hi₂], zero when they do not meet. -/
def ovl (lo₁ hi₁ lo₂ hi₂ : EReal) : EReal := max (min hi₁ hi₂ - max lo₁ lo₂) 0

/-- What the kernel computes from a flux table and the two edge vectors. -/
def kernelOf (fl : Fin 8 → Fin 16384 → EReal) (Ei : Fin 16385 → EReal) (Eo : Fin 2049 → EReal)
    (s : Fin 8) (o : Fin 2048) : EReal :=
  Ideal.div (∑ i : Fin 16384, fl s i * ovl (Eo (oLo o)) (Eo (oHi o)) (Ei (iLo i)) (Ei (iHi i)))
    (Eo (oHi o) - Eo (oLo o))

/-- What the reference computes from them: each flux weighted by its bin's width, each overlap taken as a fraction of
    that width. -/
def referenceOf (fl : Fin 8 → Fin 16384 → EReal) (Ei : Fin 16385 → EReal) (Eo : Fin 2049 → EReal)
    (s : Fin 8) (o : Fin 2048) : EReal :=
  Ideal.div (∑ i : Fin 16384, (fl s i * (Ei (iHi i) - Ei (iLo i)))
      * Ideal.div (ovl (Eo (oLo o)) (Eo (oHi o)) (Ei (iLo i)) (Ei (iHi i))) (Ei (iHi i) - Ei (iLo i)))
    (Eo (oHi o) - Eo (oLo o))

/-- The 16385 edges of the input grid and the 2049 edges of the output grid: the value of the host chain both programs
    share, read at a plain position. -/
def edgesIn (a0 : (⟨S16384, .f32⟩ : BufTy).Contents (Elt Ideal)) (j : Fin 16385) : EReal :=
  Cert.ReferenceIdeal.Read.val_main_v23 (F := Ideal) a0 (ix1 j)
def edgesOut (a2 : (⟨S2048, .f32⟩ : BufTy).Contents (Elt Ideal)) (j : Fin 2049) : EReal :=
  Cert.ReferenceIdeal.Read.val_main_v47 (F := Ideal) a2 (ix1 j)

/-- The flux table read at plain positions. -/
def fluxOf (a1 : (⟨S8x16384, .f32⟩ : BufTy).Contents (Elt Ideal)) (s : Fin 8) (i : Fin 16384) : EReal := a1 (ix2 s i)

/-- The kernel's result array, and the reference's, as functions of the three argument arrays. -/
def kernelResult (a0 : (⟨S16384, .f32⟩ : BufTy).Contents (Elt Ideal)) (a1 : (⟨S8x16384, .f32⟩ : BufTy).Contents (Elt Ideal))
    (a2 : (⟨S2048, .f32⟩ : BufTy).Contents (Elt Ideal)) : (⟨S8x2048, .f32⟩ : BufTy).Contents (Elt Ideal) :=
  fun j => kernelOf (fluxOf a1) (edgesIn a0) (edgesOut a2) (j 0) (j 1)
def referenceResult (a0 : (⟨S16384, .f32⟩ : BufTy).Contents (Elt Ideal)) (a1 : (⟨S8x16384, .f32⟩ : BufTy).Contents (Elt Ideal))
    (a2 : (⟨S2048, .f32⟩ : BufTy).Contents (Elt Ideal)) : (⟨S8x2048, .f32⟩ : BufTy).Contents (Elt Ideal) :=
  fun j => referenceOf (fluxOf a1) (edgesIn a0) (edgesOut a2) (j 0) (j 1)

/-- Every entry of an array is a real number. -/
def AllReal {S : Shape} (x : S.Idx → EReal) : Prop := ∀ j, ∃ r : ℝ, x j = (r : EReal)

end Cert.Rebin

end
-- ==== Proof.LibDotT.lean ====
/-
  A matrix product with the transpose of the right factor, read at an index, on the extended reals.

  For a rows × contraction by columns × contraction product — the dimension numbers that contract the left operand's
  second axis with the right operand's SECOND axis, with no batch axis — the entry at (i, j) of the host's
  `dot_general`, and of a `tpu.matmul` accumulated into the zero splat, is the plain sum over the contraction
  coordinate k of l (i, k) · r (j, k): row i of the left operand against row j of the right one. The sum over the
  product's own contraction index is re-indexed through the bijection between a one-axis contraction index and its
  coordinate; the operand indices are computed from the dimension numbers: the left operand reads the result's first
  coordinate on its first axis, the right operand reads the result's second coordinate on its first axis, and both
  read the contraction coordinate on their second axis. Nothing here needs finiteness: only that the sum is re-indexed.
-/
import Idealize.ShloMosaic.Lib.ValueIdx
import Idealize.ShloMosaic.PureOps.Ideal.Laws

noncomputable section

namespace Cert.LibDotT

open Idealize.ShloMosaic Idealize.ShloMosaic.ValueIdx

variable {M K N : Nat}

/-- The contraction of row `y 0` of `l` with row `y 1` of `r`: the sum over the product's contraction index is
    the sum over the one contracted coordinate. -/
theorem sum_transposed (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (l : (⟨2, ![M, K]⟩ : Shape).Idx → EReal) (r : (⟨2, ![N, K]⟩ : Shape).Idx → EReal) (y : (⟨2, ![M, N]⟩ : Shape).Idx) :
    ∑ q : d.contr.Idx, l (d.lhsIdx y q) * r (d.rhsIdx y q) = ∑ k : Fin K, l (ix2 (y 0) k) * r (ix2 (y 1) k) := by
  obtain ⟨lc, rc, ln, rn, lb, rb, wf⟩ := d
  dsimp only at hlc hrc hln hrn hlb hrb
  subst hlc hrc hln hrn hlb hrb
  rw [← Equiv.sum_comp (contrEquiv1 (⟨[1], [1], [0], [0], [], [], wf⟩ : DotDims ⟨2, ![M, K]⟩ ⟨2, ![N, K]⟩ ⟨2, ![M, N]⟩) K rfl rfl).symm]
  refine Finset.sum_congr rfl fun k _ => ?_
  have hk := contrEquiv1_symm_val (⟨[1], [1], [0], [0], [], [], wf⟩ : DotDims ⟨2, ![M, K]⟩ ⟨2, ![N, K]⟩ ⟨2, ![M, N]⟩) K rfl rfl k
  have el : DotDims.lhsIdx (⟨[1], [1], [0], [0], [], [], wf⟩ : DotDims ⟨2, ![M, K]⟩ ⟨2, ![N, K]⟩ ⟨2, ![M, N]⟩) y
      ((contrEquiv1 (⟨[1], [1], [0], [0], [], [], wf⟩ : DotDims ⟨2, ![M, K]⟩ ⟨2, ![N, K]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [1], [0], [0], [], [], wf⟩ : DotDims ⟨2, ![M, K]⟩ ⟨2, ![N, K]⟩ ⟨2, ![M, N]⟩) y
      ((contrEquiv1 (⟨[1], [1], [0], [0], [], [], wf⟩ : DotDims ⟨2, ![M, K]⟩ ⟨2, ![N, K]⟩ ⟨2, ![M, N]⟩) K rfl rfl).symm k)
      = ix2 (y 1) k := funext fun a => Fin.ext (by
    match a with
    | ⟨0, _⟩ =>
      unfold DotDims.rhsIdx
      rw [dif_neg (by simp), dif_pos (by simp)]
      rfl
    | ⟨1, _⟩ => exact (DotDims.rhsIdx_val_of_single _ rfl y _).trans hk)
  rw [el, er]
  rfl

variable {φ₁ φ₂ : FTy}

/-- The host's `dot_general` of those dimension numbers, at an index: the sum over the contracted coordinate. -/
theorem dotGeneral_transposed_apply (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (sched : HostSchedule)
    (l : FVec Ideal ⟨2, ![M, K]⟩ φ₁) (r : FVec Ideal ⟨2, ![N, K]⟩ φ₂) (y : (⟨2, ![M, N]⟩ : Shape).Idx) :
    FloatOps.dotGeneral d prec sched l r y = ∑ k : Fin K, l (ix2 (y 0) k) * r (ix2 (y 1) k) := by
  rw [Ideal.dotGeneral_apply]
  exact sum_transposed d hlc hrc hln hrn hlb hrb l r y

/-- A `tpu.matmul` of those dimension numbers into the zero accumulator, at an index: the same sum. -/
theorem matmul_zero_transposed_apply (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision)
    (l : FVec Ideal ⟨2, ![M, K]⟩ φ₁) (r : FVec Ideal ⟨2, ![N, K]⟩ φ₂) (y : (⟨2, ![M, N]⟩ : Shape).Idx) :
    FloatOps.matmul d prec l r (constant ⟨2, ![M, N]⟩ .f32 0x00000000#32) y
      = ∑ k : Fin K, l (ix2 (y 0) k) * r (ix2 (y 1) k) := by
  rw [Ideal.matmul_constant_zero_apply]
  exact sum_transposed d hlc hrc hln hrn hlb hrb l r y

end Cert.LibDotT

end
-- ==== Proof.LibColumn.lean ====
/-
  A column of per-row values laid beside a matrix, read at an index.

  A reduction over a matrix's second axis with the axis kept ("keepdims") leaves one value per row, stored as a
  vector of length a, re-cast as an a × 1 column, and then broadcast across the b columns of the matrix it is
  combined with.  At entry (p, c) each of these re-layings reads the one value of row p: the cast keeps the row-major
  position, and the broadcast reads a unit axis at coordinate 0 whatever the column.
-/
import Idealize.ShloMosaic.Lib.Pipeline.Value
import Idealize.ShloMosaic.Lib.ValueIdx

namespace Cert.LibColumn

open Idealize.ShloMosaic Idealize.ShloMosaic.ValueIdx

variable {α : Type}

/-- A vector of length `a` cast to an `a × 1` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column cast to itself is itself. -/
theorem shapeCast_a1_a1_apply {a : ℕ} (x : (⟨2, ![a, 1]⟩ : Shape).Idx → α) (h : (⟨2, ![a, 1]⟩ : Shape).ShapeCasts ⟨2, ![a, 1]⟩)
    (j : (⟨2, ![a, 1]⟩ : Shape).Idx) : shapeCast ⟨2, ![a, 1]⟩ x h j = x j := by
  rw [shapeCast_self]

/-- An `a × 1` column broadcast across `b` columns reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.LibColumn
-- ==== Proof.KI.Payload.lean ====
/-
  The three values the kernel body stores, read at one entry (s, q) of the 8 × 256 tile: spectrum s, output bin q.

  The body clears its accumulator with the zero splat; it adds to the accumulator the product of the 8 × 2048 tile of
  fluxes with the TRANSPOSE of the 256 × 2048 table of overlaps; and at the last step it divides the accumulator by the
  row of the output bins' widths.

  The table of overlaps is built entrywise from four edge vectors: the output bins' lower and upper edges come as
  256 × 1 columns laid across the 2048 columns of the table (entry (q, k) reads row q of the column), the input bins'
  lower and upper edges as 1 × 2048 rows laid down its 256 rows (entry (q, k) reads column k of the row). Entry (q, k)
  is then  max (min hi_out hi_in − max lo_out lo_in) 0,  the length of the overlap of output bin q with input bin k.
  The product contracts the second axis of both factors, so its entry (s, q) is the sum over the input bin k of
  flux (s, k) · overlap (q, k). Both factors pass through a change of number format first, which on the extended reals
  is the identity; a re-cast of a block to its own shape is the identity too, and the zero word denotes 0.
-/
import proofs.«149649_j24970939859722_1_alg».proof.Proof.Gen.KernelIdeal.Skeleton
import proofs.«149649_j24970939859722_1_alg».proof.Proof.Spec
import proofs.«149649_j24970939859722_1_alg».proof.Proof.LibDotT
import proofs.«149649_j24970939859722_1_alg».proof.Proof.LibColumn
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Hand

open Idealize.ShloMosaic Idealize.ShloMosaic.ValueIdx
open Cert.KernelIdeal Cert.KernelIdeal.Gen Cert.Rebin

/-- The table of overlaps at entry (q, k): the two columns read at row q, the two rows at column k, and the zero splat
    reads 0, so the entry is the overlap of the interval [x3 q, x4 q] with [x1 k, x2 k]. -/
private theorem overlap_apply (x1 x2 : FVec Ideal S1x2048 .f32) (x3 x4 : FVec Ideal S256x1 .f32)
    (hc : S256x1.Broadcasts S256x2048) (hr : S1x2048.Broadcasts S256x2048) (q : Fin 256) (k : Fin 2048) :
    maximumf
        (subf (minimumf (broadcastTo S256x2048 x4 hc) (broadcastTo S256x2048 x2 hr))
          (maximumf (broadcastTo S256x2048 x3 hc) (broadcastTo S256x2048 x1 hr)))
        (broadcast S256x2048 (Scalar.ofBits (F := Ideal) .f32 0x00000000#32)) (ix2 q k)
      = ovl (x3 (ix2 q (0 : Fin 1))) (x4 (ix2 q (0 : Fin 1))) (x1 (ix2 (0 : Fin 1) k)) (x2 (ix2 (0 : Fin 1) k)) := by
  show max (min (broadcastTo S256x2048 x4 hc (ix2 q k)) (broadcastTo S256x2048 x2 hr (ix2 q k))
        - max (broadcastTo S256x2048 x3 hc (ix2 q k)) (broadcastTo S256x2048 x1 hr (ix2 q k)))
      (Ideal.ofBits .f32 0x00000000#32) = _
  rw [Cert.LibColumn.broadcastTo_a1_ab_apply x4 hc q k, Cert.LibColumn.broadcastTo_a1_ab_apply x3 hc q k,
    broadcastTo_1b_ab_apply x2 hr q k, broadcastTo_1b_ab_apply x1 hr q k, Ideal.ofBits_zero_f32]
  rfl

/-- The value the body clears the accumulator with is zero everywhere. -/
theorem pay1_apply (s : Fin 8) (q : Fin 256) : k0_pay1 (F := Ideal) (ix2 s q) = 0 := by
  unfold k0_pay1
  rw [shapeCast_self]
  exact Ideal.ofBits_zero_f32

/-- The value the body stores into the accumulator: the accumulator as loaded, plus, for spectrum s and output bin q of
    the tile, the sum over the tile's 2048 input bins k of the flux times the overlap of output bin q with input bin k. The
    blocks: x1, x2 the lower and upper edges of the tile's input bins (rows), x3, x4 those of the tile's output bins
    (columns), x0 the fluxes, acc the accumulator. -/
theorem pay2_apply (x1 x2 : Vec Ideal S1x2048 .f32) (x3 x4 : Vec Ideal S256x1 .f32) (x0 : Vec Ideal S8x2048 .f32)
    (acc : Vec Ideal S8x256 .f32) (s : Fin 8) (q : Fin 256) :
    k0_pay2 (F := Ideal) x1 x2 x3 x4 x0 acc (ix2 s q)
      = acc (ix2 s q) + ∑ k : Fin 2048, x0 (ix2 s k)
          * ovl (x3 (ix2 q (0 : Fin 1))) (x4 (ix2 q (0 : Fin 1))) (x1 (ix2 (0 : Fin 1) k)) (x2 (ix2 (0 : Fin 1) k)) := by
  unfold k0_pay2
  simp only [shapeCast_self]
  refine (addf_apply _ _ _).trans ?_
  refine congrArg (acc (ix2 s q) + ·) ?_
  refine (Cert.LibDotT.matmul_zero_transposed_apply dot_S8x2048_S256x2048_S8x256_1_1_0_0_n_n rfl rfl rfl rfl rfl rfl
    none _ _ (ix2 s q)).trans ?_
  refine Finset.sum_congr rfl fun k _ => ?_
  refine congrArg (x0 (ix2 s k) * ·) ?_
  exact overlap_apply x1 x2 x3 x4 _ _ q k

/-- The value the body stores into the output block: the accumulator divided, column by column, by the output bins'
    widths d. -/
theorem pay3_apply (acc : Vec Ideal S8x256 .f32) (d : Vec Ideal S1x256 .f32) (s : Fin 8) (q : Fin 256) :
    k0_pay3 (F := Ideal) acc d (ix2 s q) = Ideal.div (acc (ix2 s q)) (d (ix2 (0 : Fin 1) q)) := by
  unfold k0_pay3
  rw [shapeCast_self]
  refine (divf_apply _ _ _).trans ?_
  exact congrArg (Ideal.div (acc (ix2 s q))) (broadcastTo_1b_ab_apply d _ s q)

end Cert.KernelIdeal.Hand

end
-- ==== Proof.KI.Prologue.lean ====
/-
  The five arrays the host operations hand the pipelined region, read at a position.

  Before the region the program builds, for each of the two wavelength grids, the vector of the grid's bin edges (16385
  edges for the input grid, 2049 for the output grid): the two end edges and the midpoints between neighbouring points,
  joined into one vector. It builds them by the same operations on the same argument as the reference does, so each edge
  vector is the reference's value of that chain; it is named here and never opened.

  Each edge vector is then cut twice, from position 0 and from position 1, each cut one entry shorter than the vector:
  the first cut lists every bin's lower edge, the second every bin's upper edge. The input grid's two cuts are laid out
  as rows (1 × 16384), the output grid's two cuts as columns (2048 × 1), and the difference of the output grid's cuts,
  the bins' widths, as a row (1 × 2048).

  A cut from position o reads, at j, the vector at o + j. A reshape of a vector to a row or to a column keeps the
  row-major order, and the row-major position of (0, j) in a 1 × a array, and of (j, 0) in an a × 1 array, is j: entry j
  of the row or column is entry j of the vector. Hence entry i of the first row is input edge i and of the second input
  edge i + 1, entry o of the first column is output edge o and of the second output edge o + 1, and entry o of the
  widths is output edge o + 1 minus output edge o.
-/
import proofs.«149649_j24970939859722_1_alg».proof.Proof.KI.Kit
import proofs.«149649_j24970939859722_1_alg».proof.Proof.Spec
import Idealize.ShloMosaic.Lib.StableHlo.Run
import Idealize.ShloMosaic.Lib.Pipeline.Value
import Idealize.ShloMosaic.Lib.ValueLayout

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen Cert.Rebin

/-! ## Three facts about layout operations -/

/-- Joining three pieces along an axis depends on the pieces only through their values. -/
private theorem concatenate3_congr {α : Type} {t : Shape} {a : Fin t.rank} {s₁ s₂ s₃ : Shape}
    {x₁ y₁ : s₁.Idx → α} {x₂ y₂ : s₂.Idx → α} {x₃ y₃ : s₃.Idx → α}
    {h : Shape.Concatenates (([⟨s₁, x₁⟩, ⟨s₂, x₂⟩, ⟨s₃, x₃⟩] : List ((s : Shape) × (s.Idx → α))).map (·.1)) t a}
    {h' : Shape.Concatenates (([⟨s₁, y₁⟩, ⟨s₂, y₂⟩, ⟨s₃, y₃⟩] : List ((s : Shape) × (s.Idx → α))).map (·.1)) t a}
    (e₁ : x₁ = y₁) (e₂ : x₂ = y₂) (e₃ : x₃ = y₃) :
    concatenate t a [⟨s₁, x₁⟩, ⟨s₂, x₂⟩, ⟨s₃, x₃⟩] h = concatenate t a [⟨s₁, y₁⟩, ⟨s₂, y₂⟩, ⟨s₃, y₃⟩] h' := by
  subst e₁ e₂ e₃; rfl

/-- A vector cut from position o reads, at j, the vector at o + j. -/
private theorem slice1_apply {α : Type} {n k : ℕ} (o : ℕ) (X : (⟨1, ![n]⟩ : Shape).Idx → α)
    (h : (⟨1, ![n]⟩ : Shape).Slices ![o] ⟨1, ![k]⟩) (j : Fin k) (p : Fin n) (hp : p.val = o + j.val) :
    extractStridedSlice ⟨1, ![k]⟩ ![o] X h (ix1 j) = X (ix1 p) :=
  extractStridedSlice_apply _ _ _ _ _ (fun ax => by
    match ax with
    | ⟨0, _⟩ => exact hp)

/-- A vector of length a cast to an a × 1 column reads, at (i, u), the vector at i: the row-major position of (i, u) is
    i · 1 + u with u = 0. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The five arrays

Each proof reads the array as the host operations' composed term of the arguments, names the joined edge vector inside
it, shows that vector to be the reference's (piece by piece: the lower end edge, the midpoints, the upper end edge are the
same operations on the same argument), and then reads the cut and the reshape at the position. -/

variable (m : (ℓ : Loc nD τ sig) → Buf (Elt Ideal) ℓ)

/-- The five arrays the host operations hand the region, read at a position, in terms of the shared edge vectors of
    the two wavelength grids: the lower and the upper edge of every input bin (as rows), the lower and the upper edge of
    every output bin (as columns), and every output bin's width (as a row). -/
theorem loIn_apply (c : Dev nD) (i : Fin 16384) :
    (V m c main_v52 : (⟨S1x16384, .f32⟩ : BufTy).Contents (Elt Ideal)) (ix2 (0 : Fin 1) i)
      = edgesIn (m ((c : Thread nD τ).loc main_arg0)) (iLo i) := by
  dsimp only [V, hostOps0]
  after_results_simp
  simp only [Matrix.cons_val]
  generalize hE : (concatenate (α := Elt Ideal .f32) S16385 0 _ _) = E
  have hE' : E = Cert.ReferenceIdeal.Read.val_main_v23 (F := Ideal) (m ((c : Thread nD τ).loc main_arg0)) := by
    rw [← hE]; unfold Cert.ReferenceIdeal.Read.val_main_v23
    refine concatenate3_congr ?_ ?_ ?_ <;> (after_results_simp; rfl)
  clear hE
  refine (shapeCast_a_1a_apply (extractStridedSlice S16384 ![0] E slices_S16385_S16384_0) shapeCasts_S16384_S1x16384 0 i).trans ?_
  refine (slice1_apply 0 E slices_S16385_S16384_0 i (iLo i) (Nat.zero_add _).symm).trans ?_
  rw [hE']; rfl
theorem hiIn_apply (c : Dev nD) (i : Fin 16384) :
    (V m c main_v54 : (⟨S1x16384, .f32⟩ : BufTy).Contents (Elt Ideal)) (ix2 (0 : Fin 1) i)
      = edgesIn (m ((c : Thread nD τ).loc main_arg0)) (iHi i) := by
  dsimp only [V, hostOps0]
  after_results_simp
  simp only [Matrix.cons_val]
  generalize hE : (concatenate (α := Elt Ideal .f32) S16385 0 _ _) = E
  have hE' : E = Cert.ReferenceIdeal.Read.val_main_v23 (F := Ideal) (m ((c : Thread nD τ).loc main_arg0)) := by
    rw [← hE]; unfold Cert.ReferenceIdeal.Read.val_main_v23
    refine concatenate3_congr ?_ ?_ ?_ <;> (after_results_simp; rfl)
  clear hE
  refine (shapeCast_a_1a_apply (extractStridedSlice S16384 ![1] E slices_S16385_S16384_1) shapeCasts_S16384_S1x16384 0 i).trans ?_
  refine (slice1_apply 1 E slices_S16385_S16384_1 i (iHi i) (Nat.add_comm _ _)).trans ?_
  rw [hE']; rfl
theorem loOut_apply (c : Dev nD) (o : Fin 2048) :
    (V m c main_v56 : (⟨S2048x1, .f32⟩ : BufTy).Contents (Elt Ideal)) (ix2 o (0 : Fin 1))
      = edgesOut (m ((c : Thread nD τ).loc main_arg2)) (oLo o) := by
  dsimp only [V, hostOps0]
  after_results_simp
  simp only [Matrix.cons_val]
  generalize hE : (concatenate (α := Elt Ideal .f32) S2049 0 _ _) = E
  have hE' : E = Cert.ReferenceIdeal.Read.val_main_v47 (F := Ideal) (m ((c : Thread nD τ).loc main_arg2)) := by
    rw [← hE]; unfold Cert.ReferenceIdeal.Read.val_main_v47
    refine concatenate3_congr ?_ ?_ ?_ <;> (after_results_simp; rfl)
  clear hE
  refine (shapeCast_a_a1_apply (extractStridedSlice S2048 ![0] E slices_S2049_S2048_0) shapeCasts_S2048_S2048x1 o 0).trans ?_
  refine (slice1_apply 0 E slices_S2049_S2048_0 o (oLo o) (Nat.zero_add _).symm).trans ?_
  rw [hE']; rfl
theorem hiOut_apply (c : Dev nD) (o : Fin 2048) :
    (V m c main_v58 : (⟨S2048x1, .f32⟩ : BufTy).Contents (Elt Ideal)) (ix2 o (0 : Fin 1))
      = edgesOut (m ((c : Thread nD τ).loc main_arg2)) (oHi o) := by
  dsimp only [V, hostOps0]
  after_results_simp
  simp only [Matrix.cons_val]
  generalize hE : (concatenate (α := Elt Ideal .f32) S2049 0 _ _) = E
  have hE' : E = Cert.ReferenceIdeal.Read.val_main_v47 (F := Ideal) (m ((c : Thread nD τ).loc main_arg2)) := by
    rw [← hE]; unfold Cert.ReferenceIdeal.Read.val_main_v47
    refine concatenate3_congr ?_ ?_ ?_ <;> (after_results_simp; rfl)
  clear hE
  refine (shapeCast_a_a1_apply (extractStridedSlice S2048 ![1] E slices_S2049_S2048_1) shapeCasts_S2048_S2048x1 o 0).trans ?_
  refine (slice1_apply 1 E slices_S2049_S2048_1 o (oHi o) (Nat.add_comm _ _)).trans ?_
  rw [hE']; rfl
theorem width_apply (c : Dev nD) (o : Fin 2048) :
    (V m c main_v59 : (⟨S1x2048, .f32⟩ : BufTy).Contents (Elt Ideal)) (ix2 (0 : Fin 1) o)
      = edgesOut (m ((c : Thread nD τ).loc main_arg2)) (oHi o) - edgesOut (m ((c : Thread nD τ).loc main_arg2)) (oLo o) := by
  dsimp only [V, hostOps0]
  after_results_simp
  simp only [Matrix.cons_val]
  generalize hE : (concatenate (α := Elt Ideal .f32) S2049 0 _ _) = E
  have hE' : E = Cert.ReferenceIdeal.Read.val_main_v47 (F := Ideal) (m ((c : Thread nD τ).loc main_arg2)) := by
    rw [← hE]; unfold Cert.ReferenceIdeal.Read.val_main_v47
    refine concatenate3_congr ?_ ?_ ?_ <;> (after_results_simp; rfl)
  clear hE
  refine (shapeCast_a_1a_apply _ shapeCasts_S2048_S1x2048 0 o).trans ?_
  refine (Ideal.subf_def _ _).trans ?_
  rw [slice1_apply 1 E slices_S2049_S2048_1 o (oHi o) (Nat.add_comm _ _),
    slice1_apply 0 E slices_S2049_S2048_0 o (oLo o) (Nat.zero_add _).symm, hE']
  rfl

end Cert.KernelIdeal.Hand

end
-- ==== Proof.KI.Blocks.lean ====
/-
  Where a window's block sits in its array.

  The region's grid is 8 × 8 and its points are visited with the second axis fastest, so point t has first coordinate
  t / 8 (the tile of 256 output bins) and second coordinate t % 8 (the tile of 2048 input bins). Each window cuts its
  array into equal blocks and names, at every point, the block it stages by a block index per axis; the block's entry at
  position y then sits in the array, on each axis, at

      block index × block size + y.

  Six windows are read by the body. The flux table (8 × 16384, blocks 8 × 2048) and the two rows of input-bin edges
  (1 × 16384, blocks 1 × 2048) take block (0, t % 8): they move with the input tile. The two columns of output-bin edges
  (2048 × 1, blocks 256 × 1) take block (t / 8, 0) and the row of output-bin widths (1 × 2048, blocks 1 × 256) takes block
  (0, t / 8): they move with the output tile. The block indices are decided once over the 64 points; each statement below
  is then one line of arithmetic per axis, and the array's contents are never opened.
-/
import proofs.«149649_j24970939859722_1_alg».proof.Proof.KI.Kit
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

/-! ## The block indices over the grid -/

/-- The flux table's block at point t is (0, t % 8). -/
private theorem idx0 : ∀ t : Fin cfg0.N, win0_0.index t (0 : Fin 2) = 0 ∧ win0_0.index t (1 : Fin 2) = t.val % 8 :=
  (by decide +kernel : ∀ t : Fin grid0.N, _)
/-- The lower input edges' block at point t is (0, t % 8). -/
private theorem idx1 : ∀ t : Fin cfg0.N, win0_1.index t (0 : Fin 2) = 0 ∧ win0_1.index t (1 : Fin 2) = t.val % 8 :=
  (by decide +kernel : ∀ t : Fin grid0.N, _)
/-- The upper input edges' block at point t is (0, t % 8). -/
private theorem idx2 : ∀ t : Fin cfg0.N, win0_2.index t (0 : Fin 2) = 0 ∧ win0_2.index t (1 : Fin 2) = t.val % 8 :=
  (by decide +kernel : ∀ t : Fin grid0.N, _)
/-- The lower output edges' block at point t is (t / 8, 0). -/
private theorem idx3 : ∀ t : Fin cfg0.N, win0_3.index t (0 : Fin 2) = t.val / 8 ∧ win0_3.index t (1 : Fin 2) = 0 :=
  (by decide +kernel : ∀ t : Fin grid0.N, _)
/-- The upper output edges' block at point t is (t / 8, 0). -/
private theorem idx4 : ∀ t : Fin cfg0.N, win0_4.index t (0 : Fin 2) = t.val / 8 ∧ win0_4.index t (1 : Fin 2) = 0 :=
  (by decide +kernel : ∀ t : Fin grid0.N, _)
/-- The output widths' block at point t is (0, t / 8). -/
private theorem idx5 : ∀ t : Fin cfg0.N, win0_5.index t (0 : Fin 2) = 0 ∧ win0_5.index t (1 : Fin 2) = t.val / 8 :=
  (by decide +kernel : ∀ t : Fin grid0.N, _)

/-! ## A block's entry in its array -/

/-- Point t of the grid is output tile t / 8 at input tile t % 8. A block's entry sits in its array at block index times
    block size plus the position inside the block: the flux block and the two rows of input-bin edges move with the
    input tile (2048 bins each), the two columns of output-bin edges and the row of widths with the output tile (256 bins
    each). -/
theorem flux_blk (c : Dev nD) (t : Fin cfg0.N) (s : Fin 8) (j : Fin 2048) :
    (iblk m c 0 t : Vec F S8x2048 .f32) (ix2 s j)
      = (V m c main_arg1 : (⟨S8x16384, .f32⟩ : BufTy).Contents (Elt F)) (ix2 s (⟨(t.val % 8) * 2048 + j.val, by have := j.isLt; omega⟩ : Fin 16384)) := by
  obtain ⟨e0, e1⟩ := idx0 t
  unfold iblk
  show (V m c main_arg1 : (⟨S8x16384, .f32⟩ : BufTy).Contents (Elt F)) (((cfg0.win 0).blk t).view.emb (ix2 s j)) = _
  generalize (V m c main_arg1 : (⟨S8x16384, .f32⟩ : BufTy).Contents (Elt F)) = A
  refine congrArg A ?_
  funext a; apply Fin.ext
  match a with
  | ⟨0, _⟩ => show win0_0.index t (0 : Fin 2) * 8 + 1 * s.val = s.val; omega
  | ⟨1, _⟩ => show win0_0.index t (1 : Fin 2) * 2048 + 1 * j.val = (t.val % 8) * 2048 + j.val; omega
theorem loIn_blk (c : Dev nD) (t : Fin cfg0.N) (j : Fin 2048) :
    (iblk m c 1 t : Vec F S1x2048 .f32) (ix2 (0 : Fin 1) j)
      = (V m c main_v52 : (⟨S1x16384, .f32⟩ : BufTy).Contents (Elt F)) (ix2 (0 : Fin 1) (⟨(t.val % 8) * 2048 + j.val, by have := j.isLt; omega⟩ : Fin 16384)) := by
  obtain ⟨e0, e1⟩ := idx1 t
  unfold iblk
  show (V m c main_v52 : (⟨S1x16384, .f32⟩ : BufTy).Contents (Elt F)) (((cfg0.win 1).blk t).view.emb (ix2 (0 : Fin 1) j)) = _
  generalize (V m c main_v52 : (⟨S1x16384, .f32⟩ : BufTy).Contents (Elt F)) = A
  refine congrArg A ?_
  funext a; apply Fin.ext
  match a with
  | ⟨0, _⟩ => show win0_1.index t (0 : Fin 2) * 1 + 1 * 0 = 0; omega
  | ⟨1, _⟩ => show win0_1.index t (1 : Fin 2) * 2048 + 1 * j.val = (t.val % 8) * 2048 + j.val; omega
theorem hiIn_blk (c : Dev nD) (t : Fin cfg0.N) (j : Fin 2048) :
    (iblk m c 2 t : Vec F S1x2048 .f32) (ix2 (0 : Fin 1) j)
      = (V m c main_v54 : (⟨S1x16384, .f32⟩ : BufTy).Contents (Elt F)) (ix2 (0 : Fin 1) (⟨(t.val % 8) * 2048 + j.val, by have := j.isLt; omega⟩ : Fin 16384)) := by
  obtain ⟨e0, e1⟩ := idx2 t
  unfold iblk
  show (V m c main_v54 : (⟨S1x16384, .f32⟩ : BufTy).Contents (Elt F)) (((cfg0.win 2).blk t).view.emb (ix2 (0 : Fin 1) j)) = _
  generalize (V m c main_v54 : (⟨S1x16384, .f32⟩ : BufTy).Contents (Elt F)) = A
  refine congrArg A ?_
  funext a; apply Fin.ext
  match a with
  | ⟨0, _⟩ => show win0_2.index t (0 : Fin 2) * 1 + 1 * 0 = 0; omega
  | ⟨1, _⟩ => show win0_2.index t (1 : Fin 2) * 2048 + 1 * j.val = (t.val % 8) * 2048 + j.val; omega
theorem loOut_blk (c : Dev nD) (t : Fin cfg0.N) (q : Fin 256) :
    (iblk m c 3 t : Vec F S256x1 .f32) (ix2 q (0 : Fin 1))
      = (V m c main_v56 : (⟨S2048x1, .f32⟩ : BufTy).Contents (Elt F)) (ix2 (⟨(t.val / 8) * 256 + q.val, by have := q.isLt; have := lt_of_lt_of_eq t.isLt (show cfg0.N = 64 from N_0); omega⟩ : Fin 2048) (0 : Fin 1)) := by
  obtain ⟨e0, e1⟩ := idx3 t
  unfold iblk
  show (V m c main_v56 : (⟨S2048x1, .f32⟩ : BufTy).Contents (Elt F)) (((cfg0.win 3).blk t).view.emb (ix2 q (0 : Fin 1))) = _
  generalize (V m c main_v56 : (⟨S2048x1, .f32⟩ : BufTy).Contents (Elt F)) = A
  refine congrArg A ?_
  funext a; apply Fin.ext
  match a with
  | ⟨0, _⟩ => show win0_3.index t (0 : Fin 2) * 256 + 1 * q.val = (t.val / 8) * 256 + q.val; omega
  | ⟨1, _⟩ => show win0_3.index t (1 : Fin 2) * 1 + 1 * 0 = 0; omega
theorem hiOut_blk (c : Dev nD) (t : Fin cfg0.N) (q : Fin 256) :
    (iblk m c 4 t : Vec F S256x1 .f32) (ix2 q (0 : Fin 1))
      = (V m c main_v58 : (⟨S2048x1, .f32⟩ : BufTy).Contents (Elt F)) (ix2 (⟨(t.val / 8) * 256 + q.val, by have := q.isLt; have := lt_of_lt_of_eq t.isLt (show cfg0.N = 64 from N_0); omega⟩ : Fin 2048) (0 : Fin 1)) := by
  obtain ⟨e0, e1⟩ := idx4 t
  unfold iblk
  show (V m c main_v58 : (⟨S2048x1, .f32⟩ : BufTy).Contents (Elt F)) (((cfg0.win 4).blk t).view.emb (ix2 q (0 : Fin 1))) = _
  generalize (V m c main_v58 : (⟨S2048x1, .f32⟩ : BufTy).Contents (Elt F)) = A
  refine congrArg A ?_
  funext a; apply Fin.ext
  match a with
  | ⟨0, _⟩ => show win0_4.index t (0 : Fin 2) * 256 + 1 * q.val = (t.val / 8) * 256 + q.val; omega
  | ⟨1, _⟩ => show win0_4.index t (1 : Fin 2) * 1 + 1 * 0 = 0; omega
theorem width_blk (c : Dev nD) (t : Fin cfg0.N) (q : Fin 256) :
    (iblk m c 5 t : Vec F S1x256 .f32) (ix2 (0 : Fin 1) q)
      = (V m c main_v59 : (⟨S1x2048, .f32⟩ : BufTy).Contents (Elt F)) (ix2 (0 : Fin 1) (⟨(t.val / 8) * 256 + q.val, by have := q.isLt; have := lt_of_lt_of_eq t.isLt (show cfg0.N = 64 from N_0); omega⟩ : Fin 2048)) := by
  obtain ⟨e0, e1⟩ := idx5 t
  unfold iblk
  show (V m c main_v59 : (⟨S1x2048, .f32⟩ : BufTy).Contents (Elt F)) (((cfg0.win 5).blk t).view.emb (ix2 (0 : Fin 1) q)) = _
  generalize (V m c main_v59 : (⟨S1x2048, .f32⟩ : BufTy).Contents (Elt F)) = A
  refine congrArg A ?_
  funext a; apply Fin.ext
  match a with
  | ⟨0, _⟩ => show win0_5.index t (0 : Fin 2) * 1 + 1 * 0 = 0; omega
  | ⟨1, _⟩ => show win0_5.index t (1 : Fin 2) * 256 + 1 * q.val = (t.val / 8) * 256 + q.val; omega

end Cert.KernelIdeal.Hand

end
-- ==== Proof.KI.WriteBack.lean ====
/-
  From the eight output blocks to the result array.

  The output window cuts the 8 × 2048 result into eight blocks of 8 × 256, one per tile of 256 output bins, and names at
  point t the block (0, t / 8). The block is written back exactly at the last input tile, t % 8 = 7, so the run writes
  eight blocks, the one of output tile o at point 8 · o + 7. The entry (s, q) of block (0, o) is the result's entry
  (s, 256 · o + q), and every entry (s, p) of the result is entry (s, p % 256) of block (0, p / 256): the eight blocks tile
  the result. Hence, if what each last-tile point writes back agrees entry by entry with one array G under the point's
  block, the result ends holding G: an entry takes the value written by the last point whose block covers it, and every
  covering point writes G's value there.
-/
import proofs.«149649_j24970939859722_1_alg».proof.Proof.KI.Frame
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable {F : FTy → Type} [FloatOps F]
variable (m : (ℓ : Loc nD τ sig) → Buf (Elt F) ℓ)

/-! ## The output block over the grid -/

/-- The result's block at point t is (0, t / 8). -/
private theorem idx6 : ∀ t : Fin cfg0.N, win0_6.index t (0 : Fin 2) = 0 ∧ win0_6.index t (1 : Fin 2) = t.val / 8 :=
  (by decide +kernel : ∀ t : Fin grid0.N, _)

/-- An entry of the result lies under point t's block iff each coordinate lies in the block's range on its axis. -/
private theorem mem_blk6 (t : Fin cfg0.N) (i : S8x2048.Idx) :
    i ∈ ((cfg0.win 6).blk t).view.set ↔ ∀ a : Fin 2, win0_6.index t a * S8x256.size a ≤ (i a).val ∧ (i a).val < win0_6.index t a * S8x256.size a + S8x256.size a := by
  show i ∈ ((View.whole main_v60).slice (win0_6.rect t)).set ↔ _
  rw [View.set_slice_whole, Rect.mem_set_unit]
  exact Iff.rfl

/-- Every entry (s, p) of the result lies under the block written back at point 8 · (p / 256) + 7. -/
private theorem covered6 (i : S8x2048.Idx) :
    ∃ t : Fin cfg0.N, (cfg0.win 6).flush t = true ∧ i ∈ ((cfg0.win 6).blk t).view.set := by
  have hs : (i 0).val < 8 := (i 0).isLt
  have hp : (i 1).val < 2048 := (i 1).isLt
  obtain ⟨t, ht⟩ : ∃ t : Fin cfg0.N, t.val = (i 1).val / 256 * 8 + 7 :=
    ⟨⟨(i 1).val / 256 * 8 + 7, lt_of_lt_of_eq (by omega : (i 1).val / 256 * 8 + 7 < 64) N_0.symm⟩, rfl⟩
  obtain ⟨e0, e1⟩ := idx6 t
  refine ⟨t, (flush0_6 t).mpr (by omega), ?_⟩
  rw [mem_blk6]
  intro a
  match a with
  | ⟨0, _⟩ => show win0_6.index t (0 : Fin 2) * 8 ≤ (i 0).val ∧ (i 0).val < win0_6.index t (0 : Fin 2) * 8 + 8; omega
  | ⟨1, _⟩ => show win0_6.index t (1 : Fin 2) * 256 ≤ (i 1).val ∧ (i 1).val < win0_6.index t (1 : Fin 2) * 256 + 256; omega

/-! ## What a last-tile point writes back -/

/-- If the output block's buffer at a last-tile point t holds, at (s, q), G at (s, 256 · (t / 8) + q), then what the point
    writes back is G read through the point's block. -/
private theorem flushed6_eq (c : Dev nD) (G : (⟨S8x2048, .f32⟩ : BufTy).Contents (Elt F))
    (hG : ∀ t : Fin cfg0.N, t.val % 8 = 7 → ∀ (s : Fin 8) (q : Fin 256),
      outAt m c t (ix2 s q) = G (ix2 s (⟨(t.val / 8) * 256 + q.val, by have := q.isLt; have := lt_of_lt_of_eq t.isLt (show cfg0.N = 64 from N_0); omega⟩ : Fin 2048)))
    (t : Fin cfg0.N) (hf : (cfg0.win 6).flush t = true) :
    (dats m 0 c).flushed 6 t = ((cfg0.win 6).blk t).view.read (Elt F) G := by
  have h7 : t.val % 8 = 7 := (flush0_6 t).mp hf
  obtain ⟨e0, e1⟩ := idx6 t
  show (cfg0.win 6).cut (grid0.coords t) ((dats m 0 c).after 6 t) = _
  rw [after_out]
  funext y
  obtain ⟨s, q, rfl⟩ : ∃ (s : Fin 8) (q : Fin 256), y = (ix2 s q : S8x256.Idx) := ⟨y 0, y 1, eq_ix2 (n0 := 8) (n1 := 256) y⟩
  show outAt m c t (ix2 s q) = G (((cfg0.win 6).blk t).view.emb (ix2 s q))
  rw [hG t h7 s q]
  refine congrArg G ?_
  funext a; apply Fin.ext
  match a with
  | ⟨0, _⟩ => show s.val = win0_6.index t (0 : Fin 2) * 8 + 1 * s.val; omega
  | ⟨1, _⟩ => show (t.val / 8) * 256 + q.val = win0_6.index t (1 : Fin 2) * 256 + 1 * q.val; omega

/-! ## The result array -/

/-- The result array after the run. The pipeline writes the output block back at the eight last-tile points, point t
    writing the 8 × 256 block of output tile t / 8; those eight blocks tile the 8 × 2048 result. So if at every last-tile
    point the body left in the output block's buffer the entries of one array G under that block, the result array ends
    holding G. -/
theorem result_eq_of_blocks (c : Dev nD) (G : (⟨S8x2048, .f32⟩ : BufTy).Contents (Elt F))
    (hG : ∀ t : Fin cfg0.N, t.val % 8 = 7 → ∀ (s : Fin 8) (q : Fin 256),
      outAt m c t (ix2 s q) = G (ix2 s (⟨(t.val / 8) * 256 + q.val, by have := q.isLt; have := lt_of_lt_of_eq t.isLt (show cfg0.N = 64 from N_0); omega⟩ : Fin 2048))) :
    (dats m 0 c).arrAt 6 cfg0.N = G := by
  exact (dats m 0 c).arrAt_eq_of_cover 6 G (fun t hf => flushed6_eq m c G hG t hf) covered6

end Cert.KernelIdeal.Hand

end
-- ==== Proof.KI.Value.lean ====
/-
  The value of the idealized kernel program: its result array is the specification's kernel formula of the three arguments.

  Grid point t stands for output tile t / 8 and input tile t % 8: position q of its output blocks is output bin
  (t / 8)·256 + q, position j of its input blocks is input bin (t % 8)·2048 + j. For spectrum s and output bin o write
  term s o i = flux s i · overlap of output bin o with input bin i. One body run adds to the accumulator's entry (s, q)
  the sum of term s o i over the 2048 input bins i of the point's input tile. Starting from zero at input tile 0, after the
  body at point t the accumulator therefore holds the sum of term s o i over all input bins below ((t % 8) + 1)·2048 — by
  induction along the points, each step splitting off one tile's range —, and at input tile 7 that is the sum over all 16384
  input bins. There the body stores the accumulator divided by the output bins' widths, edge (o+1) minus edge o, which is
  the kernel formula; the eight blocks written back tile the result.
-/
import proofs.«149649_j24970939859722_1_alg».proof.Proof.KI.Contents
import proofs.«149649_j24970939859722_1_alg».proof.Proof.KI.Payload
import proofs.«149649_j24970939859722_1_alg».proof.Proof.KI.Prologue
import proofs.«149649_j24970939859722_1_alg».proof.Proof.KI.Blocks
import proofs.«149649_j24970939859722_1_alg».proof.Proof.KI.WriteBack

set_option maxRecDepth 16384

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.Rebin

variable (m : (ℓ : Loc nD τ sig) → Buf (Elt Ideal) ℓ) (ρ : Dev nD → PrngReg)

/-- The three arguments as launched on core c: the input grid's wavelengths, the flux table, the output grid's
    wavelengths. -/
abbrev wlIn (c : Dev nD) : (⟨Cert.ReferenceIdeal.S16384, .f32⟩ : BufTy).Contents (Elt Ideal) := m ((c : Thread nD τ).loc main_arg0)
abbrev flux (c : Dev nD) : (⟨Cert.ReferenceIdeal.S8x16384, .f32⟩ : BufTy).Contents (Elt Ideal) := m ((c : Thread nD τ).loc main_arg1)
abbrev wlOut (c : Dev nD) : (⟨Cert.ReferenceIdeal.S2048, .f32⟩ : BufTy).Contents (Elt Ideal) := m ((c : Thread nD τ).loc main_arg2)

/-- The input bin under position j of point t's input blocks, and the output bin under position q of its output blocks. -/
abbrev inBin (t : Fin cfg0.N) (j : Fin 2048) : Fin 16384 := ⟨(t.val % 8) * 2048 + j.val, by have := j.isLt; omega⟩
abbrev outBin (t : Fin cfg0.N) (q : Fin 256) : Fin 2048 :=
  ⟨(t.val / 8) * 256 + q.val, by have := q.isLt; have := lt_of_lt_of_eq t.isLt (show cfg0.N = 64 from N_0); omega⟩

/-- Flux of spectrum s in input bin i times the overlap of output bin o with input bin i. -/
def term (c : Dev nD) (s : Fin 8) (o : Fin 2048) (i : Fin 16384) : EReal :=
  fluxOf (flux m c) s i * ovl (edgesOut (wlOut m c) (oLo o)) (edgesOut (wlOut m c) (oHi o)) (edgesIn (wlIn m c) (iLo i)) (edgesIn (wlIn m c) (iHi i))

/-- The same on the naturals, zero past the last input bin: the form in which ranges of input bins are split. -/
def termN (c : Dev nD) (s : Fin 8) (o : Fin 2048) (n : ℕ) : EReal := if h : n < 16384 then term m c s o ⟨n, h⟩ else 0

/-! ## One body run -/

/-- The update at point t, applied to any accumulator contents: entry (s, q) grows by the point's tile of terms. -/
theorem update_apply (c : Dev nD) (t : Fin cfg0.N) (acc : Vec Ideal S8x256 .f32) (s : Fin 8) (q : Fin 256) :
    k0_pay2 (F := Ideal) (iblk m c 1 t) (iblk m c 2 t) (iblk m c 3 t) (iblk m c 4 t) (iblk m c 0 t) acc (ix2 s q)
      = acc (ix2 s q) + ∑ j : Fin 2048, term m c s (outBin t q) (inBin t j) := by
  refine (pay2_apply (iblk m c 1 t) (iblk m c 2 t) (iblk m c 3 t) (iblk m c 4 t) (iblk m c 0 t) acc s q).trans ?_
  refine congrArg (acc (ix2 s q) + ·) (Finset.sum_congr rfl fun j _ => ?_)
  rw [flux_blk m c t s j, loIn_blk m c t j, hiIn_blk m c t j, loOut_blk m c t q, hiOut_blk m c t q,
    loIn_apply m c, hiIn_apply m c, loOut_apply m c, hiOut_apply m c, V_main_arg1 m c]
  rfl

/-! ## Ranges of input bins -/

theorem range_split (g : ℕ → EReal) (k : ℕ) :
    ∑ x ∈ Finset.range ((k + 1) * 2048), g x = ∑ x ∈ Finset.range (k * 2048), g x + ∑ j : Fin 2048, g (k * 2048 + j.val) := by
  rw [show (k + 1) * 2048 = k * 2048 + 2048 by ring, Finset.sum_range_add]
  exact congrArg (_ + ·) (Finset.sum_range fun x => g (k * 2048 + x))

theorem termN_tile (c : Dev nD) (s : Fin 8) (t : Fin cfg0.N) (q : Fin 256) (j : Fin 2048) :
    termN m c s (outBin t q) ((t.val % 8) * 2048 + j.val) = term m c s (outBin t q) (inBin t j) := by
  unfold termN
  rw [dif_pos (by have := j.isLt; omega)]

theorem termN_all (c : Dev nD) (s : Fin 8) (o : Fin 2048) :
    ∑ x ∈ Finset.range 16384, termN m c s o x = ∑ i : Fin 16384, term m c s o i := by
  rw [Finset.sum_range]
  refine Finset.sum_congr rfl fun i _ => ?_
  unfold termN
  rw [dif_pos i.isLt]

/-! ## The accumulator, point by point -/

/-- After the body at position n the accumulator's entry (s, q) is the sum of the terms of the input bins below
    ((n % 8) + 1)·2048, for the output bin under q. -/
theorem acc_closed (c : Dev nD) (s : Fin 8) (q : Fin 256) : ∀ (n : ℕ) (hn : n < cfg0.N),
    accAt m c n hn (ix2 s q) = ∑ x ∈ Finset.range ((n % 8 + 1) * 2048), termN m c s (outBin ⟨n, hn⟩ q) x := by
  intro n
  induction n with
  | zero =>
    intro hn
    have e := accAt_first m c ⟨0, hn⟩ (Nat.zero_mod _)
    rw [show accAt m c 0 hn = accAt m c (⟨0, hn⟩ : Fin cfg0.N).val (⟨0, hn⟩ : Fin cfg0.N).isLt from rfl, e, accFirst_eq,
      update_apply m c ⟨0, hn⟩ _ s q, pay1_apply, zero_add, show (0 % 8 + 1) * 2048 = 2048 from rfl, Finset.sum_range]
    refine Finset.sum_congr rfl fun j _ => ?_
    rw [← termN_tile m c s ⟨0, hn⟩ q j]
    refine congrArg _ ?_
    show (0 % 8) * 2048 + j.val = j.val
    omega
  | succ n ih =>
    intro hn
    have hN : n + 1 < 64 := lt_of_lt_of_eq hn (show cfg0.N = 64 from N_0)
    let t : Fin cfg0.N := ⟨n + 1, hn⟩
    by_cases h0 : (n + 1) % 8 = 0
    · have e := accAt_first m c t h0
      rw [show accAt m c (n + 1) hn = accAt m c t.val t.isLt from rfl, e, accFirst_eq,
        update_apply m c t _ s q, pay1_apply, zero_add, h0, show (0 + 1) * 2048 = 2048 from rfl, Finset.sum_range]
      refine Finset.sum_congr rfl fun j _ => ?_
      rw [← termN_tile m c s t q j]
      refine congrArg _ ?_
      show ((n + 1) % 8) * 2048 + j.val = j.val
      omega
    · have hprev : accPrev m c t = accAt m c n (Nat.lt_of_succ_lt hn) := rfl
      have hout : outBin (⟨n, Nat.lt_of_succ_lt hn⟩ : Fin cfg0.N) q = outBin t q := Fin.ext (by show (n / 8) * 256 + q.val = ((n + 1) / 8) * 256 + q.val; omega)
      have hk : n % 8 + 1 = (n + 1) % 8 := by omega
      have hstep : accAt m c (n + 1) hn (ix2 s q)
          = accAt m c n (Nat.lt_of_succ_lt hn) (ix2 s q) + ∑ j : Fin 2048, term m c s (outBin t q) (inBin t j) := by
        by_cases h7 : (n + 1) % 8 = 7
        · rw [show accAt m c (n + 1) hn = accAt m c t.val t.isLt from rfl, accAt_last m c t h0 h7, accLast_eq, hprev]
          exact update_apply m c t _ s q
        · rw [show accAt m c (n + 1) hn = accAt m c t.val t.isLt from rfl, accAt_mid m c t h0 h7, accMid_eq, hprev]
          exact update_apply m c t _ s q
      rw [hstep, ih (Nat.lt_of_succ_lt hn), hout, hk, range_split (termN m c s (outBin t q)) ((n + 1) % 8)]
      refine congrArg (_ + ·) (Finset.sum_congr rfl fun j _ => ?_)
      exact (termN_tile m c s t q j).symm

/-! ## The output block at a last-tile point, and the result array -/

/-- At a last-tile point the output block's buffer holds, at (s, q), the kernel formula for spectrum s and the output bin
    under q. -/
theorem out_last (c : Dev nD) (t : Fin cfg0.N) (h7 : t.val % 8 = 7) (s : Fin 8) (q : Fin 256) :
    outAt m c t (ix2 s q) = kernelOf (fluxOf (flux m c)) (edgesIn (wlIn m c)) (edgesOut (wlOut m c)) s (outBin t q) := by
  have h0 : ¬t.val % 8 = 0 := by omega
  have hacc : k0_pay2 (F := Ideal) (iblk m c 1 t) (iblk m c 2 t) (iblk m c 3 t) (iblk m c 4 t) (iblk m c 0 t) (accPrev m c t) = accAt m c t.val t.isLt := by
    rw [accAt_last m c t h0 h7, accLast_eq]
  rw [outAt_last m c t h0 h7, outLast_eq, hacc]
  refine (pay3_apply (accAt m c t.val t.isLt) (iblk m c 5 t) s q).trans ?_
  rw [acc_closed m c s q t.val t.isLt, h7, show (7 + 1) * 2048 = 16384 from rfl, termN_all, width_blk m c t q, width_apply m c]
  rfl

/-- The result array after the run is the kernel formula of the three arguments. -/
theorem result_eq (c : Dev nD) :
    (dats m 0 c).arrAt 6 cfg0.N = kernelResult (wlIn m c) (flux m c) (wlOut m c) :=
  result_eq_of_blocks m c (kernelResult (wlIn m c) (flux m c) (wlOut m c)) fun t h7 s q => out_last m c t h7 s q

/-! ## The run -/

/-- Every weakly fair execution of the idealized kernel program terminates, with the result buffer at the kernel formula
    of the launched arguments and the three arguments unchanged. -/
theorem run : θ_run defs (onTc (τ := τ) (main (F := Ideal))) ⟨m, fun _ => 0, ρ⟩ (fun r => ∀ c : Dev nD,
      r.2.mem ((c.tc : Thread nD τ).loc main_v60) = kernelResult (wlIn m c) (flux m c) (wlOut m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 6).trans (result_eq m c),
      ((h c).2 main_arg0 (Pipeline.mem_restRefs_of main_arg0 (by decide) (by decide))).trans (V_main_arg0 m c),
      ((h c).1 0).trans (((dats m 0 c).arrAt_in 0 rfl _).trans ((A_eq m c 0).trans (V_main_arg1 m c))),
      ((h c).2 main_arg2 (Pipeline.mem_restRefs_of main_arg2 (by decide) (by decide))).trans (V_main_arg2 m c)⟩) (run_main m ρ)

end Cert.KernelIdeal.Hand

end
-- ==== Proof.Law.lean ====
/-
  The algebraic heart of the rebinning identity: for real fluxes and real bin edges the two sums

      Σ_i f_i · ovl_i            and            Σ_i (f_i · δ_i) · (ovl_i / δ_i) ,      δ_i = hi_i − lo_i ,

  are equal term by term, where ovl_i = max (min hi₁ hi_i − max lo₁ lo_i) 0 is the length of the overlap of the output
  bin [lo₁, hi₁] with the input bin [lo_i, hi_i], and "/" is the division of the extended reals in which a quotient by
  zero is an infinity (−∞ for 0 / 0).

  Fix one term and write f, lo₁, hi₁, lo₂, hi₂ for the five real numbers involved, δ = hi₂ − lo₂, v = ovl.  All of f, δ
  and v are real numbers, since max, min and − of reals are real.

  * If δ ≠ 0, division by δ is multiplication by the real number 1 / δ, and (f · δ) · (v · (1 / δ)) = f · v is an
    identity of the field of real numbers.

  * If δ = 0, then hi₂ = lo₂ =: e and the input bin is a single point.  Its overlap with anything has length zero:
    min hi₁ e ≤ e ≤ max lo₁ e, so min hi₁ e − max lo₁ e ≤ 0 and v = max (…) 0 = 0.  The left term is f · 0 = 0.  The right
    term is (f · 0) · (0 / 0) = 0 · (0 / 0), and in the extended reals 0 · x = 0 for every x, infinite or not; so the
    value of the quotient 0 / 0 never matters.

  Both programs then divide their sum by the same width hi₁ − lo₁ of the output bin, so equal sums give equal results.
-/
import proofs.«149649_j24970939859722_1_alg».proof.Proof.Spec

noncomputable section

open scoped BigOperators

namespace Cert.Rebin

open Idealize.ShloMosaic Idealize.ShloMosaic.ValueIdx Cert.ReferenceIdeal

/-- The embedding of the reals in the extended reals is monotone, so it commutes with max and with min. -/
private theorem coe_max_real (a b : ℝ) : ((max a b : ℝ) : EReal) = max (a : EReal) (b : EReal) :=
  EReal.coe_strictMono.monotone.map_max

private theorem coe_min_real (a b : ℝ) : ((min a b : ℝ) : EReal) = min (a : EReal) (b : EReal) :=
  EReal.coe_strictMono.monotone.map_min

/-- The overlap length of two intervals with real end points is the real number given by the same formula. -/
private theorem ovl_coe (lo₁ hi₁ lo₂ hi₂ : ℝ) :
    ovl (lo₁ : EReal) (hi₁ : EReal) (lo₂ : EReal) (hi₂ : EReal)
      = ((max (min hi₁ hi₂ - max lo₁ lo₂) 0 : ℝ) : EReal) := by
  unfold ovl
  rw [coe_max_real, EReal.coe_sub, coe_min_real, coe_max_real, EReal.coe_zero]

/-- An interval that is a single point e overlaps every interval in length zero:
    min hi₁ e ≤ e ≤ max lo₁ e. -/
private theorem overlap_point (lo₁ hi₁ e : ℝ) : max (min hi₁ e - max lo₁ e) 0 = 0 := by
  apply max_eq_right
  have h1 : min hi₁ e ≤ e := min_le_right _ _
  have h2 : e ≤ max lo₁ e := le_max_right _ _
  linarith

/-- One term: (f · δ) · (v / δ) = f · v, with δ = hi₂ − lo₂ and v the overlap length. -/
private theorem term_eq (f lo₁ hi₁ lo₂ hi₂ : ℝ) :
    ((f : EReal) * ((hi₂ : EReal) - (lo₂ : EReal)))
        * Ideal.div (ovl (lo₁ : EReal) (hi₁ : EReal) (lo₂ : EReal) (hi₂ : EReal)) ((hi₂ : EReal) - (lo₂ : EReal))
      = (f : EReal) * ovl (lo₁ : EReal) (hi₁ : EReal) (lo₂ : EReal) (hi₂ : EReal) := by
  rw [ovl_coe, ← EReal.coe_sub]
  by_cases hδ : hi₂ - lo₂ = 0
  · -- δ = 0: the overlap is zero, and 0 · x = 0 whatever the quotient x is.
    have h : hi₂ = lo₂ := sub_eq_zero.mp hδ
    subst h
    rw [overlap_point, sub_self, EReal.coe_zero, mul_zero, zero_mul]
  · -- δ ≠ 0: an identity of real numbers.
    rw [Ideal.div_coe hδ, ← EReal.coe_mul, ← EReal.coe_mul, ← EReal.coe_mul, ← EReal.coe_mul]
    congr 1
    field_simp

/-- Two sums over the same index set whose terms agree give the same quotient by a common divisor. -/
private theorem div_sum_congr {ι : Type} (t : Finset ι) (a b : ι → EReal) (W : EReal)
    (h : ∀ i ∈ t, a i = b i) : Ideal.div (∑ i ∈ t, a i) W = Ideal.div (∑ i ∈ t, b i) W := by
  rw [Finset.sum_congr rfl h]

/-- For real fluxes and real edges the kernel's sum and the reference's sum agree term by term, and the two programs divide
    the same sum by the same width. -/
theorem kernelOf_eq_referenceOf (fl : Fin 8 → Fin 16384 → EReal) (Ei : Fin 16385 → EReal) (Eo : Fin 2049 → EReal)
    (hfl : ∀ s i, ∃ r : ℝ, fl s i = (r : EReal)) (hEi : ∀ j, ∃ r : ℝ, Ei j = (r : EReal)) (hEo : ∀ j, ∃ r : ℝ, Eo j = (r : EReal))
    (s : Fin 8) (o : Fin 2048) : kernelOf fl Ei Eo s o = referenceOf fl Ei Eo s o := by
  unfold kernelOf referenceOf
  refine div_sum_congr _ _ _ _ (fun i _ => ?_)
  obtain ⟨f, hf⟩ := hfl s i
  obtain ⟨lo₁, hlo₁⟩ := hEo (oLo o)
  obtain ⟨hi₁, hhi₁⟩ := hEo (oHi o)
  obtain ⟨lo₂, hlo₂⟩ := hEi (iLo i)
  obtain ⟨hi₂, hhi₂⟩ := hEi (iHi i)
  rw [hf, hlo₁, hhi₁, hlo₂, hhi₂]
  exact (term_eq f lo₁ hi₁ lo₂ hi₂).symm

end Cert.Rebin

end
-- ==== Proof.Finite.lean ====
/-
  Every quantity the two programs read is a real number as soon as the inputs are.

  The edge vector of a grid w of n real points is assembled from three pieces: the first point moved down by half the
  first step, w 0 − (w 1 − w 0) / 2; the n − 1 midpoints (w (i+1) + w i) / 2; and the last point moved up by half the last
  step, w (n−1) + (w (n−1) − w (n−2)) / 2. Each entry of each piece is obtained from entries of w by sums, differences
  and a division by the constant 2, and each of these keeps a real number real; re-indexing an array (taking a slice,
  reading a one-entry array as a scalar and back, joining arrays end to end) only moves entries. So no edge is ever
  computed here: "every entry is a real" is carried through the chain, one operation at a time.

  The precondition compares |x| with +∞ at every entry of the three arguments and joins all the answers by "and".
  On the extended reals |x| = max x (−x) is below +∞ exactly when x is neither infinity, that is, when x is a real; so
  the joined answer 1 says that every entry of every argument is a real number.
-/
import proofs.«149649_j24970939859722_1_alg».proof.Proof.Spec
import proofs.«149649_j24970939859722_1_alg».proof.Pre_finite_inputs
import Idealize.ShloMosaic.Lib.ReduceAll

noncomputable section

open scoped BigOperators

namespace Cert.Rebin

open Idealize.ShloMosaic Idealize.ShloMosaic.ValueIdx Cert.ReferenceIdeal

/-! ### Arithmetic that keeps a real number real -/

/-- A difference and a sum of two reals are reals. -/
private theorem sub_real {x y : EReal} (hx : ∃ r : ℝ, x = (r : EReal)) (hy : ∃ r : ℝ, y = (r : EReal)) :
    ∃ r : ℝ, x - y = (r : EReal) := by
  obtain ⟨a, rfl⟩ := hx; obtain ⟨b, rfl⟩ := hy; exact ⟨a - b, (EReal.coe_sub a b).symm⟩
private theorem add_real {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy; exact ⟨a + b, (EReal.coe_add a b).symm⟩

/-- The single-precision pattern 0x40000000 (sign 0, exponent field 128, fraction 0) denotes 2^23 · 2^(128 − 127 − 23) = 2. -/
private theorem ofBits_two : Ideal.ofBits .f32 0x40000000#32 = ((2 : ℝ) : EReal) := by
  simp [Ideal.ofBits, Ideal.ieee]
  rw [← EReal.coe_mul]
  norm_num

/-- Half of a real is a real: the quotient by the real 2 is the product with 1/2. -/
private theorem half_real {x : EReal} (hx : ∃ r : ℝ, x = (r : EReal)) :
    ∃ r : ℝ, Ideal.div x (Ideal.ofBits .f32 0x40000000#32) = (r : EReal) := by
  obtain ⟨a, rfl⟩ := hx
  rw [ofBits_two, Ideal.div_coe (by norm_num : (2 : ℝ) ≠ 0)]
  exact ⟨a * (1 / 2), (EReal.coe_mul _ _).symm⟩

/-! ### The same, array by array

A slice, a change of shape and a broadcast read each entry of the result from one entry of the operand. -/

section arrays
variable {s t : Shape}

private theorem slice_real (off : Fin s.rank → Nat) (x : s.Idx → EReal) (h : s.Slices off t) (hx : AllReal x) :
    AllReal (extractStridedSlice t off x h) := fun _ => hx _
private theorem shapeCast_real (x : s.Idx → EReal) (h : s.ShapeCasts t) (hx : AllReal x) :
    AllReal (shapeCast t x h) := fun _ => hx _
private theorem broadcast_real (dims : Fin s.rank → Fin t.rank) (h : s.BroadcastsInDim t dims) (x : s.Idx → EReal)
    (hx : AllReal x) : AllReal (broadcastInDim t dims h x) := fun _ => hx _
private theorem subf_real (x y : FVec Ideal s .f32) (hx : AllReal x) (hy : AllReal y) : AllReal (subf x y) :=
  fun j => sub_real (hx j) (hy j)
private theorem addf_real (x y : FVec Ideal s .f32) (hx : AllReal x) (hy : AllReal y) : AllReal (addf x y) :=
  fun j => add_real (hx j) (hy j)
/-- The entrywise quotient by an array whose every entry is the constant 2. -/
private theorem halve_real (x c : FVec Ideal s .f32) (hc : ∀ j, c j = Ideal.ofBits .f32 0x40000000#32) (hx : AllReal x) :
    AllReal (Host.divf x c) := fun j => by
  show ∃ r : ℝ, Ideal.div (x j) (c j) = (r : EReal)
  rw [hc j]; exact half_real (hx j)

/-- Arrays joined end to end: every entry of the result is an entry of one of the pieces. -/
private theorem concatenate_real (a : Fin t.rank) (xs : List ((s : Shape) × (s.Idx → EReal)))
    (h : Shape.Concatenates (xs.map (·.1)) t a) (hP : ∀ p ∈ xs, ∀ i, ∃ r : ℝ, p.2 i = (r : EReal)) :
    AllReal (concatenate t a xs h) := fun j => by
  unfold concatenate
  exact hP _ (List.getElem_mem _) _

end arrays

/-! ### The precondition read back -/

/-- The shape with no axes has one index. -/
private instance : Subsingleton Cert.Pre_finite_inputs.S_.Idx := ⟨fun _ _ => funext fun d => d.elim0⟩

/-- The single-precision pattern 0x7F800000 (exponent field all ones, fraction 0) denotes +∞. -/
private theorem ofBits_inf : Ideal.ofBits .f32 0x7F800000#32 = (⊤ : EReal) := by
  simp [Ideal.ofBits, Ideal.ieee]

/-- |x| = max x (−x) is below +∞ only at a real x: at either infinity it is +∞. -/
private theorem real_of_abs_lt_inf (x : EReal)
    (h : FloatOps.cmpf (F := Ideal) (φ := .f32) .olt (FloatOps.hostAbsf (F := Ideal) (φ := .f32) x)
      (Ideal.ofBits .f32 0x7F800000#32) = 1#1) : ∃ r : ℝ, x = (r : EReal) := by
  rw [ofBits_inf] at h
  induction x using EReal.rec with
  | bot => exact absurd h (by simp [Ideal.cmpf_def, Ideal.absf_def, Ideal.cmp])
  | coe r => exact ⟨r, rfl⟩
  | top => exact absurd h (by simp [Ideal.cmpf_def, Ideal.absf_def, Ideal.cmp])

/-! ### The two edge vectors, and the three arguments -/

variable [Cert.ReferenceIdeal.Facts]

/-- The edges of a grid of real wavelengths are real. -/
theorem edgesIn_real (a0 : (⟨S16384, .f32⟩ : BufTy).Contents (Elt Ideal)) (h : AllReal a0) (j : Fin 16385) :
    ∃ r : ℝ, edgesIn a0 j = (r : EReal) := by
  -- the first edge: w 0 − (w 1 − w 0) / 2
  have h0 : AllReal (Read.val_main_v0 (F := Ideal) a0) := slice_real _ _ _ h
  have h2 : AllReal (Read.val_main_v2 (F := Ideal) a0) := shapeCast_real _ _ (slice_real _ _ _ h)
  have h4 : AllReal (Read.val_main_v4 (F := Ideal) a0) := shapeCast_real _ _ (slice_real _ _ _ h)
  have h6 : AllReal (Read.val_main_v6 (F := Ideal) a0) := halve_real _ _ (fun _ => rfl) (subf_real _ _ h2 h4)
  have h8 : AllReal (Read.val_main_v8 (F := Ideal) a0) := subf_real _ _ h0 (broadcast_real _ _ _ h6)
  -- the midpoints: (w (i+1) + w i) / 2
  have h13 : AllReal (Read.val_main_v13 (F := Ideal) a0) :=
    halve_real _ _ (fun _ => rfl) (addf_real _ _ (slice_real _ _ _ h) (slice_real _ _ _ h))
  -- the last edge: w (n−1) + (w (n−1) − w (n−2)) / 2
  have h14 : AllReal (Read.val_main_v14 (F := Ideal) a0) := slice_real _ _ _ h
  have h16 : AllReal (Read.val_main_v16 (F := Ideal) a0) := shapeCast_real _ _ (slice_real _ _ _ h)
  have h18 : AllReal (Read.val_main_v18 (F := Ideal) a0) := shapeCast_real _ _ (slice_real _ _ _ h)
  have h20 : AllReal (Read.val_main_v20 (F := Ideal) a0) := halve_real _ _ (fun _ => rfl) (subf_real _ _ h16 h18)
  have h22 : AllReal (Read.val_main_v22 (F := Ideal) a0) := addf_real _ _ h14 (broadcast_real _ _ _ h20)
  -- the three pieces joined
  have h23 : AllReal (Read.val_main_v23 (F := Ideal) a0) := by
    unfold Read.val_main_v23
    refine concatenate_real _ _ _ (fun p hp => ?_)
    simp only [List.mem_cons, List.mem_nil_iff, or_false] at hp
    rcases hp with rfl | rfl | rfl
    exacts [h8, h13, h22]
  exact h23 (ix1 j)

theorem edgesOut_real (a2 : (⟨S2048, .f32⟩ : BufTy).Contents (Elt Ideal)) (h : AllReal a2) (j : Fin 2049) :
    ∃ r : ℝ, edgesOut a2 j = (r : EReal) := by
  have h24 : AllReal (Read.val_main_v24 (F := Ideal) a2) := slice_real _ _ _ h
  have h26 : AllReal (Read.val_main_v26 (F := Ideal) a2) := shapeCast_real _ _ (slice_real _ _ _ h)
  have h28 : AllReal (Read.val_main_v28 (F := Ideal) a2) := shapeCast_real _ _ (slice_real _ _ _ h)
  have h30 : AllReal (Read.val_main_v30 (F := Ideal) a2) := halve_real _ _ (fun _ => rfl) (subf_real _ _ h26 h28)
  have h32 : AllReal (Read.val_main_v32 (F := Ideal) a2) := subf_real _ _ h24 (broadcast_real _ _ _ h30)
  have h37 : AllReal (Read.val_main_v37 (F := Ideal) a2) :=
    halve_real _ _ (fun _ => rfl) (addf_real _ _ (slice_real _ _ _ h) (slice_real _ _ _ h))
  have h38 : AllReal (Read.val_main_v38 (F := Ideal) a2) := slice_real _ _ _ h
  have h40 : AllReal (Read.val_main_v40 (F := Ideal) a2) := shapeCast_real _ _ (slice_real _ _ _ h)
  have h42 : AllReal (Read.val_main_v42 (F := Ideal) a2) := shapeCast_real _ _ (slice_real _ _ _ h)
  have h44 : AllReal (Read.val_main_v44 (F := Ideal) a2) := halve_real _ _ (fun _ => rfl) (subf_real _ _ h40 h42)
  have h46 : AllReal (Read.val_main_v46 (F := Ideal) a2) := addf_real _ _ h38 (broadcast_real _ _ _ h44)
  have h47 : AllReal (Read.val_main_v47 (F := Ideal) a2) := by
    unfold Read.val_main_v47
    refine concatenate_real _ _ _ (fun p hp => ?_)
    simp only [List.mem_cons, List.mem_nil_iff, or_false] at hp
    rcases hp with rfl | rfl | rfl
    exacts [h32, h37, h46]
  exact h47 (ix1 j)

/-- The precondition "every input is finite", all ones, says that every entry of the three arguments is a real number. -/
theorem allReal_of_pre [Cert.Pre_finite_inputs.Facts] (a0 : (⟨S16384, .f32⟩ : BufTy).Contents (Elt Ideal))
    (a1 : (⟨S8x16384, .f32⟩ : BufTy).Contents (Elt Ideal)) (a2 : (⟨S2048, .f32⟩ : BufTy).Contents (Elt Ideal))
    (h : Cert.Pre_finite_inputs.fn (F := Ideal) a0 a1 a2 = fun _ => 1#1) : AllReal a0 ∧ AllReal a1 ∧ AllReal a2 := by
  have e := congrFun h ValueIdx.ix0
  dsimp only [Cert.Pre_finite_inputs.fn] at e
  obtain ⟨e01, e2⟩ := IntOp.andi_eq_one.1 e
  obtain ⟨e0, e1⟩ := IntOp.andi_eq_one.1 e01
  exact ⟨fun j => real_of_abs_lt_inf _ (Host.reduce_andi_all _ _ _ _ _ e0 j),
    fun j => real_of_abs_lt_inf _ (Host.reduce_andi_all _ _ _ _ _ e1 j),
    fun j => real_of_abs_lt_inf _ (Host.reduce_andi_all _ _ _ _ _ e2 j)⟩

end Cert.Rebin

end
-- ==== Proof.RefValue.lean ====
/-
  The reference's result, read one entry at a time, is the reference formula of the specification.

  Entry (s, o) of the reference's result is a quotient. Its denominator is the width of output bin o, the difference
  of the two neighbouring output edges: the slices [1:2049] and [0:2048] of the 2049 output edges read at o are the
  edges o + 1 and o, and the two broadcasts that spread the widths over the 8 spectra read them back at o. Its
  numerator is a contraction over the 16384 input bins k of two tables:
    * the flux s k times the width of input bin k (the difference of the input edges k + 1 and k, by the same two
      slices of the 16385 input edges, spread over the 8 spectra by two broadcasts);
    * the overlap of output bin o with input bin k divided by that same width. The overlap is built from four
      tables on the 2048 x 16384 grid, each a slice of an edge vector broadcast along the other axis: the smaller of
      the two upper edges minus the larger of the two lower edges, clipped below at zero. The clip is written
      max 0 x with the integer 0 converted to a number, where the specification writes max x 0; the order of a
      maximum's arguments does not matter and the converted integer 0 is the number 0.
  Nothing here opens the two edge vectors: every slice of them is read at a position, and the position is identified
  with the lower or the upper edge of a bin.
-/
import proofs.«149649_j24970939859722_1_alg».proof.Proof.Spec

noncomputable section

open scoped BigOperators

namespace Cert.Rebin

open Idealize.ShloMosaic Idealize.ShloMosaic.ValueIdx Cert.ReferenceIdeal Cert.ReferenceIdeal.Read

variable [Cert.ReferenceIdeal.Facts]

/-! ## Positions: a slice starting at 1 reads the upper edge of a bin, a slice starting at 0 the lower edge -/

private theorem pos_in_hi (k : Fin 16384) : idx_main_v48 (ix1 k) = ix1 (iHi k) :=
  funext fun a => Fin.ext (by match a with | ⟨0, _⟩ => exact Nat.add_comm 1 k.val)
private theorem pos_in_lo (k : Fin 16384) : idx_main_v49 (ix1 k) = ix1 (iLo k) :=
  funext fun a => Fin.ext (by match a with | ⟨0, _⟩ => rfl)
private theorem pos_out_hi (o : Fin 2048) : idx_main_v51 (ix1 o) = ix1 (oHi o) :=
  funext fun a => Fin.ext (by match a with | ⟨0, _⟩ => exact Nat.add_comm 1 o.val)
private theorem pos_out_lo (o : Fin 2048) : idx_main_v52 (ix1 o) = ix1 (oLo o) :=
  funext fun a => Fin.ext (by match a with | ⟨0, _⟩ => rfl)

/-! ## The two width vectors -/

/-- The width of input bin k. -/
private theorem width_in (a0 : (⟨S16384, .f32⟩ : BufTy).Contents (Elt Ideal)) (k : Fin 16384) :
    val_main_v50 (F := Ideal) a0 (ix1 k) = edgesIn a0 (iHi k) - edgesIn a0 (iLo k) := by
  rw [val_main_v50_apply, val_main_v48_apply, val_main_v49_apply, pos_in_hi, pos_in_lo]
  rfl

/-- The width of output bin o. -/
private theorem width_out (a2 : (⟨S2048, .f32⟩ : BufTy).Contents (Elt Ideal)) (o : Fin 2048) :
    val_main_v53 (F := Ideal) a2 (ix1 o) = edgesOut a2 (oHi o) - edgesOut a2 (oLo o) := by
  rw [val_main_v53_apply, val_main_v51_apply, val_main_v52_apply, pos_out_hi, pos_out_lo]
  rfl

/-- The denominator: the output widths spread over the 8 spectra. -/
private theorem denom (a2 : (⟨S2048, .f32⟩ : BufTy).Contents (Elt Ideal)) (s : Fin 8) (o : Fin 2048) :
    val_main_v78 (F := Ideal) a2 (ix2 s o) = edgesOut a2 (oHi o) - edgesOut a2 (oLo o) := by
  have e : idx_main_v77 (idx_main_v78 (ix2 s o)) = ix1 o :=
    funext fun a => Fin.ext (by match a with | ⟨0, _⟩ => rfl)
  rw [val_main_v78_apply, val_main_v77_apply, e, width_out]

/-- The left table of the contraction: flux times the input bin's width. -/
private theorem weighted (a0 : (⟨S16384, .f32⟩ : BufTy).Contents (Elt Ideal))
    (a1 : (⟨S8x16384, .f32⟩ : BufTy).Contents (Elt Ideal)) (s : Fin 8) (k : Fin 16384) :
    val_main_v75 (F := Ideal) a0 a1 (ix2 s k) = fluxOf a1 s k * (edgesIn a0 (iHi k) - edgesIn a0 (iLo k)) := by
  have e : idx_main_v73 (idx_main_v74 (ix2 s k)) = ix1 k :=
    funext fun a => Fin.ext (by match a with | ⟨0, _⟩ => rfl)
  rw [val_main_v75_apply, val_main_v74_apply, val_main_v73_apply, e, width_in]
  rfl

/-! ## The overlap table -/

/-- The larger of the two lower edges. -/
private theorem lower (a0 : (⟨S16384, .f32⟩ : BufTy).Contents (Elt Ideal))
    (a2 : (⟨S2048, .f32⟩ : BufTy).Contents (Elt Ideal)) (o : Fin 2048) (k : Fin 16384) :
    val_main_v60 (F := Ideal) a0 a2 (ix2 o k) = max (edgesOut a2 (oLo o)) (edgesIn a0 (iLo k)) := by
  have eo : idx_main_v54 (idx_main_v55 (idx_main_v58 (ix2 o k))) = ix1 (oLo o) :=
    funext fun a => Fin.ext (by match a with | ⟨0, _⟩ => rfl)
  have ei : idx_main_v56 (idx_main_v57 (idx_main_v59 (ix2 o k))) = ix1 (iLo k) :=
    funext fun a => Fin.ext (by match a with | ⟨0, _⟩ => rfl)
  rw [val_main_v60_apply, val_main_v58_apply, val_main_v55_apply, val_main_v54_apply, eo,
    val_main_v59_apply, val_main_v57_apply, val_main_v56_apply, ei]
  rfl

/-- The smaller of the two upper edges. -/
private theorem upper (a0 : (⟨S16384, .f32⟩ : BufTy).Contents (Elt Ideal))
    (a2 : (⟨S2048, .f32⟩ : BufTy).Contents (Elt Ideal)) (o : Fin 2048) (k : Fin 16384) :
    val_main_v67 (F := Ideal) a0 a2 (ix2 o k) = min (edgesOut a2 (oHi o)) (edgesIn a0 (iHi k)) := by
  have eo : idx_main_v61 (idx_main_v62 (idx_main_v65 (ix2 o k))) = ix1 (oHi o) :=
    funext fun a => Fin.ext (by match a with | ⟨0, _⟩ => exact Nat.add_comm 1 o.val)
  have ei : idx_main_v63 (idx_main_v64 (idx_main_v66 (ix2 o k))) = ix1 (iHi k) :=
    funext fun a => Fin.ext (by match a with | ⟨0, _⟩ => exact Nat.add_comm 1 k.val)
  rw [val_main_v67_apply, val_main_v65_apply, val_main_v62_apply, val_main_v61_apply, eo,
    val_main_v66_apply, val_main_v64_apply, val_main_v63_apply, ei]
  rfl

/-- The clip's bound: the integer 0, converted, is the number 0 at every position. -/
private theorem clip_bound (j : S2048x16384.Idx) : val_main_call0_v1 (F := Ideal) j = 0 := by
  rw [val_main_call0_v1_apply, val_main_call0_v0_apply, val_main_c_apply]
  show (((0#32 : BitVec 32).toInt : ℝ) : EReal) = 0
  rw [BitVec.toInt_zero, Int.cast_zero, EReal.coe_zero]

/-- The clipped difference is the overlap of output bin o with input bin k. -/
private theorem overlap (a0 : (⟨S16384, .f32⟩ : BufTy).Contents (Elt Ideal))
    (a2 : (⟨S2048, .f32⟩ : BufTy).Contents (Elt Ideal)) (o : Fin 2048) (k : Fin 16384) :
    val_main_v69 (F := Ideal) a0 a2 (ix2 o k)
      = ovl (edgesOut a2 (oLo o)) (edgesOut a2 (oHi o)) (edgesIn a0 (iLo k)) (edgesIn a0 (iHi k)) := by
  rw [val_main_v69_apply, clip_bound, val_main_v68_apply, upper, lower]
  exact max_comm _ _

/-- The right table of the contraction: the overlap as a fraction of the input bin's width. -/
private theorem fraction (a0 : (⟨S16384, .f32⟩ : BufTy).Contents (Elt Ideal))
    (a2 : (⟨S2048, .f32⟩ : BufTy).Contents (Elt Ideal)) (o : Fin 2048) (k : Fin 16384) :
    val_main_v72 (F := Ideal) a0 a2 (ix2 o k)
      = Ideal.div (ovl (edgesOut a2 (oLo o)) (edgesOut a2 (oHi o)) (edgesIn a0 (iLo k)) (edgesIn a0 (iHi k)))
          (edgesIn a0 (iHi k) - edgesIn a0 (iLo k)) := by
  have e : idx_main_v70 (idx_main_v71 (ix2 o k)) = ix1 k :=
    funext fun a => Fin.ext (by match a with | ⟨0, _⟩ => rfl)
  rw [val_main_v72_apply, overlap, val_main_v71_apply, val_main_v70_apply, e, width_in]
  rfl

/-! ## The result -/

/-- The reference's result, stage by stage, is the reference formula over the shared edge vectors. -/
theorem reference_value (a0 : (⟨S16384, .f32⟩ : BufTy).Contents (Elt Ideal)) (a1 : (⟨S8x16384, .f32⟩ : BufTy).Contents (Elt Ideal))
    (a2 : (⟨S2048, .f32⟩ : BufTy).Contents (Elt Ideal)) :
    Cert.ReferenceIdeal.Read.val_main_v79 (F := Ideal) a0 a1 a2 = referenceResult a0 a1 a2 := by
  funext j
  obtain ⟨s, o, rfl⟩ : ∃ (s : Fin 8) (o : Fin 2048), j = ix2 s o := ⟨j 0, j 1, eq_ix2 j⟩
  have el : ∀ k : Fin 16384, lidx_main_v76 (ix2 s o) k = ix2 s k := fun k =>
    funext fun a => Fin.ext (by match a with | ⟨0, _⟩ => rfl | ⟨1, _⟩ => rfl)
  have er : ∀ k : Fin 16384, ridx_main_v76 (ix2 s o) k = ix2 o k := fun k =>
    funext fun a => Fin.ext (by match a with | ⟨0, _⟩ => rfl | ⟨1, _⟩ => rfl)
  rw [val_main_v79_apply, val_main_v76_apply, denom]
  show Ideal.div _ _ = referenceOf (fluxOf a1) (edgesIn a0) (edgesOut a2) s o
  unfold referenceOf
  refine congrArg (fun x => Ideal.div x (edgesOut a2 (oHi o) - edgesOut a2 (oLo o))) ?_
  refine Finset.sum_congr rfl fun k _ => ?_
  rw [el, er, weighted, fraction]

end Cert.Rebin

end
-- ==== Proof.lean ====
/-
  Flux-conserving rebinning of 8 spectra from 16384 input wavelength bins onto 2048 output bins: a tiled kernel against
  its whole-array reference, equal on the extended reals whenever every input is a real number.

  Both programs turn each wavelength grid into its bin edges (midpoints of neighbouring wavelengths, the two end points
  moved outwards by half the neighbouring step) by the same chain of host operations. With overlap o i the length of the
  intersection of output bin o with input bin i (the smaller upper edge minus the larger lower edge, not below zero) the
  kernel computes ( Σ_i flux s i · overlap o i ) / width o, eight tiles of 2048 input bins accumulated per tile of 256
  output bins, while the reference computes ( Σ_i (flux s i · δ i) · (overlap o i / δ i) ) / width o with δ i the width
  of input bin i. For real inputs every edge is real. Where δ i ≠ 0 the factor δ i cancels in the reals. Where δ i = 0
  the two edges of input bin i coincide, so the smaller-upper-minus-larger-lower difference is at most zero and the
  overlap is 0: the kernel's term is flux · 0 = 0, and the reference's is (flux · 0) · (0 / 0) = 0 · (0 / 0) = 0 whatever
  the quotient by zero denotes. So the sums agree term by term, and both programs divide the same sum by the same width.
  Finiteness of the inputs is used exactly there: with an infinite edge or flux neither the cancellation nor 0 · x = 0 ·
  y would be available in the form the two programs need.

  The three frames: the reference has no kernel, its frame is its run with the result dropped; the kernel program, read
  at words and read at extended reals, is 66 host operations and one pipelined region over an 8 × 8 grid whose body has
  three cases (first, middle, last tile of input bins) around an accumulator carried from point to point. The
  idealization rewrote nothing, so it preserves the kernel trivially.
-/
import proofs.«149649_j24970939859722_1_alg».proof.Defs
import proofs.«149649_j24970939859722_1_alg».proof.Proof.Gen.Kernel
import proofs.«149649_j24970939859722_1_alg».proof.Proof.Gen.KernelIdeal
import proofs.«149649_j24970939859722_1_alg».proof.Proof.Gen.ReferenceIdeal
import proofs.«149649_j24970939859722_1_alg».proof.Proof.Gen.Pre_finite_inputs
import proofs.«149649_j24970939859722_1_alg».proof.Proof.Gen.ReferenceIdeal.Read
import proofs.«149649_j24970939859722_1_alg».proof.Proof.K.Frame
import proofs.«149649_j24970939859722_1_alg».proof.Proof.KI.Value
import proofs.«149649_j24970939859722_1_alg».proof.Proof.Law
import proofs.«149649_j24970939859722_1_alg».proof.Proof.Finite
import proofs.«149649_j24970939859722_1_alg».proof.Proof.RefValue
import Idealize.ShloMosaic.Adequacy
import Idealize.ShloMosaic.Init

noncomputable section

namespace Cert.Rebin

open Idealize.ShloMosaic Idealize.ShloMosaic.ValueIdx Cert.ReferenceIdeal

/-- For finite inputs the kernel formula and the reference formula give the same array: the inputs are real, so the
    edges are, and the two sums agree term by term. -/
theorem kernelResult_eq_referenceResult (a0 : (⟨S16384, .f32⟩ : BufTy).Contents (Elt Ideal))
    (a1 : (⟨S8x16384, .f32⟩ : BufTy).Contents (Elt Ideal)) (a2 : (⟨S2048, .f32⟩ : BufTy).Contents (Elt Ideal))
    (h : Cert.Pre_finite_inputs.fn (F := Ideal) a0 a1 a2 = fun _ => 1#1) :
    kernelResult a0 a1 a2 = referenceResult a0 a1 a2 := by
  obtain ⟨h0, h1, h2⟩ := allReal_of_pre a0 a1 a2 h
  funext j
  exact kernelOf_eq_referenceOf _ _ _ (fun s i => h1 (ix2 s i)) (edgesIn_real a0 h0) (edgesOut_real a2 h2) (j 0) (j 1)

end Cert.Rebin

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result array ends at the kernel formula of its arguments, the reference's at the reference formula of
    arguments that agree with them; under the precondition the two formulas are one array. -/
theorem algebraic : Cert.algebraic_KernelIdeal_ReferenceIdeal := by
  intro m ρ m' ρ' hpre hagree
  refine ⟨fun c => Cert.Rebin.kernelResult (Cert.KernelIdeal.Hand.wlIn m c) (Cert.KernelIdeal.Hand.flux m c) (Cert.KernelIdeal.Hand.wlOut m c),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v79_eq, Cert.Rebin.reference_value, (hagree c).1, (hagree c).2.1, (hagree c).2.2]
  exact (Cert.Rebin.kernelResult_eq_referenceResult _ _ _ (hpre c)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
